-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xCE6E6B28#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x64 : Shape := ⟨2, ![1024, 64]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_arg4 : FVec F S1024x64 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S1024x64 .f32 := Host.absf main_arg4
  let main_cst_6 : FVec F S_ .f32 := constant S_ .f32 0x7F800000#32
  let main_v20 : FVec F S1024x64 .f32 := broadcastInDim S1024x64 ![] bcast_S_S1024x64 main_cst_6
  let main_v21 : IVec S1024x64 1 := cmpf .olt main_v19 main_v20
  let main_c_7 : IVec S_ 1 := constantI S_ 1 1#1
  let main_v22 : IVec S_ 1 := (fun x v => Host.reduce IntOp.andi x v reducesTo_S1024x64_S_d0_1 h_S_) main_v21 main_c_7
  let main_v23 : IVec S_ 1 := andi main_v18 main_v22
  main_v23

def fn {F : FTy → Type} [FloatOps F] (main_arg0 : FVec F S8x2048x1024 .f32) (main_arg1 : FVec F S8x2048x1024 .f32) (main_arg2 : FVec F S1024x64 .f32) (main_arg3 : FVec F S1024x64 .f32) (main_arg4 : FVec F S1024x64 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg4 main_v13 main_v16
-- ==== Kernel.lean ====
abbrev S8x2048x1024 : Shape := ⟨3, ![8, 2048, 1024]⟩
abbrev S1024x64 : Shape := ⟨2, ![1024, 64]⟩
abbrev S8x2048x64 : Shape := ⟨3, ![8, 2048, 64]⟩
abbrev S1x1024x1024 : Shape := ⟨3, ![1, 1024, 1024]⟩
abbrev S1x1024x64 : Shape := ⟨3, ![1, 1024, 64]⟩
abbrev S1024x1024 : Shape := ⟨2, ![1024, 1024]⟩
abbrev S1x512x64 : Shape := ⟨3, ![1, 512, 64]⟩
abbrev S512x1 : Shape := ⟨2, ![512, 1]⟩
abbrev S512x64 : Shape := ⟨2, ![512, 64]⟩
abbrev S64x1024 : Shape := ⟨2, ![64, 1024]⟩
abbrev S512x1024 : Shape := ⟨2, ![512, 1024]⟩
abbrev S512 : Shape := ⟨1, ![512]⟩

abbrev nBuf : Space → Nat
  | .hbm => 9
  | .vmem => 24
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x64, .f32⟩
  | .hbm, ⟨3, _⟩ => ⟨S1024x64, .f32⟩
  | .hbm, ⟨4, _⟩ => ⟨S1024x64, .f32⟩
  | .hbm, ⟨5, _⟩ => ⟨S8x2048x64, .bf16⟩
  | .hbm, ⟨6, _⟩ => ⟨S8x2048x64, .bf16⟩
  | .hbm, ⟨7, _⟩ => ⟨S8x2048x64, .bf16⟩
  | .hbm, ⟨8, _⟩ => ⟨S8x2048x64, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1x1024x64, .bf16⟩
  | .local _ .vmem, ⟨8, _⟩ => ⟨S1x1024x64, .bf16⟩
  | .local _ .vmem, ⟨9, _⟩ => ⟨S1x1024x64, .bf16⟩
  | .local _ .vmem, ⟨10, _⟩ => ⟨S1x1024x64, .bf16⟩
  | .local _ .vmem, ⟨11, _⟩ => ⟨S1x1024x64, .bf16⟩
  | .local _ .vmem, ⟨12, _⟩ => ⟨S1x1024x64, .bf16⟩
  | .local _ .vmem, ⟨13, _⟩ => ⟨S1x512x64, .bf16⟩
  | .local _ .vmem, ⟨14, _⟩ => ⟨S1x512x64, .bf16⟩
  | .local _ .vmem, ⟨15, _⟩ => ⟨S1x1024x64, .bf16⟩
  | .local _ .vmem, ⟨16, _⟩ => ⟨S1x1024x64, .bf16⟩
  | .local _ .vmem, ⟨17, _⟩ => ⟨S1x1024x64, .bf16⟩
  | .local _ .vmem, ⟨18, _⟩ => ⟨S1x1024x64, .bf16⟩
  | .local _ .vmem, ⟨19, _⟩ => ⟨S1x512x64, .f32⟩
  | .local _ .vmem, ⟨20, _⟩ => ⟨S1x512x64, .f32⟩
  | .local _ .vmem, ⟨21, _⟩ => ⟨S512x1, .f32⟩
  | .local _ .vmem, ⟨22, _⟩ => ⟨S512x1, .f32⟩
  | .local _ .vmem, ⟨23, _⟩ => ⟨S512x64, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨3, ![8, 4, 2], ![false, false, false]⟩

def k1_cond3 (i : grid1.Coords) : BitVec 1 :=
  let arg2 : BitVec 32 := BitVec.ofNat 32 (i 2).val
  let c1_i32_2 : BitVec 32 := 1#32
  let v9 : BitVec 1 := Scalar.cmpi .eq arg2 c1_i32_2
  let v10 : BitVec 32 := Scalar.extui v9
  let c0_i32_3 : BitVec 32 := 0#32
  let v11 : BitVec 1 := Scalar.cmpi .ne v10 c0_i32_3
  v11

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c512_i32 : BitVec 32 := 512#32
  let v1 : BitVec 32 := Scalar.muli v0 c512_i32
  let c1_i32_0 : BitVec 32 := 1#32
  let v2 : BitVec 32 := Scalar.subi v1 c1_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.minsi v19 c1_i32_6
  let v21 : BitVec 32 := Scalar.minsi arg2 v20
  let c0_i32_7 : BitVec 32 := 0#32
  let c0_i32_8 : BitVec 32 := 0#32
  ![arg0.toNat, v21.toNat, c0_i32_7.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c512_i32 : BitVec 32 := 512#32
  let v1 : BitVec 32 := Scalar.muli v0 c512_i32
  let c1_i32_0 : BitVec 32 := 1#32
  let v2 : BitVec 32 := Scalar.subi v1 c1_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.minsi v19 c1_i32_6
  let v21 : BitVec 32 := Scalar.minsi arg2 v20
  let c0_i32_7 : BitVec 32 := 0#32
  let c0_i32_8 : BitVec 32 := 0#32
  ![arg0.toNat, v21.toNat, c0_i32_7.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  transposes_S1024x64_p1_0_S64x1024 : S1024x64.Transposes [1, 0] S64x1024
  iota_S512x1024_d0_w32 : S512x1024.Iotas .tc 32 [0]
  iota_S512x1024_d1_w32 : S512x1024.Iotas .tc 32 [1]
  reduces_S512x1024_S512 : S512x1024.Reduces [1] S512
  shapeCasts_S512_S512x1 : S512.ShapeCasts S512x1
  broadcasts_S512x1_S512x1024 : S512x1.Broadcasts S512x1024
  broadcasts_S512x1_S512x64 : S512x1.Broadcasts S512x64
  shapeCasts_S512x64_S1x512x64 : S512x64.ShapeCasts S1x512x64
  dot_S1024x1024_S1024x64_S1024x64_1_0_0_1_n_n_wf : DotDims.WF S1024x1024 S1024x64 S1024x64 [1] [0] [0] [1] [] []
  dot_S512x64_S64x1024_S512x1024_1_0_0_1_n_n_wf : DotDims.WF S512x64 S64x1024 S512x1024 [1] [0] [0] [1] [] []
  dot_S512x1024_S1024x64_S512x64_1_0_0_1_n_n_wf : DotDims.WF S512x1024 S1024x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x1024.size a
  hwx0_0 : ∀ i : grid0.Coords, EltTy.bits .f32 = 32 ∨ (Rect.block (s := S8x2048x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x2048x1024.size a
  hwx0_1 : ∀ i : grid0.Coords, EltTy.bits .f32 = 32 ∨ (Rect.block (s := S8x2048x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .f32 = 32 ∨ (Rect.block (s := S1024x64) S1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S1024x64.size a
  hwx0_4 : ∀ i : grid0.Coords, EltTy.bits .f32 = 32 ∨ (Rect.block (s := S1024x64) S1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x64.size a ≤ S8x2048x64.size a
  hwx0_5 : ∀ i : grid0.Coords, EltTy.bits .bf16 = 32 ∨ (Rect.block (s := S8x2048x64) S1x1024x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x64.size a ≤ S8x2048x64.size a
  hwx0_6 : ∀ i : grid0.Coords, EltTy.bits .bf16 = 32 ∨ (Rect.block (s := S8x2048x64) S1x1024x64.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x64.size a ≤ S8x2048x64.size a
  hwx0_7 : ∀ i : grid0.Coords, EltTy.bits .bf16 = 32 ∨ (Rect.block (s := S8x2048x64) S1x1024x64.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S8x2048x64.size a
  hwx1_0 : ∀ i : grid1.Coords, EltTy.bits .bf16 = 32 ∨ (Rect.block (s := S8x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S8x2048x64.size a
  hwx1_1 : ∀ i : grid1.Coords, EltTy.bits .bf16 = 32 ∨ (Rect.block (s := S8x2048x64) S1x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x64.size a ≤ S8x2048x64.size a
  hwx1_2 : ∀ i : grid1.Coords, EltTy.bits .bf16 = 32 ∨ (Rect.block (s := S8x2048x64) S1x1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S8x2048x64.size a
  hwx1_3 : ∀ i : grid1.Coords, EltTy.bits .f32 = 32 ∨ (Rect.block (s := S8x2048x64) S1x512x64.size (cc1_transform_3 i) (hinb1_3 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1x1024x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1x1024x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_2) S1x1024x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v0_0) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x64 : Shape := ⟨2, ![1024, 64]⟩
abbrev S8x2048x64 : Shape := ⟨3, ![8, 2048, 64]⟩
abbrev S8x2048x2048 : Shape := ⟨3, ![8, 2048, 2048]⟩
abbrev S_ : Shape := ⟨0, ![]⟩
abbrev S2048x2048 : Shape := ⟨2, ![2048, 2048]⟩
abbrev S8x2048 : Shape := ⟨2, ![8, 2048]⟩
abbrev S8x2048x1 : Shape := ⟨3, ![8, 2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x64, .f32⟩
  | .hbm, ⟨3, _⟩ => ⟨S1024x64, .f32⟩
  | .hbm, ⟨4, _⟩ => ⟨S1024x64, .f32⟩
  | .hbm, ⟨5, _⟩ => ⟨S8x2048x64, .f32⟩
  | .hbm, ⟨6, _⟩ => ⟨S8x2048x64, .f32⟩
  | .hbm, ⟨7, _⟩ => ⟨S8x2048x64, .f32⟩
  | .hbm, ⟨8, _⟩ => ⟨S8x2048x2048, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S_, .i1⟩
  | .hbm, ⟨13, _⟩ => ⟨S2048x2048, .i1⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .i1⟩
  | .hbm, ⟨21, _⟩ => ⟨S2048x2048, .i1⟩
  | .hbm, ⟨22, _⟩ => ⟨S2048x2048, .i1⟩
  | .hbm, ⟨23, _⟩ => ⟨S_, .f32⟩
  | .hbm, ⟨24, _⟩ => ⟨S_, .f32⟩
  | .hbm, ⟨25, _⟩ => ⟨S8x2048x2048, .i1⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048, .f32⟩
  | .hbm, ⟨30, _⟩ => ⟨S_, .f32⟩
  | .hbm, ⟨31, _⟩ => ⟨S8x2048, .f32⟩
  | .hbm, ⟨32, _⟩ => ⟨S8x2048, .f32⟩
  | .hbm, ⟨33, _⟩ => ⟨S8x2048x1, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048, .f32⟩
  | .hbm, ⟨39, _⟩ => ⟨S8x2048x1, .f32⟩
  | .hbm, ⟨40, _⟩ => ⟨S8x2048x2048, .f32⟩
  | .hbm, ⟨41, _⟩ => ⟨S8x2048x2048, .f32⟩
  | .hbm, ⟨42, _⟩ => ⟨S8x2048x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_0 : Ref sig .tc := ⟨.hbm, 20, rfl⟩
abbrev main_call0_v5 : Ref sig .tc := ⟨.hbm, 21, rfl⟩
abbrev main_v7 : Ref sig .tc := ⟨.hbm, 22, rfl⟩
abbrev main_cst_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S8x2048x2048_1_2 : S2048x2048.BroadcastsInDim S8x2048x2048 (![1, 2] : Fin 2 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x64_S8x2048x64_2_0_01_1_n_n_wf : DotDims.WF S8x2048x1024 S1024x64 S8x2048x64 [2] [0] [0, 1] [1] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x1024_S1024x64_S8x2048x64_2_0_01_1_n_n : DotDims S8x2048x1024 S1024x64 S8x2048x64 where
  lhsContracting := [2]
  rhsContracting := [0]
  lhsNonContracting := [0, 1]
  rhsNonContracting := [1]
  lhsBatch := []
  rhsBatch := []
  wf := dot_S8x2048x1024_S1024x64_S8x2048x64_2_0_01_1_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.AttnSpec.lean ====
import Idealize.ShloMosaic.PureOps.Ideal

/-!
  Causal single-head attention with bias-free projections, as one function on the extended reals.

  For a batch `b`, a query position `t` and an output column `h`:

      Q = q · Wq,   K = k · Wk,   V = k · Wv                       (contract the model dimension)
      w s = (∑ h, Q t h * K s h) * sc     for a key  s ≤ t,        (sc = 1/32, the printed scale)
      w s = -∞                            for a key  s > t,        (the causal mask)
      out = ∑ s, (exp (w s - M) / Z) * V s h,    M = max -∞ (max over s of w s),  Z = 0 + ∑ s, exp (w s - M).

  The maximum is a fold of `max` from `-∞` under one more `max -∞`, and the normaliser `0 + ∑`, exactly as a
  one-pass program computes them. `stepE` is one tile's update of a running state `(m, l, acc)` of the
  same sum taken tile by tile, with energies on the extended reals (a masked energy is `-∞`).
-/

noncomputable section

namespace Cert.Attn

open scoped BigOperators
open Idealize.ShloMosaic

/-- A projection: contract the last axis of `x` with the first of `W`. -/
def proj (x : Fin 8 → Fin 2048 → Fin 1024 → EReal) (W : Fin 1024 → Fin 64 → EReal) :
    Fin 8 → Fin 2048 → Fin 64 → EReal :=
  fun b t h => ∑ c : Fin 1024, x b t c * W c h

/-- The masked, scaled energy of query `t` against key `s`: `-∞` for a key after the query. -/
def energy (sc : EReal) (Q K : Fin 8 → Fin 2048 → Fin 64 → EReal) (b : Fin 8) (t s : Fin 2048) : EReal :=
  if s ≤ t then (∑ h : Fin 64, Q b t h * K b s h) * sc else ⊥

/-- A row's maximum as a one-pass program computes it: a fold of `max` from `-∞`, under one more `max -∞`. -/
def rowMax {n : ℕ} (w : Fin n → EReal) : EReal :=
  max (⊥ : EReal) ((Finset.univ : Finset (Fin n)).fold max (⊥ : EReal) w)

/-- A row's normaliser: `0 + ∑ exp (w - M)`. -/
def rowSum {n : ℕ} (w : Fin n → EReal) : EReal :=
  (0 : EReal) + ∑ s, Ideal.exp (w s - rowMax w)

/-- The one-pass softmax-weighted sum of a row of energies `w` against values `v`. -/
def softmaxRow {n : ℕ} (w v : Fin n → EReal) : EReal :=
  ∑ s, Ideal.div (Ideal.exp (w s - rowMax w)) (rowSum w) * v s

/-- The whole function: attention of `q` over `k` under the three projections. -/
def attn (sc : EReal) (q k : Fin 8 → Fin 2048 → Fin 1024 → EReal) (Wq Wk Wv : Fin 1024 → Fin 64 → EReal) :
    Fin 8 → Fin 2048 → Fin 64 → EReal :=
  fun b t h => softmaxRow (energy sc (proj q Wq) (proj k Wk) b t) (fun s => proj k Wv b s h)

/-- One tile's update of the running state `(m, l, acc)`: `w` the tile's energies (a masked one is `-∞`),
    `v` its values. -/
def stepE {R : ℕ} (w v : Fin R → EReal) (st : EReal × EReal × EReal) : EReal × EReal × EReal :=
  (max st.1 ((Finset.univ : Finset (Fin R)).fold max (⊥ : EReal) w),
   Ideal.exp (st.1 - max st.1 ((Finset.univ : Finset (Fin R)).fold max (⊥ : EReal) w)) * st.2.1
     + ((0 : EReal) + ∑ j, Ideal.exp (w j - max st.1 ((Finset.univ : Finset (Fin R)).fold max (⊥ : EReal) w))),
   Ideal.exp (st.1 - max st.1 ((Finset.univ : Finset (Fin R)).fold max (⊥ : EReal) w)) * st.2.2
     + ∑ j, Ideal.exp (w j - max st.1 ((Finset.univ : Finset (Fin R)).fold max (⊥ : EReal) w)) * v j)

/-- The first 1024 keys and the last 1024 keys of a row of 2048. -/
def lo (j : Fin 1024) : Fin 2048 := ⟨j.val, by omega⟩
def hi (j : Fin 1024) : Fin 2048 := ⟨1024 + j.val, by omega⟩

end Cert.Attn

end
-- ==== Proof.AttnArr.lean ====
import proofs.«133872_j34866544509086_2_alg».proof.Proof.AttnSpec
import Idealize.ShloMosaic.Lib.ValueIdx

/-!
  The attention function of `AttnSpec` on arrays: an array of shape [a, b, c] is read as the curried
  function of its three coordinates, the scale is the printed word `0x3D000000` (1/32) read at the
  extended reals, and the result is an array of shape [8, 2048, 64].
-/

noncomputable section

namespace Cert.Attn

open Idealize.ShloMosaic Idealize.ShloMosaic.ValueIdx

/-- An [a, b, c] array as a function of its coordinates. -/
def cur3 {a b c : ℕ} (x : FVec Ideal ⟨3, ![a, b, c]⟩ .f32) : Fin a → Fin b → Fin c → EReal :=
  fun i j k => x (ix3 i j k)

/-- An [a, b] array as a function of its coordinates. -/
def cur2 {a b : ℕ} (x : FVec Ideal ⟨2, ![a, b]⟩ .f32) : Fin a → Fin b → EReal :=
  fun i j => x (ix2 i j)

/-- The scale both programs multiply the energies by: the word `0x3D000000`, that is 1/32. -/
def sc : EReal := Ideal.ofBits .f32 0x3D000000#32

/-- Attention on arrays: `q, k : [8, 2048, 1024]`, `wq, wk, wv : [1024, 64]`, result `[8, 2048, 64]`. -/
def attnG (q k : FVec Ideal ⟨3, ![8, 2048, 1024]⟩ .f32) (wq wk wv : FVec Ideal ⟨2, ![1024, 64]⟩ .f32) :
    FVec Ideal ⟨3, ![8, 2048, 64]⟩ .f32 :=
  fun i => attn sc (cur3 q) (cur3 k) (cur2 wq) (cur2 wk) (cur2 wv) (i 0) (i 1) (i 2)

theorem attnG_ix3 (q k : FVec Ideal ⟨3, ![8, 2048, 1024]⟩ .f32) (wq wk wv : FVec Ideal ⟨2, ![1024, 64]⟩ .f32)
    (b : Fin 8) (t : Fin 2048) (h : Fin 64) :
    attnG q k wq wk wv (ix3 b t h) = attn sc (cur3 q) (cur3 k) (cur2 wq) (cur2 wk) (cur2 wv) b t h := rfl

end Cert.Attn

end
-- ==== Proof.RefIsSpec.lean ====
import proofs.«133872_j34866544509086_2_alg».proof.Proof.Gen.ReferenceIdeal.Read
import proofs.«133872_j34866544509086_2_alg».proof.Proof.AttnArr
import Idealize.ShloMosaic.Lib.ValueIdx
import Idealize.ShloMosaic.PureOps.Ideal.Laws

/-! The reference's result, one host operation at a time, read at an index: the three projections, the masked
    scaled energy, the row maximum, the normaliser and the weighted sum are the stages of `Cert.Attn.attn`. -/

noncomputable section

namespace Cert.Attn.Ref

open Cert.ReferenceIdeal Cert.ReferenceIdeal.Gen Cert.ReferenceIdeal.Read
open Idealize.ShloMosaic Idealize.ShloMosaic.ValueIdx
open scoped BigOperators

/-- The word `0xFF800000` is `-∞`. -/
theorem ofBits_ninf : Ideal.ofBits .f32 0xFF800000#32 = (⊥ : EReal) := by simp [Ideal.ofBits, Ideal.ieee]

/-- The word `0x00000000` is `0`. -/
theorem ofBits_zero : Ideal.ofBits .f32 0x00000000#32 = (0 : EReal) := by simp [Ideal.ofBits, Ideal.ieee]

/-! ## The three projections -/

theorem v0_ix3 (x0 : FVec Ideal S8x2048x1024 .f32) (x2 : FVec Ideal S1024x64 .f32) (b : Fin 8) (t : Fin 2048) (h : Fin 64) :
    val_main_v0 (F := Ideal) x0 x2 (ix3 b t h) = proj (cur3 x0) (cur2 x2) b t h := by
  rw [val_main_v0_apply]
  refine Finset.sum_congr rfl fun c _ => ?_
  have el : lidx_main_v0 (ix3 b t h) c = ix3 b t c :=
    funext fun a => Fin.ext (by match a with | ⟨0, _⟩ => rfl | ⟨1, _⟩ => rfl | ⟨2, _⟩ => rfl)
  have er : ridx_main_v0 (ix3 b t h) c = ix2 c h :=
    funext fun a => Fin.ext (by match a with | ⟨0, _⟩ => rfl | ⟨1, _⟩ => rfl)
  rw [el, er]; rfl

theorem v1_ix3 (x1 : FVec Ideal S8x2048x1024 .f32) (x3 : FVec Ideal S1024x64 .f32) (b : Fin 8) (t : Fin 2048) (h : Fin 64) :
    val_main_v1 (F := Ideal) x1 x3 (ix3 b t h) = proj (cur3 x1) (cur2 x3) b t h := by
  rw [val_main_v1_apply]
  refine Finset.sum_congr rfl fun c _ => ?_
  have el : lidx_main_v1 (ix3 b t h) c = ix3 b t c :=
    funext fun a => Fin.ext (by match a with | ⟨0, _⟩ => rfl | ⟨1, _⟩ => rfl | ⟨2, _⟩ => rfl)
  have er : ridx_main_v1 (ix3 b t h) c = ix2 c h :=
    funext fun a => Fin.ext (by match a with | ⟨0, _⟩ => rfl | ⟨1, _⟩ => rfl)
  rw [el, er]; rfl

theorem v2_ix3 (x1 : FVec Ideal S8x2048x1024 .f32) (x4 : FVec Ideal S1024x64 .f32) (b : Fin 8) (t : Fin 2048) (h : Fin 64) :
    val_main_v2 (F := Ideal) x1 x4 (ix3 b t h) = proj (cur3 x1) (cur2 x4) b t h := by
  rw [val_main_v2_apply]
  refine Finset.sum_congr rfl fun c _ => ?_
  have el : lidx_main_v2 (ix3 b t h) c = ix3 b t c :=
    funext fun a => Fin.ext (by match a with | ⟨0, _⟩ => rfl | ⟨1, _⟩ => rfl | ⟨2, _⟩ => rfl)
  have er : ridx_main_v2 (ix3 b t h) c = ix2 c h :=
    funext fun a => Fin.ext (by match a with | ⟨0, _⟩ => rfl | ⟨1, _⟩ => rfl)
  rw [el, er]; rfl

/-! ## The causal mask and the masked, scaled energy -/

/-- The comparison `row + 0 ≥ column` of the two index words, below 2048, is `column ≤ row`. -/
theorem cmp_words (t s : Fin 2048) :
    IntOp.cmpi .sge (IntOp.addi (BitVec.ofNat 32 t.val) 0#32) (BitVec.ofNat 32 s.val) = 1#1 ↔ s ≤ t := by
  rw [IntOp.cmpi_sge]
  have e : ∀ n : Nat, n < 2048 → (BitVec.ofNat 32 n).toInt = (n : Int) := by
    intro n hn
    have h2 : (BitVec.ofNat 32 n).toNat = n := by
      rw [BitVec.toNat_ofNat]; exact Nat.mod_eq_of_lt (by omega)
    rw [BitVec.toInt_eq_toNat_of_lt (by rw [h2]; omega), h2]
  simp only [IntOp.addi, BitVec.add_zero]
  rw [e _ t.isLt, e _ s.isLt]
  exact ⟨fun h => Fin.le_def.2 (by omega), fun h => by have := Fin.le_def.1 h; omega⟩

theorem v8_ix3 (x0 x1 : FVec Ideal S8x2048x1024 .f32) (x2 x3 : FVec Ideal S1024x64 .f32) (b : Fin 8) (t s : Fin 2048) :
    val_main_v8 (F := Ideal) x0 x1 x2 x3 (ix3 b t s)
      = energy sc (proj (cur3 x0) (cur2 x2)) (proj (cur3 x1) (cur2 x3)) b t s := by
  have em : idx_main_call1_v1 (ix3 b t s) = ix2 t s :=
    funext fun a => Fin.ext (by match a with | ⟨0, _⟩ => rfl | ⟨1, _⟩ => rfl)
  have el : ∀ k, lidx_main_v3 (ix3 b t s) k = ix3 b t k := fun k =>
    funext fun a => Fin.ext (by match a with | ⟨0, _⟩ => rfl | ⟨1, _⟩ => rfl | ⟨2, _⟩ => rfl)
  have er : ∀ k, ridx_main_v3 (ix3 b t s) k = ix3 b s k := fun k =>
    funext fun a => Fin.ext (by match a with | ⟨0, _⟩ => rfl | ⟨1, _⟩ => rfl | ⟨2, _⟩ => rfl)
  rw [val_main_v8_apply, val_main_call1_v1_apply, em, val_main_v7_apply, val_main_call0_v4_apply,
    val_main_call0_v2_apply, val_main_call0_v0_apply, val_main_call0_v1_apply, val_main_call0_c_apply,
    val_main_call0_v3_apply, val_main_v6_apply, val_main_c_apply, val_main_call0_v5_apply, val_main_call0_c_0_apply,
    val_main_call1_v2_apply, val_main_call1_v0_apply, val_main_cst_0_apply,
    val_main_v5_apply, val_main_v4_apply, val_main_cst_apply, val_main_v3_apply]
  simp only [el, er, v0_ix3, v1_ix3]
  show Scalar.select (Scalar.select
      (IntOp.cmpi .sge (IntOp.addi (BitVec.ofNat 32 t.val) 0#32) (BitVec.ofNat 32 s.val)) 1#1 0#1) _ _ = _
  unfold energy
  by_cases hst : s ≤ t
  · rw [(cmp_words t s).2 hst, select_one, select_one, if_pos hst]; rfl
  · have hc : IntOp.cmpi .sge (IntOp.addi (BitVec.ofNat 32 t.val) 0#32) (BitVec.ofNat 32 s.val) = 0#1 :=
      eq_zero_of_ne_one fun h => hst ((cmp_words t s).1 h)
    rw [hc, select_zero, select_zero, if_neg hst]; exact ofBits_ninf

/-! ## The row maximum -/

/-- The reduction by `maximum` over the key axis is a fold of `max` from `-∞` over the keys. -/
theorem v9_ix2 (x0 x1 : FVec Ideal S8x2048x1024 .f32) (x2 x3 : FVec Ideal S1024x64 .f32) (b : Fin 8) (t : Fin 2048) :
    val_main_v9 (F := Ideal) x0 x1 x2 x3 (ix2 b t)
      = (Finset.univ : Finset (Fin 2048)).fold max (⊥ : EReal)
          (fun s => val_main_v8 (F := Ideal) x0 x1 x2 x3 (ix3 b t s)) := by
  unfold val_main_v9
  generalize val_main_v8 (F := Ideal) x0 x1 x2 x3 = y
  have hr : S8x2048x2048.Reduces [2] S8x2048 := by decide
  refine (Host.reduce_eq_fold_single (α := EReal) (FloatOps.maximumf (F := Ideal) (φ := .f32)) y
    (val_main_cst_1 (F := Ideal)) reducesTo_S8x2048x2048_S8x2048_d2 hr h_S_ (ix2 b t)).trans ?_
  rw [val_main_cst_1_apply, Ideal.ofBits_def, ofBits_ninf]
  have hf : (y ∘ hr.lift (ix2 b t)) = fun s : Fin 2048 => y (ix3 b t s) :=
    funext fun k => congrArg y (funext fun a => Fin.ext (by
      match a with | ⟨0, _⟩ => rfl | ⟨1, _⟩ => rfl | ⟨2, _⟩ => rfl))
  rw [hf]; rfl

theorem v11_ix2 (x0 x1 : FVec Ideal S8x2048x1024 .f32) (x2 x3 : FVec Ideal S1024x64 .f32) (b : Fin 8) (t : Fin 2048) :
    val_main_v11 (F := Ideal) x0 x1 x2 x3 (ix2 b t)
      = rowMax (fun s : Fin 2048 => val_main_v8 (F := Ideal) x0 x1 x2 x3 (ix3 b t s)) := by
  rw [val_main_v11_apply, val_main_v10_apply, val_main_cst_2_apply, v9_ix2, Ideal.ofBits_def, ofBits_ninf]; rfl

/-! ## The exponentials, the normaliser, the weights -/

theorem v15_ix3 (x0 x1 : FVec Ideal S8x2048x1024 .f32) (x2 x3 : FVec Ideal S1024x64 .f32) (b : Fin 8) (t s : Fin 2048) :
    val_main_v15 (F := Ideal) x0 x1 x2 x3 (ix3 b t s)
      = Ideal.exp (val_main_v8 (F := Ideal) x0 x1 x2 x3 (ix3 b t s)
          - rowMax (fun s' : Fin 2048 => val_main_v8 (F := Ideal) x0 x1 x2 x3 (ix3 b t s'))) := by
  have e13 : idx_main_v13 (ix3 b t s) = ix3 b t (0 : Fin 1) :=
    funext fun a => Fin.ext (by match a with | ⟨0, _⟩ => rfl | ⟨1, _⟩ => rfl | ⟨2, _⟩ => rfl)
  have e12 : idx_main_v12 (ix3 b t (0 : Fin 1)) = ix2 b t :=
    funext fun a => Fin.ext (by match a with | ⟨0, _⟩ => rfl | ⟨1, _⟩ => rfl)
  rw [val_main_v15_apply, val_main_v14_apply, val_main_v13_apply, e13, val_main_v12_apply, e12, v11_ix2]; rfl

theorem v16_ix2 (x0 x1 : FVec Ideal S8x2048x1024 .f32) (x2 x3 : FVec Ideal S1024x64 .f32) (b : Fin 8) (t : Fin 2048) :
    val_main_v16 (F := Ideal) x0 x1 x2 x3 (ix2 b t)
      = rowSum (fun s : Fin 2048 => val_main_v8 (F := Ideal) x0 x1 x2 x3 (ix3 b t s)) := by
  have e16 : ∀ k, idx_main_v16 (ix2 b t) k = ix3 b t k := fun k =>
    funext fun a => Fin.ext (by match a with | ⟨0, _⟩ => rfl | ⟨1, _⟩ => rfl | ⟨2, _⟩ => rfl)
  rw [val_main_v16_apply, val_main_cst_3_apply, Ideal.ofBits_def, ofBits_zero]
  simp only [e16, v15_ix3]
  rfl

theorem v19_ix3 (x0 x1 : FVec Ideal S8x2048x1024 .f32) (x2 x3 : FVec Ideal S1024x64 .f32) (b : Fin 8) (t s : Fin 2048) :
    val_main_v19 (F := Ideal) x0 x1 x2 x3 (ix3 b t s)
      = Ideal.div (Ideal.exp (val_main_v8 (F := Ideal) x0 x1 x2 x3 (ix3 b t s)
          - rowMax (fun s' : Fin 2048 => val_main_v8 (F := Ideal) x0 x1 x2 x3 (ix3 b t s'))))
        (rowSum (fun s' : Fin 2048 => val_main_v8 (F := Ideal) x0 x1 x2 x3 (ix3 b t s'))) := by
  have e18 : idx_main_v18 (ix3 b t s) = ix3 b t (0 : Fin 1) :=
    funext fun a => Fin.ext (by match a with | ⟨0, _⟩ => rfl | ⟨1, _⟩ => rfl | ⟨2, _⟩ => rfl)
  have e17 : idx_main_v17 (ix3 b t (0 : Fin 1)) = ix2 b t :=
    funext fun a => Fin.ext (by match a with | ⟨0, _⟩ => rfl | ⟨1, _⟩ => rfl)
  rw [val_main_v19_apply, val_main_v18_apply, e18, val_main_v17_apply, e17, v16_ix2, v15_ix3]; rfl

/-! ## The weighted sum, and the whole -/

theorem v20_ix3 (x0 x1 : FVec Ideal S8x2048x1024 .f32) (x2 x3 x4 : FVec Ideal S1024x64 .f32) (b : Fin 8) (t : Fin 2048)
    (h : Fin 64) :
    val_main_v20 (F := Ideal) x0 x1 x2 x3 x4 (ix3 b t h)
      = softmaxRow (fun s : Fin 2048 => val_main_v8 (F := Ideal) x0 x1 x2 x3 (ix3 b t s))
          (fun s : Fin 2048 => val_main_v2 (F := Ideal) x1 x4 (ix3 b s h)) := by
  have el : ∀ k, lidx_main_v20 (ix3 b t h) k = ix3 b t k := fun k =>
    funext fun a => Fin.ext (by match a with | ⟨0, _⟩ => rfl | ⟨1, _⟩ => rfl | ⟨2, _⟩ => rfl)
  have er : ∀ k, ridx_main_v20 (ix3 b t h) k = ix3 b k h := fun k =>
    funext fun a => Fin.ext (by match a with | ⟨0, _⟩ => rfl | ⟨1, _⟩ => rfl | ⟨2, _⟩ => rfl)
  rw [val_main_v20_apply]
  simp only [el, er, v19_ix3]
  rfl

/-- The reference program computes causal attention: its result is `attnG` of its five arguments. -/
theorem ref_eq (x0 x1 : FVec Ideal S8x2048x1024 .f32) (x2 x3 x4 : FVec Ideal S1024x64 .f32) :
    val_main_v20 (F := Ideal) x0 x1 x2 x3 x4 = attnG x0 x1 x2 x3 x4 := by
  funext i
  obtain ⟨b, t, h, rfl⟩ : ∃ (b : Fin 8) (t : Fin 2048) (h : Fin 64), i = ix3 b t h := ⟨i 0, i 1, i 2, eq_ix3 i⟩
  rw [v20_ix3, attnG_ix3]
  unfold attn
  simp only [v8_ix3, v2_ix3]

end Cert.Attn.Ref

end
-- ==== Proof.LibReal.lean ====
/-
  Extended reals that are real numbers. The finite operations keep them so: sums, differences, products, maxima, finite
  sums, the quotient by a nonzero real, and the reciprocal square root of a positive real. These are the facts that let
  a law of real arithmetic (distributivity, cancelling) be used on values a program computes from finite inputs.
-/
import Idealize.ShloMosaic.PureOps.Ideal

noncomputable section

namespace Cert.Lib.Real

open Idealize.ShloMosaic Finset

/-- The extended real is a real number. -/
def IsReal (x : EReal) : Prop := ∃ r : ℝ, x = (r : EReal)

/-- Every entry of the family is a real number. -/
def AllReal {ι : Type*} (x : ι → EReal) : Prop := ∀ i, IsReal (x i)

theorem isReal_coe (r : ℝ) : IsReal (r : EReal) := ⟨r, rfl⟩
theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.ne_top {x : EReal} (hx : IsReal x) : x ≠ ⊤ := by obtain ⟨a, rfl⟩ := hx; exact EReal.coe_ne_top a
theorem IsReal.ne_bot {x : EReal} (hx : IsReal x) : x ≠ ⊥ := by obtain ⟨a, rfl⟩ := hx; exact EReal.coe_ne_bot a

theorem isReal_sum {ι : Type*} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The quotient of a real by a nonzero real is a real. -/
theorem IsReal.div_coe {x : EReal} (hx : IsReal x) {n : ℝ} (hn : n ≠ 0) : IsReal (Ideal.div x (n : EReal)) := by
  obtain ⟨a, rfl⟩ := hx
  rw [Ideal.div_coe hn, ← EReal.coe_mul]; exact ⟨_, rfl⟩

/-- The reciprocal square root of a positive real is a real. -/
theorem isReal_rsqrt_of_pos {r : ℝ} (hr : 0 < r) : IsReal (Ideal.rsqrt (r : EReal)) := by
  rw [Ideal.rsqrt_coe, if_neg (not_lt.mpr hr.le), if_neg hr.ne']; exact ⟨_, rfl⟩

/-- Reading a family through any map of indices keeps its entries real. -/
theorem AllReal.comp {ι κ : Type*} {x : ι → EReal} (hx : AllReal x) (g : κ → ι) : AllReal fun j => x (g j) :=
  fun j => hx (g j)

end Cert.Lib.Real

end
-- ==== Proof.LibFinite.lean ====
/-
  From "every entry has absolute value below +∞" (a precondition's all-reduce by "and" of the comparisons
  |a| < +∞, stated to be 1) to "every entry is a real number", for an array of any shape on the extended reals.
-/
import Idealize.ShloMosaic.Lib.ReduceAll
import Idealize.ShloMosaic.PureOps.Ideal
import Idealize.ShloMosaic.PureOps.Ideal.Laws
import Idealize.ShloMosaic.Lib.ValueIdx
import Idealize.ShloMosaic.Lib.Pipeline.Value
import proofs.«133872_j34866544509086_2_alg».proof.Proof.LibReal

noncomputable section

namespace Cert.Lib.Finite

open Idealize.ShloMosaic
open Cert.Lib.Real (IsReal)

/-- The scalar shape. -/
abbrev S0 : Shape := ⟨0, ![]⟩

/-- The scalar shape has one index. -/
instance : Subsingleton S0.Idx := ⟨fun _ _ => funext fun d => d.elim0⟩

/-- The f32 pattern of +∞ is the top element. -/
theorem ofBits_inf : Ideal.ofBits .f32 0x7F800000#32 = ⊤ := by simp [Ideal.ofBits, Ideal.ieee]

/-- An extended real whose absolute value is below +∞ is a real number. -/
theorem isReal_of_abs_lt_top (x : EReal) (h : Ideal.cmp .olt (max x (-x)) ⊤ = 1#1) : IsReal x := by
  induction x using EReal.rec with
  | bot => simp [Ideal.cmp] at h
  | coe r => exact ⟨r, rfl⟩
  | top => simp [Ideal.cmp] at h

/-- If the all-reduce by "and" of the comparisons |a| < +∞ is 1, every entry of a is a real number. -/
theorem allReal_of_all_finite {s : Shape} {axes : List (Fin s.rank)} (a : FVec Ideal s .f32)
    (hb : S0.BroadcastsInDim s (![] : Fin 0 → Fin s.rank)) (red : s.ReducesTo axes S0) (hu : 0 < S0.numel)
    (e : Host.reduce IntOp.andi
          (cmpf .olt (Host.absf a) (broadcastInDim s ![] hb (constant (F := Ideal) S0 .f32 0x7F800000#32)))
          (constantI S0 1 1#1) red hu ValueIdx.ix0 = 1#1) : ∀ i, IsReal (a i) := by
  intro i
  have h1 := Host.reduce_andi_all _ _ red hu _ e i
  have h2 : broadcastInDim s ![] hb (constant (F := Ideal) S0 .f32 0x7F800000#32) i = ⊤ := by
    rw [broadcastInDim_apply _ hb _ i ValueIdx.ix0 (fun a => a.elim0)]
    exact ofBits_inf
  have h3 : Ideal.cmp .olt (max (a i) (-(a i))) ⊤ = 1#1 := by
    rw [← h2]; exact h1
  exact isReal_of_abs_lt_top _ h3

end Cert.Lib.Finite

end
-- ==== Proof.FiniteInputs.lean ====
import proofs.«133872_j34866544509086_2_alg».proof.Proof.Gen.Pre_finite_inputs
import proofs.«133872_j34866544509086_2_alg».proof.Proof.LibFinite
import Idealize.ShloMosaic.Lib.Affine

/-! From the printed precondition (for each of the five arrays, the all-reduce by "and" of the comparisons
    `|a| < +∞`, the five results and-ed together, stated to be 1) to: every entry of every array is a real number. -/

noncomputable section

namespace Cert.Attn.Fin

open Idealize.ShloMosaic
open Cert.Pre_finite_inputs

/-- Under the printed precondition every entry of the five argument arrays is a real number. -/
theorem real_of_pre [Cert.Pre_finite_inputs.Facts] (a0 a1 : FVec Ideal S8x2048x1024 .f32) (a2 a3 a4 : FVec Ideal S1024x64 .f32)
    (h : Cert.Pre_finite_inputs.fn (F := Ideal) a0 a1 a2 a3 a4 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨Cert.Lib.Finite.allReal_of_all_finite a0 _ _ _ e0, Cert.Lib.Finite.allReal_of_all_finite a1 _ _ _ e1,
    Cert.Lib.Finite.allReal_of_all_finite a2 _ _ _ e2, Cert.Lib.Finite.allReal_of_all_finite a3 _ _ _ e3,
    Cert.Lib.Finite.allReal_of_all_finite a4 _ _ _ e4⟩

end Cert.Attn.Fin

end
-- ==== Proof.ProjFrameI.lean ====
import proofs.«133872_j34866544509086_2_alg».proof.Proof.Gen.KernelIdeal.Launch
import proofs.«133872_j34866544509086_2_alg».proof.Proof.Gen.KernelIdeal.Skeleton
import proofs.«133872_j34866544509086_2_alg».proof.Proof.Gen.KernelIdeal.Points
import Idealize.ShloMosaic.Lib.Pipeline.FrameBody
import Idealize.ShloMosaic.Lib.Pipeline.Value
import Idealize.ShloMosaic.Lib.Tactic

/-!
  The projection kernel's half of the frame, at any float type.

  The kernel runs on a grid of 8 x 2 points. At each point it is handed one block of 1024 rows of each of the
  two activations (windows 0 and 1) and the three weight matrices whole (windows 2, 3, 4); it loads all five,
  and stores into each of its three output windows (5, 6, 7) one whole block: the product of an activation
  block with a weight matrix. So what the body leaves in an output's staging buffer is a closed function of the
  input blocks at the point (`out0_5`, `out0_6`, `out0_7`), whatever the buffer held before, and every input's
  staging buffer holds that input's block at every point, fetched there or not (the weights' block index never
  moves). Everything is stated at a parameter `V`: the buffers' contents when the region is entered.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: an unfetched input's block index has not
    moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: an unfetched input's block index has not
    moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: an unfetched input's block index has not
    moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: an unfetched input's block index has not
    moved since the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: an unfetched input's block index has not
    moved since the point before. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store is of a whole staging buffer -/

/-- The whole of an activation block, `[1, 1024, 1024]`, -/
abbrev rX : Rect S1x1024x1024 := Rect.unit (s := S1x1024x1024) ![0, 0, 0] S1x1024x1024.size inb_S1x1024x1024_S1x1024x1024_0_0_0
/-- of a weight matrix, `[1024, 64]`, -/
abbrev rW : Rect S1024x64 := Rect.unit (s := S1024x64) ![0, 0] S1024x64.size inb_S1024x64_S1024x64_0_0
/-- and of an output block, `[1, 1024, 64]`. -/
abbrev rO : Rect S1x1024x64 := Rect.unit (s := S1x1024x64) ![0, 0, 0] S1x1024x64.size inb_S1x1024x64_S1x1024x64_0_0_0

theorem hz3 : (![0, 0, 0] : Fin 3 → Nat) = fun _ => 0 := funext fun a => by fin_cases a <;> rfl
theorem hz2 : (![0, 0] : Fin 2 → Nat) = fun _ => 0 := funext fun a => by fin_cases a <;> rfl

/-! ## What the body leaves in each output window's buffer -/

/-- Window 5's staging buffer after the body: its one store, of the product of the first activation's block
    with the first weight matrix. -/
def out0_5 (x0 : Vec F S1x1024x1024 .f32) (x2 : Vec F S1024x64 .f32) : Vec F S1x1024x64 .bf16 :=
  View.canon [⟨rO, k0_pay2 (View.ld x0 rX) (View.ld x2 rW)⟩]
/-- Window 6's: the second activation's block with the second weight matrix. -/
def out0_6 (x1 : Vec F S1x1024x1024 .f32) (x3 : Vec F S1024x64 .f32) : Vec F S1x1024x64 .bf16 :=
  View.canon [⟨rO, k0_pay3 (View.ld x1 rX) (View.ld x3 rW)⟩]
/-- Window 7's: the second activation's block with the third weight matrix. -/
def out0_7 (x1 : Vec F S1x1024x1024 .f32) (x4 : Vec F S1024x64 .f32) : Vec F S1x1024x64 .bf16 :=
  View.canon [⟨rO, k0_pay4 (View.ld x1 rX) (View.ld x4 rW)⟩]

/-- The one store covers the buffer and every load reads its buffer whole: the buffer is left at the payload. -/
theorem out0_5_eq (x0 : Vec F S1x1024x1024 .f32) (x2 : Vec F S1024x64 .f32) : out0_5 x0 x2 = k0_pay2 x0 x2 := by
  unfold out0_5
  rw [View.canon_unit_zero (S := S1x1024x64) hz3 inb_S1x1024x64_S1x1024x64_0_0_0,
    View.ld_unit_zero (S := S1x1024x1024) hz3 inb_S1x1024x1024_S1x1024x1024_0_0_0,
    View.ld_unit_zero (S := S1024x64) hz2 inb_S1024x64_S1024x64_0_0]
theorem out0_6_eq (x1 : Vec F S1x1024x1024 .f32) (x3 : Vec F S1024x64 .f32) : out0_6 x1 x3 = k0_pay3 x1 x3 := by
  unfold out0_6
  rw [View.canon_unit_zero (S := S1x1024x64) hz3 inb_S1x1024x64_S1x1024x64_0_0_0,
    View.ld_unit_zero (S := S1x1024x1024) hz3 inb_S1x1024x1024_S1x1024x1024_0_0_0,
    View.ld_unit_zero (S := S1024x64) hz2 inb_S1024x64_S1024x64_0_0]
theorem out0_7_eq (x1 : Vec F S1x1024x1024 .f32) (x4 : Vec F S1024x64 .f32) : out0_7 x1 x4 = k0_pay4 x1 x4 := by
  unfold out0_7
  rw [View.canon_unit_zero (S := S1x1024x64) hz3 inb_S1x1024x64_S1x1024x64_0_0_0,
    View.ld_unit_zero (S := S1x1024x1024) hz3 inb_S1x1024x1024_S1x1024x1024_0_0_0,
    View.ld_unit_zero (S := S1024x64) hz2 inb_S1024x64_S1024x64_0_0]

/-- A store of a whole output block covers the buffer. -/
theorem coverO (p : Vec F S1x1024x64 .bf16) (y : S1x1024x64.Idx) :
    ∃ pc ∈ ([⟨rO, p⟩] : List (View.Piece (Elt F) S1x1024x64 .bf16)), y ∈ pc.1.set :=
  ⟨_, List.mem_singleton_self _, View.mem_set_unit_zero (S := S1x1024x64) hz3 inb_S1x1024x64_S1x1024x64_0_0_0 y⟩

/-! ## The body's triple -/

set_option maxHeartbeats 1000000 in
/-- The kernel body on whole staging memrefs, the five inputs' at read contents `x0 … x4` and the three outputs' at
    anything, runs to the continuation holding the inputs' as they were and each output's at its one store's
    payload laid over the buffer. The grid coordinates are not read. -/
theorem sound_kernel0 (c : Dev nD) (E : Set ℕ) (i : grid0.Coords)
    (arg0 : Memref sig .tc .vmem S1x1024x1024 .f32) (harg0 : arg0.IsWhole) (arg1 : Memref sig .tc .vmem S1x1024x1024 .f32) (harg1 : arg1.IsWhole)
    (arg2 : Memref sig .tc .vmem S1024x64 .f32) (harg2 : arg2.IsWhole) (arg3 : Memref sig .tc .vmem S1024x64 .f32) (harg3 : arg3.IsWhole)
    (arg4 : Memref sig .tc .vmem S1024x64 .f32) (harg4 : arg4.IsWhole)
    (arg5 : Memref sig .tc .vmem S1x1024x64 .bf16) (harg5 : arg5.IsWhole) (arg6 : Memref sig .tc .vmem S1x1024x64 .bf16) (harg6 : arg6.IsWhole)
    (arg7 : Memref sig .tc .vmem S1x1024x64 .bf16) (harg7 : arg7.IsWhole)
    (x0 x1 : Vec F S1x1024x1024 .f32) (x2 x3 x4 : Vec F S1024x64 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3 ∗ owns (c : Thread nD τ) arg4 fullShare x4
            ∗ owns (c : Thread nD τ) arg5 fullShare (out0_5 x0 x2) ∗ owns (c : Thread nD τ) arg6 fullShare (out0_6 x1 x3)
            ∗ owns (c : Thread nD τ) arg7 fullShare (out0_7 x1 x4)) -∗ K ⟨⟩))
      ⊢ wp frame (wpE (defs₀ (F := F)) Variants.none c none) E
          (cc0__proj_kernel i arg0 harg0 arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩,
    ⟨%d5, %f5, -, H5⟩, ⟨%d6, %f6, -, H6⟩, ⟨%d7, %f7, -, H7⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverO _)
  isplitl [H6]
  · iexists _; isplitr
    swap; · iexact H6
    ipureintro
    exact View.read_writes_eq_canon _ _ _ (coverO _)
  iexists _; isplitr
  swap; · iexact H7
  ipureintro
  exact View.read_writes_eq_canon _ _ _ (coverO _)

/-! ## The pipeline's proof data -/

/-- The proof data of the projection pipeline on core `c`: the arrays as the region finds them; after the body at
    point `t` each input's buffer at its block and each output's at the product of its two input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 2 t)
    | ⟨6, _⟩ => out0_6 (iblk0 V c 1 t) (iblk0 V c 3 t)
    | ⟨7, _⟩ => out0_7 (iblk0 V c 1 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 1 t) (iblk0 V c 3 t) := by dsimp only [dat0]
theorem after0_7 (c : Dev nD) (t : Fin cfg0.N) : (dat0 V c).after 7 t = out0_7 (iblk0 V c 1 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`: the invariant, the core's dues, and the eight windows' current
    staging buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.AttnDefsI.lean ====
import proofs.«133872_j34866544509086_2_alg».proof.Proof.Gen.KernelIdeal.Launch
import proofs.«133872_j34866544509086_2_alg».proof.Proof.Gen.KernelIdeal.Skeleton
import proofs.«133872_j34866544509086_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

/-!
  The attention region (pipeline 1, grid 8 x 4 x 2: batch, query block of 512 rows, key block of 1024 rows),
  what its three control cases are stated over.

  The body has three conditionals on the grid point (b, i, j): the state reset (j = 0), the tile update (the key
  block is causally live: j * 1024 < (i + 1) * 512, that is j = 0, or j = 1 and i ≥ 2) and the write-out (j = 1).
  Numbering the points t = (b * 4 + i) * 2 + j, the three conditions are decided once over the 64 points. The
  output window is stored only at the write-out points and idle elsewhere. The running state (m, l, acc) lives in
  three scratch buffers of the kernel's own, which the region's invariant carries from point to point.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The three conditions -/

/-- The state reset is taken: the key block is the first one. -/
abbrev condReset (i : grid1.Coords) : Prop :=
  (Scalar.cmpi .ne (Scalar.extui (Scalar.cmpi .eq (BitVec.ofNat 32 (i 2).val) 0#32)) 0#32) = 1#1
/-- The tile update is taken: the key block's first key is not after the query block's last query. -/
abbrev condLive (i : grid1.Coords) : Prop :=
  (Scalar.cmpi .ne (Scalar.extui (Scalar.cmpi .slt (Scalar.muli (BitVec.ofNat 32 (i 2).val) 1024#32)
    (Scalar.muli (Scalar.addi (BitVec.ofNat 32 (i 1).val) 1#32) 512#32))) 0#32) = 1#1
/-- The write-out is taken: the key block is the last one. -/
abbrev condOut (i : grid1.Coords) : Prop := k1_cond3 i = 1#1

theorem hcondReset : ∀ t : Fin cfg1.N, condReset (grid1.coords t) ↔ t.val % 2 = 0 :=
  (by decide +kernel : ∀ t : Fin grid1.N, condReset (grid1.coords t) ↔ t.val % 2 = 0)
theorem hcondLive : ∀ t : Fin cfg1.N, condLive (grid1.coords t) ↔ (t.val % 2 = 0 ∨ 2 ≤ (t.val / 2) % 4) :=
  (by decide +kernel : ∀ t : Fin grid1.N, condLive (grid1.coords t) ↔ (t.val % 2 = 0 ∨ 2 ≤ (t.val / 2) % 4))
theorem hcondOut : ∀ t : Fin cfg1.N, condOut (grid1.coords t) ↔ t.val % 2 = 1 :=
  (by decide +kernel : ∀ t : Fin grid1.N, condOut (grid1.coords t) ↔ t.val % 2 = 1)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Where the write-out is not taken the output window is idle, -/
theorem idle1_3 : ∀ t : Fin cfg1.N, ¬condOut (grid1.coords t) → cfg1.idle 3 (grid1.coords t) = true := by decide +kernel
/-- and not written back; -/
theorem noFlush1_3 : ∀ t : Fin cfg1.N, ¬condOut (grid1.coords t) → (cfg1.win 3).flush t = false := by decide +kernel
/-- where it is taken the window is live. -/
theorem live1_3 : ∀ t : Fin cfg1.N, condOut (grid1.coords t) → cfg1.idle 3 (grid1.coords t) = false := by decide +kernel

/-! ## The memrefs the body is called with -/

abbrev ms1_0 (t : Fin cfg1.N) : Memref sig .tc .vmem S1x512x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x64 .f32 := win1_3.stage (cfg1.slots t 3)
abbrev hs1_3 (t : Fin cfg1.N) : (ms1_3 t).IsWhole := hstage1_3 ((cfg1.slots t 3).cast nbuf1_3)
/-- The running maximum, the running normaliser and the running weighted sum: whole scoped buffers of the kernel's own. -/
abbrev scM : Memref sig .tc .vmem S512x1 .f32 := Memref.whole cc1_scratch0
abbrev scL : Memref sig .tc .vmem S512x1 .f32 := Memref.whole cc1_scratch1
abbrev scA : Memref sig .tc .vmem S512x64 .f32 := Memref.whole cc1_scratch2

/-! ## The invariant's passengers

  Beside the three state buffers the core has thirteen more scoped buffers that are no staging buffer of this
  region (the projection region's): each rides through every point whole, at some contents. -/

/-- Those thirteen buffers, each at some contents, beside `X`. -/
def chain (c : Dev nD) (X : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f)
    ∗ X)

theorem chain_open (c : Dev nD) (X : sProp 𝕄) : chain (F := F) c X ⊢ iprop(chain (F := F) c iprop(emp) ∗ X) := by
  unfold chain
  iintro ⟨H1, H2, H3, H4, H5, H6, H7, H8, H9, H10, H11, H12, H13, HX⟩
  isplitr [HX]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iempintro
  iexact HX

theorem chain_close (c : Dev nD) (X : sProp 𝕄) : iprop(chain (F := F) c iprop(emp) ∗ X) ⊢ chain (F := F) c X := by
  unfold chain
  iintro ⟨⟨H1, H2, H3, H4, H5, H6, H7, H8, H9, H10, H11, H12, H13, -⟩, HX⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact HX

/-- The region's plain invariant: the thirteen passengers, the three state buffers as memrefs owned at some contents,
    and the generator register at some state. -/
theorem PhiA1_eq (c : Dev nD) :
    (Pipeline.ΦA spec1 c : sProp 𝕄)
      = iprop(chain (F := F) c (iprop((∃ d, owns (c : Thread nD τ) scM fullShare d) ∗ (∃ d, owns (c : Thread nD τ) scL fullShare d)
          ∗ (∃ d, owns (c : Thread nD τ) scA fullShare d))) ∗ (∃ r, prngReg c r)) := by
  unfold Pipeline.ΦA chain; rw [scopedRest1_eq]; simp only [scM, scL, scA, owns_whole]
  rfl

/-! ## Whole-block accesses read back -/

theorem zero2 : (![0, 0] : Fin 2 → Nat) = fun _ => 0 := by funext a; fin_cases a <;> rfl
theorem zero3 : (![0, 0, 0] : Fin 3 → Nat) = fun _ => 0 := by funext a; fin_cases a <;> rfl

/-- After a list of stores whose LAST one fills the whole block, the buffer reads as that store's value. -/
theorem read_write_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons.mpr (Or.inl rfl), View.mem_set_unit_zero h inb y⟩)).trans
    (View.canon_cons_unit_zero h inb w L)

/-- A load of the whole block reads the buffer's contents. -/
theorem readAt_whole {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-! ## One tile's update of the running state, as the body computes it

  From the query block `x0`, the key block `x1`, the value block `x2` and the state `(m, l, acc)` before:
  the new maximum, the new normaliser and the new weighted sum (the grid coordinates enter through the mask). -/

def stepM (a1 a2 : BitVec 32) (x0 : Vec F S1x512x64 .bf16) (x1 : Vec F S1x1024x64 .bf16) (m : Vec F S512x1 .f32) : Vec F S512x1 .f32 :=
  k1_pay5 (k1_pay9 a1 a2 x0 x1 m)
def stepL (a1 a2 : BitVec 32) (x0 : Vec F S1x512x64 .bf16) (x1 : Vec F S1x1024x64 .bf16) (m l : Vec F S512x1 .f32) : Vec F S512x1 .f32 :=
  k1_pay12 a1 a2 x0 x1 m l
def stepA (a1 a2 : BitVec 32) (x0 : Vec F S1x512x64 .bf16) (x1 x2 : Vec F S1x1024x64 .bf16) (m : Vec F S512x1 .f32)
    (acc : Vec F S512x64 .f32) : Vec F S512x64 .f32 :=
  k1_pay4 (k1_pay7 x2) (k1_pay10 a1 a2 x0 x1 m) (k1_pay11 a1 a2 x0 x1 m) acc
/-- The two grid coordinates the body reads, as it spells them. -/
abbrev cI (i : grid1.Coords) : BitVec 32 := BitVec.ofNat 32 (i 1).val
abbrev cJ (i : grid1.Coords) : BitVec 32 := BitVec.ofNat 32 (i 2).val

end Cert.KernelIdeal.Hand

end
-- ==== Proof.AttnRunOutI.lean ====
import proofs.«133872_j34866544509086_2_alg».proof.Proof.AttnDefsI

/-! The attention body at the last key block of a query block whose second key block is causally dead: the running
    state is left as it is and the quotient acc / l is written to the output block. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option pp.maxSteps 40000
set_option pp.deepTerms false

set_option maxHeartbeats 2000000 in
/-- The last key block of a query block whose second key block is causally dead: the state is left as it is and the
    quotient acc / l is written to the output block. -/
theorem runOut (c : Dev nD) (E : Set ℕ) (i : grid1.Coords) (arg3 : Memref sig .tc .vmem S1x512x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole)
    (hc0 : ¬condReset i) (hc1 : ¬condLive i) (hc2 : condOut i)
    (x0 : Vec F S1x512x64 .bf16) (x1 x2 : Vec F S1x1024x64 .bf16) (xi3 : Vec F S1x512x64 .f32) (sm sl : Vec F S512x1 .f32) (sa : Vec F S512x64 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3
        ∗ owns (c : Thread nD τ) arg7 fullShare sm ∗ owns (c : Thread nD τ) arg8 fullShare sl ∗ owns (c : Thread nD τ) arg9 fullShare sa
        ∗ (iprop(owns (c : Thread nD τ) arg3 fullShare x0 ∗ owns (c : Thread nD τ) arg4 fullShare x1 ∗ owns (c : Thread nD τ) arg5 fullShare x2
            ∗ owns (c : Thread nD τ) arg6 fullShare (k1_pay6 sa sl)
            ∗ owns (c : Thread nD τ) arg7 fullShare sm ∗ owns (c : Thread nD τ) arg8 fullShare sl ∗ owns (c : Thread nD τ) arg9 fullShare sa) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
  sl_exec (disch := first | exact hc0 | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    refine (read_write_whole _ _ zero3 _ _ _).trans ?_
    rw [readAt_whole _ _ zero2, readAt_whole _ _ zero2, hf9, hf8]
  isplitl [H7]
  · iexists _; isplitr; · ipureintro; exact hf7
    iexact H7
  isplitl [H8]
  · iexists _; isplitr; · ipureintro; exact hf8
    iexact H8
  iexists _; isplitr; · ipureintro; exact hf9
  iexact H9

end Cert.KernelIdeal.Hand

end
-- ==== Proof.AttnRunStepI.lean ====
import proofs.«133872_j34866544509086_2_alg».proof.Proof.AttnDefsI

/-! The attention body at the first key block of a query block: the running state is reset to (-∞, 0, 0) and updated
    by this tile; the output block is not touched. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option pp.maxSteps 40000
set_option pp.deepTerms false

set_option maxHeartbeats 2000000 in
/-- The first key block of a query block: the state is reset to (-∞, 0, 0) and updated by this tile; the output block
    is not touched. -/
theorem runStep (c : Dev nD) (E : Set ℕ) (i : grid1.Coords) (arg3 : Memref sig .tc .vmem S1x512x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole)
    (hc0 : condReset i) (hc1 : condLive i) (hc2 : ¬condOut i)
    (x0 : Vec F S1x512x64 .bf16) (x1 x2 : Vec F S1x1024x64 .bf16) (xi3 : Vec F S1x512x64 .f32) (sm sl : Vec F S512x1 .f32) (sa : Vec F S512x64 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3
        ∗ owns (c : Thread nD τ) arg7 fullShare sm ∗ owns (c : Thread nD τ) arg8 fullShare sl ∗ owns (c : Thread nD τ) arg9 fullShare sa
        ∗ (iprop(owns (c : Thread nD τ) arg3 fullShare x0 ∗ owns (c : Thread nD τ) arg4 fullShare x1 ∗ owns (c : Thread nD τ) arg5 fullShare x2
            ∗ owns (c : Thread nD τ) arg6 fullShare xi3
            ∗ owns (c : Thread nD τ) arg7 fullShare (stepM (cI i) (cJ i) x0 x1 k1_pay1) ∗ owns (c : Thread nD τ) arg8 fullShare (stepL (cI i) (cJ i) x0 x1 k1_pay1 k1_pay2) ∗ owns (c : Thread nD τ) arg9 fullShare (stepA (cI i) (cJ i) x0 x1 x2 k1_pay1 k1_pay3)) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
  sl_exec (disch := first | exact hc0 | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H7]
  · iexists _; isplitr
    swap; · iexact H7
    ipureintro
    sl_unfold_run_names
    refine (read_write_whole _ _ zero2 _ _ _).trans ?_
    simp only [readAt_whole (S := S1x512x64) _ _ zero3, readAt_whole (S := S1x1024x64) _ _ zero3, readAt_whole (S := S512x1) _ _ zero2, readAt_whole (S := S512x64) _ _ zero2, View.readCov_unit_zero (S := S512x1) _ zero2, View.readCov_unit_zero (S := S512x64) _ zero2, hf0, hf1, hf2, hf3, hf7, hf8, hf9]
    rfl
  isplitl [H8]
  · iexists _; isplitr
    swap; · iexact H8
    ipureintro
    sl_unfold_run_names
    refine (read_write_whole _ _ zero2 _ _ _).trans ?_
    simp only [readAt_whole (S := S1x512x64) _ _ zero3, readAt_whole (S := S1x1024x64) _ _ zero3, readAt_whole (S := S512x1) _ _ zero2, readAt_whole (S := S512x64) _ _ zero2, View.readCov_unit_zero (S := S512x1) _ zero2, View.readCov_unit_zero (S := S512x64) _ zero2, hf0, hf1, hf2, hf3, hf7, hf8, hf9]
    rfl
  iexists _; isplitr
  swap; · iexact H9
  ipureintro
  sl_unfold_run_names
  refine (read_write_whole _ _ zero2 _ _ _).trans ?_
  simp only [readAt_whole (S := S1x512x64) _ _ zero3, readAt_whole (S := S1x1024x64) _ _ zero3, readAt_whole (S := S512x1) _ _ zero2, readAt_whole (S := S512x64) _ _ zero2, View.readCov_unit_zero (S := S512x1) _ zero2, View.readCov_unit_zero (S := S512x64) _ zero2, hf0, hf1, hf2, hf3, hf7, hf8, hf9]
  rfl

end Cert.KernelIdeal.Hand

end
-- ==== Proof.AttnRunStepOutI.lean ====
import proofs.«133872_j34866544509086_2_alg».proof.Proof.AttnDefsI

/-! The attention body at the last key block of a query block, causally live: the running state is updated by this
    tile and the quotient acc / l of the new state is written to the output block. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option pp.maxSteps 40000
set_option pp.deepTerms false

set_option maxHeartbeats 2000000 in
/-- The last key block of a query block, causally live: the state is updated by this tile and the quotient acc / l of
    the NEW state is written to the output block. -/
theorem runStepOut (c : Dev nD) (E : Set ℕ) (i : grid1.Coords) (arg3 : Memref sig .tc .vmem S1x512x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole)
    (hc0 : ¬condReset i) (hc1 : condLive i) (hc2 : condOut i)
    (x0 : Vec F S1x512x64 .bf16) (x1 x2 : Vec F S1x1024x64 .bf16) (xi3 : Vec F S1x512x64 .f32) (sm sl : Vec F S512x1 .f32) (sa : Vec F S512x64 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3
        ∗ owns (c : Thread nD τ) arg7 fullShare sm ∗ owns (c : Thread nD τ) arg8 fullShare sl ∗ owns (c : Thread nD τ) arg9 fullShare sa
        ∗ (iprop(owns (c : Thread nD τ) arg3 fullShare x0 ∗ owns (c : Thread nD τ) arg4 fullShare x1 ∗ owns (c : Thread nD τ) arg5 fullShare x2
            ∗ owns (c : Thread nD τ) arg6 fullShare (k1_pay6 (stepA (cI i) (cJ i) x0 x1 x2 sm sa) (stepL (cI i) (cJ i) x0 x1 sm sl))
            ∗ owns (c : Thread nD τ) arg7 fullShare (stepM (cI i) (cJ i) x0 x1 sm) ∗ owns (c : Thread nD τ) arg8 fullShare (stepL (cI i) (cJ i) x0 x1 sm sl) ∗ owns (c : Thread nD τ) arg9 fullShare (stepA (cI i) (cJ i) x0 x1 x2 sm sa)) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
  sl_exec (disch := first | exact hc0 | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_run_names
    refine (read_write_whole _ _ zero3 _ _ _).trans ?_
    simp only [readAt_whole (S := S1x512x64) _ _ zero3, readAt_whole (S := S1x1024x64) _ _ zero3, readAt_whole (S := S512x1) _ _ zero2, readAt_whole (S := S512x64) _ _ zero2, View.readCov_unit_zero (S := S512x1) _ zero2, View.readCov_unit_zero (S := S512x64) _ zero2, hf0, hf1, hf2, hf3, hf7, hf8, hf9]
    rfl
  isplitl [H7]
  · iexists _; isplitr
    swap; · iexact H7
    ipureintro
    sl_unfold_run_names
    refine (read_write_whole _ _ zero2 _ _ _).trans ?_
    simp only [readAt_whole (S := S1x512x64) _ _ zero3, readAt_whole (S := S1x1024x64) _ _ zero3, readAt_whole (S := S512x1) _ _ zero2, readAt_whole (S := S512x64) _ _ zero2, View.readCov_unit_zero (S := S512x1) _ zero2, View.readCov_unit_zero (S := S512x64) _ zero2, hf0, hf1, hf2, hf3, hf7, hf8, hf9]
    rfl
  isplitl [H8]
  · iexists _; isplitr
    swap; · iexact H8
    ipureintro
    sl_unfold_run_names
    refine (read_write_whole _ _ zero2 _ _ _).trans ?_
    simp only [readAt_whole (S := S1x512x64) _ _ zero3, readAt_whole (S := S1x1024x64) _ _ zero3, readAt_whole (S := S512x1) _ _ zero2, readAt_whole (S := S512x64) _ _ zero2, View.readCov_unit_zero (S := S512x1) _ zero2, View.readCov_unit_zero (S := S512x64) _ zero2, hf0, hf1, hf2, hf3, hf7, hf8, hf9]
    rfl
  iexists _; isplitr
  swap; · iexact H9
  ipureintro
  sl_unfold_run_names
  refine (read_write_whole _ _ zero2 _ _ _).trans ?_
  simp only [readAt_whole (S := S1x512x64) _ _ zero3, readAt_whole (S := S1x1024x64) _ _ zero3, readAt_whole (S := S512x1) _ _ zero2, readAt_whole (S := S512x64) _ _ zero2, View.readCov_unit_zero (S := S512x1) _ zero2, View.readCov_unit_zero (S := S512x64) _ zero2, hf0, hf1, hf2, hf3, hf7, hf8, hf9]
  rfl

end Cert.KernelIdeal.Hand

end
-- ==== Proof.AttnDatI.lean ====
import proofs.«133872_j34866544509086_2_alg».proof.Proof.AttnRunOutI
import proofs.«133872_j34866544509086_2_alg».proof.Proof.AttnRunStepI
import proofs.«133872_j34866544509086_2_alg».proof.Proof.AttnRunStepOutI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-!
  The attention region's proof data and its body obligation.

  Point t = (b * 4 + i) * 2 + j. At an even point (j = 0) the state is reset and updated by the first key block:
  the state after it is one tile step from (-∞, 0, 0). At an odd point (j = 1) the second key block is causally
  live iff 2 ≤ i: then the state is updated once more, else it is left as the point before left it; in both cases
  the quotient acc / l of the state is written to the output block. So the state after any point is an explicit
  function of the blocks at that point and at the point before — no recursion over the grid.
-/

section Region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched its block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The running state after each point -/

/-- The state (m, l, acc). -/
abbrev St (F : FTy → Type) [FloatOps F] : Type := Vec F S512x1 .f32 × Vec F S512x1 .f32 × Vec F S512x64 .f32

/-- The reset state (-∞, 0, 0), as the body stores it. -/
def initSt : St F := (k1_pay1, k1_pay2, k1_pay3)

/-- One tile step at point `t` from the state `s`. -/
def stepAt (c : Dev nD) (t : Fin cfg1.N) (s : St F) : St F :=
  (stepM (cI (grid1.coords t)) (cJ (grid1.coords t)) (iblk1 V c 0 t) (iblk1 V c 1 t) s.1,
   stepL (cI (grid1.coords t)) (cJ (grid1.coords t)) (iblk1 V c 0 t) (iblk1 V c 1 t) s.1 s.2.1,
   stepA (cI (grid1.coords t)) (cJ (grid1.coords t)) (iblk1 V c 0 t) (iblk1 V c 1 t) (iblk1 V c 2 t) s.1 s.2.2)

/-- The state after point `n`. -/
def stateAt (c : Dev nD) (n : ℕ) (hn : n < cfg1.N) : St F :=
  if n % 2 = 0 then stepAt V c ⟨n, hn⟩ initSt
  else if 2 ≤ (n / 2) % 4 then
    stepAt V c ⟨n, hn⟩ (stepAt V c ⟨n - 1, Nat.lt_of_le_of_lt (Nat.sub_le _ _) hn⟩ initSt)
  else stepAt V c ⟨n - 1, Nat.lt_of_le_of_lt (Nat.sub_le _ _) hn⟩ initSt

theorem stateAt_even (c : Dev nD) (t : Fin cfg1.N) (h0 : t.val % 2 = 0) :
    stateAt V c t.val t.isLt = stepAt V c t initSt := by
  unfold stateAt; rw [if_pos h0]

theorem stateAt_prev (c : Dev nD) (t : Fin cfg1.N) (h0 : ¬t.val % 2 = 0) :
    stateAt V c (t.val - 1) (Nat.lt_of_le_of_lt (Nat.sub_le _ _) t.isLt)
      = stepAt V c ⟨t.val - 1, Nat.lt_of_le_of_lt (Nat.sub_le _ _) t.isLt⟩ initSt := by
  unfold stateAt; rw [if_pos (by omega)]

theorem stateAt_dead (c : Dev nD) (t : Fin cfg1.N) (h0 : ¬t.val % 2 = 0) (h1 : ¬2 ≤ (t.val / 2) % 4) :
    stateAt V c t.val t.isLt = stateAt V c (t.val - 1) (Nat.lt_of_le_of_lt (Nat.sub_le _ _) t.isLt) := by
  rw [stateAt_prev V c t h0]; unfold stateAt; rw [if_neg h0, if_neg h1]

theorem stateAt_live (c : Dev nD) (t : Fin cfg1.N) (h0 : ¬t.val % 2 = 0) (h1 : 2 ≤ (t.val / 2) % 4) :
    stateAt V c t.val t.isLt = stepAt V c t (stateAt V c (t.val - 1) (Nat.lt_of_le_of_lt (Nat.sub_le _ _) t.isLt)) := by
  rw [stateAt_prev V c t h0]; unfold stateAt; rw [if_neg h0, if_pos h1]

/-- What a write-out point leaves in the output block: acc / l of the state after it. -/
def outAt (c : Dev nD) (t : Fin cfg1.N) : Vec F S1x512x64 .f32 :=
  k1_pay6 (stateAt V c t.val t.isLt).2.2 (stateAt V c t.val t.isLt).2.1

/-! ## The invariant -/

/-- Before the first point the region's plain invariant; after point `n` the three state buffers at the state after
    it, the passengers, and the generator register at some state. -/
def PhiS (c : Dev nD) : (n : ℕ) → n ≤ cfg1.N → sProp 𝕄
  | 0, _ => Pipeline.ΦA spec1 c
  | n + 1, hn => iprop(chain (F := F) c (iprop(owns (c : Thread nD τ) scM fullShare (stateAt V c n hn).1
      ∗ owns (c : Thread nD τ) scL fullShare (stateAt V c n hn).2.1 ∗ owns (c : Thread nD τ) scA fullShare (stateAt V c n hn).2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(chain (F := F) c (iprop(owns (c : Thread nD τ) scM fullShare (stateAt V c n hn).1
      ∗ owns (c : Thread nD τ) scL fullShare (stateAt V c n hn).2.1 ∗ owns (c : Thread nD τ) scA fullShare (stateAt V c n hn).2.2)) ∗ (∃ r, prngReg c r)) := rfl

theorem PhiS_pos (c : Dev nD) (n : ℕ) (h : n ≤ cfg1.N) (hz : n ≠ 0) :
    PhiS V c n h = iprop(chain (F := F) c (iprop(owns (c : Thread nD τ) scM fullShare (stateAt V c (n - 1) (by omega)).1
      ∗ owns (c : Thread nD τ) scL fullShare (stateAt V c (n - 1) (by omega)).2.1 ∗ owns (c : Thread nD τ) scA fullShare (stateAt V c (n - 1) (by omega)).2.2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4000000 in
/-- The body at any point: which of the three cases the point is in is read off `t % 2` and `(t / 2) % 4`; the
    invariant hands the body the three state buffers (at anything before the first point, else at the state the point
    before left) and takes them back at this point's state; the passengers, the generator register and the core's
    dues pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  have hN : t.val < 64 := lt_of_lt_of_eq t.isLt (show cfg1.N = 64 from N_1)
  by_cases h0 : t.val % 2 = 0
  · -- the first key block: reset, then one tile step; the output block is idle
    have hcR : condReset (grid1.coords t) := (hcondReset t).mpr h0
    have hcL : condLive (grid1.coords t) := (hcondLive t).mpr (Or.inl h0)
    have hcO : ¬condOut (grid1.coords t) := fun h => by have := (hcondOut t).mp h; omega
    rw [Dat.leavesExact_idle (dat1 V c) 3 t (idle1_3 t hcO) (noFlush1_3 t hcO)]
    rw [stateAt_even V c t h0]
    unfold stepAt initSt; dsimp only
    by_cases hz : t.val = 0
    · rw [PhiS_castSucc V c t, PhiS_zero V c _ _ hz, PhiA1_eq]
      iintro ⟨⟨HC, Hg⟩, Ho, ⟨%d0, H0⟩, ⟨%d1, H1⟩, ⟨%d2, H2⟩, ⟨%d3, H3⟩⟩
      ihave HC' := (chain_open (F := F) c _) $$ HC
      icases HC' with ⟨HO, ⟨%sm, HS0⟩, ⟨%sl, HS1⟩, ⟨%sa, HS2⟩⟩
      iapply (runStep c Set.univ (grid1.coords t) _ _ _ _ _ _ _ _ _ _ _ _ _ _ hcR hcL hcO (iblk1 V c 0 t) (iblk1 V c 1 t) (iblk1 V c 2 t) _ sm sl sa _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HO HS0 HS1 HS2 Hg]
      · isplitl [HO HS0 HS1 HS2]
        · iapply (chain_close (F := F) c _)
          isplitl [HO]; · iexact HO
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HC, Hg⟩, Ho, ⟨%d0, H0⟩, ⟨%d1, H1⟩, ⟨%d2, H2⟩, ⟨%d3, H3⟩⟩
      ihave HC' := (chain_open (F := F) c _) $$ HC
      icases HC' with ⟨HO, HS0, HS1, HS2⟩
      iapply (runStep c Set.univ (grid1.coords t) _ _ _ _ _ _ _ _ _ _ _ _ _ _ hcR hcL hcO (iblk1 V c 0 t) (iblk1 V c 1 t) (iblk1 V c 2 t) _ _ _ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HO HS0 HS1 HS2 Hg]
      · isplitl [HO HS0 HS1 HS2]
        · iapply (chain_close (F := F) c _)
          isplitl [HO]; · iexact HO
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
  · have hcR : ¬condReset (grid1.coords t) := fun h => h0 ((hcondReset t).mp h)
    have hcO : condOut (grid1.coords t) := (hcondOut t).mpr (by omega)
    have hz : t.val ≠ 0 := by omega
    rw [show (dat1 V c).leavesExact 3 t = owns (c : Thread nD τ) (ms1_3 t) fullShare ((dat1 V c).after 3 t) from by
      unfold Dat.leavesExact; rw [live1_3 t hcO], after1_3]
    unfold outAt
    rw [PhiS_castSucc V c t, PhiS_pos V c _ _ hz]
    by_cases h1 : 2 ≤ (t.val / 2) % 4
    · -- the second key block, causally live: one more tile step, then the write-out
      have hcL : condLive (grid1.coords t) := (hcondLive t).mpr (Or.inr h1)
      rw [stateAt_live V c t h0 h1]
      unfold stepAt; dsimp only
      iintro ⟨⟨HC, Hg⟩, Ho, ⟨%d0, H0⟩, ⟨%d1, H1⟩, ⟨%d2, H2⟩, ⟨%d3, H3⟩⟩
      ihave HC' := (chain_open (F := F) c _) $$ HC
      icases HC' with ⟨HO, HS0, HS1, HS2⟩
      iapply (runStepOut c Set.univ (grid1.coords t) _ _ _ _ _ _ _ _ _ _ _ _ _ _ hcR hcL hcO (iblk1 V c 0 t) (iblk1 V c 1 t) (iblk1 V c 2 t) _ _ _ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HO HS0 HS1 HS2 Hg]
      · isplitl [HO HS0 HS1 HS2]
        · iapply (chain_close (F := F) c _)
          isplitl [HO]; · iexact HO
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexact H3
    · -- the second key block, causally dead: the state stays, and is written out
      have hcL : ¬condLive (grid1.coords t) := fun h => by
        rcases (hcondLive t).mp h with h | h
        · exact h0 h
        · exact h1 h
      rw [stateAt_dead V c t h0 h1]
      iintro ⟨⟨HC, Hg⟩, Ho, ⟨%d0, H0⟩, ⟨%d1, H1⟩, ⟨%d2, H2⟩, ⟨%d3, H3⟩⟩
      ihave HC' := (chain_open (F := F) c _) $$ HC
      icases HC' with ⟨HO, HS0, HS1, HS2⟩
      iapply (runOut c Set.univ (grid1.coords t) _ _ _ _ _ _ _ _ _ _ _ _ _ _ hcR hcL hcO (iblk1 V c 0 t) (iblk1 V c 1 t) (iblk1 V c 2 t) _ _ _ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HO HS0 HS1 HS2 Hg]
      · isplitl [HO HS0 HS1 HS2]
        · iapply (chain_close (F := F) c _)
          isplitl [HO]; · iexact HO
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After any point but the first the invariant gives the plain one back: the state's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨HC, Hg⟩
  ihave HC' := (chain_open (F := F) c _) $$ HC
  icases HC' with ⟨HO, HS0, HS1, HS2⟩
  isplitl [HO HS0 HS1 HS2]
  · iapply (chain_close (F := F) c _)
    isplitl [HO]; · iexact HO
    isplitl [HS0]; · iexists _; iexact HS0
    isplitl [HS1]; · iexists _; iexact HS1
    iexists _; iexact HS2
  iexact Hg

theorem hout1 (c : Dev nD) : (dat1 V c).Φ (Fin.last cfg1.N) ⊢ Pipeline.ΦA spec1 c :=
  Phi_out1 V c _ (by rw [Fin.val_last]; have : cfg1.N = 64 := N_1; omega)

end Region

end Cert.KernelIdeal.Hand

end
-- ==== Proof.AssembleI.lean ====
import proofs.«133872_j34866544509086_2_alg».proof.Proof.ProjFrameI
import proofs.«133872_j34866544509086_2_alg».proof.Proof.AttnDatI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The whole program's run, at any float type: the program is two kernel regions and nothing else, the projections
  (pipeline 0) and the attention proper (pipeline 1). A core's buffers at launch are `W0`; after the projections its
  three output arrays hold what that pipeline's write-backs leave and every other buffer is untouched (`W2`); after
  the attention its output array holds what its write-backs leave, the rest again untouched (`W4`). Each region is
  entered from "every unscoped buffer at the boundary's contents, the generator register at some state, nothing
  owed" and left at the same at the next boundary; the run reads the final memory off `W4`.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers at the three boundaries -/

/-- Core `c`'s buffers at launch. -/
abbrev W0 : Dev nD → Valuation τ sig (Elt F) := fun c b => (s₀ m ρ).mem ((c : Dev nD), b)
/-- The same read at the TensorCore's references: what the projections are entered from. -/
abbrev V0 : (c : Dev nD) → (b : Ref sig .tc) → Buf (Elt F) ((c : Thread nD τ).loc b) := fun c b => m ((c : Thread nD τ).loc b)
/-- After the projections: that pipeline's arrays at what it leaves (an input as entered, an output its write-backs
    folded), every other buffer as at launch. -/
def W2 (c : Dev nD) : Valuation τ sig (Elt F) :=
  Pipeline.withArrays spec0 c (W0 m ρ c) fun w => (dat0 (V0 m) c).arrAt w cfg0.N
theorem W2_arr (c : Dev nD) (w : Fin cfg0.W) :
    W2 m ρ c (Proc.devRef .tc (Pipeline.arrRef spec0 w)) = (dat0 (V0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
/-- The same read at the TensorCore's references: what the attention is entered from. -/
abbrev V2 : (c : Dev nD) → (b : Ref sig .tc) → Buf (Elt F) ((c : Thread nD τ).loc b) := fun c b => W2 m ρ c b
theorem hF0 (c : Dev nD) (w : Fin cfg0.W) : (dat0 (V0 m) c).arrAt w cfg0.N = V2 m ρ c (Pipeline.arrRef spec0 w) :=
  (W2_arr m ρ c w).symm
theorem hrest0 (c : Dev nD) : ∀ b, b ∉ Finset.univ.image (Pipeline.arrRef spec0) → V2 m ρ c b = V0 m c b :=
  fun b hb => W2_of_ne m ρ c b fun w e => hb (Finset.mem_image.mpr ⟨w, Finset.mem_univ _, e⟩)

/-- After the attention: that pipeline's arrays at what it leaves, every other buffer as it was entered. -/
def W4 (c : Dev nD) : Valuation τ sig (Elt F) :=
  Pipeline.withArrays spec1 c (W2 m ρ c) fun w => (dat1 (V2 m ρ) c).arrAt w cfg1.N
theorem W4_arr (c : Dev nD) (w : Fin cfg1.W) :
    W4 m ρ c (Proc.devRef .tc (Pipeline.arrRef spec1 w)) = (dat1 (V2 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
/-- The same read at the TensorCore's references: what the program ends at. -/
abbrev V4 : (c : Dev nD) → (b : Ref sig .tc) → Buf (Elt F) ((c : Thread nD τ).loc b) := fun c b => W4 m ρ c b
theorem hF1 (c : Dev nD) (w : Fin cfg1.W) : (dat1 (V2 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

/-! ## The proof data family and the thread state -/

/-- No pipeline has a prefetched table. -/
abbrev adm : (p : Fin 2) → (pcfgs (F := F) p).Adm := fun p => (cfgs p).toPCfg_adm
/-- Every pipeline's proof data, each at the contents its region is entered from. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both regions: the generator register at some state, and the core owing nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projections over the thread state: entered from every unscoped buffer at `W0`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m c) fun _ => rfl
    rw [show unscopedBufs c (V0 m c) = StableHlo.held (c : Thread nD τ) (Pipeline.ucRefs τ sig) (W0 m ρ c)
      from Pipeline.unscopedBufs_held c (W0 m ρ c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention over the thread state: entered from every unscoped buffer at `W2`, left at `W4`. Its invariant
    is the class invariant only at the first point and after the last (the running state sits in three scratch
    buffers in between), so the generator register enters and leaves it through the two entailments of the proof data. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## What the boundaries' buffers hold -/

/-- After the projections each of that pipeline's arrays holds what the pipeline leaves in it. -/
theorem V2_out (c : Dev nD) (w : Fin cfg0.W) : V2 m ρ c (Pipeline.arrRef spec0 w) = (dat0 (V0 m) c).arrAt w cfg0.N :=
  W2_arr m ρ c w
/-- The three projection arrays after the projections. -/
theorem V2_main_v0_0 (c : Dev nD) : V2 m ρ c main_v0_0 = (dat0 (V0 m) c).arrAt 5 cfg0.N := W2_arr m ρ c 5
theorem V2_main_v0_1 (c : Dev nD) : V2 m ρ c main_v0_1 = (dat0 (V0 m) c).arrAt 6 cfg0.N := W2_arr m ρ c 6
theorem V2_main_v0_2 (c : Dev nD) : V2 m ρ c main_v0_2 = (dat0 (V0 m) c).arrAt 7 cfg0.N := W2_arr m ρ c 7
/-- The five arguments are inputs of the projections: they are read, never written, so they hold their launch contents. -/
theorem V2_main_arg0 (c : Dev nD) : V2 m ρ c main_arg0 = m ((c : Thread nD τ).loc main_arg0) :=
  (W2_arr m ρ c 0).trans (((dat0 (V0 m) c).arrAt_in 0 rfl _).trans (A_eq0 (V0 m) c 0))
theorem V2_main_arg1 (c : Dev nD) : V2 m ρ c main_arg1 = m ((c : Thread nD τ).loc main_arg1) :=
  (W2_arr m ρ c 1).trans (((dat0 (V0 m) c).arrAt_in 1 rfl _).trans (A_eq0 (V0 m) c 1))
theorem V2_main_arg2 (c : Dev nD) : V2 m ρ c main_arg2 = m ((c : Thread nD τ).loc main_arg2) :=
  (W2_arr m ρ c 2).trans (((dat0 (V0 m) c).arrAt_in 2 rfl _).trans (A_eq0 (V0 m) c 2))
theorem V2_main_arg3 (c : Dev nD) : V2 m ρ c main_arg3 = m ((c : Thread nD τ).loc main_arg3) :=
  (W2_arr m ρ c 3).trans (((dat0 (V0 m) c).arrAt_in 3 rfl _).trans (A_eq0 (V0 m) c 3))
theorem V2_main_arg4 (c : Dev nD) : V2 m ρ c main_arg4 = m ((c : Thread nD τ).loc main_arg4) :=
  (W2_arr m ρ c 4).trans (((dat0 (V0 m) c).arrAt_in 4 rfl _).trans (A_eq0 (V0 m) c 4))

/-- At the end the result array holds what the attention's write-backs leave in it, -/
theorem W4_main_v1 (c : Dev nD) : W4 m ρ c (Proc.devRef .tc main_v1) = (dat1 (V2 m ρ) c).arrAt 3 cfg1.N := W4_arr m ρ c 3
/-- and each argument, which the attention bypasses, its launch contents. -/
theorem W4_main_arg0 (c : Dev nD) : W4 m ρ c (Proc.devRef .tc main_arg0) = m ((c : Thread nD τ).loc main_arg0) :=
  (W4_of_ne m ρ c main_arg0 (by decide)).trans (V2_main_arg0 m ρ c)
theorem W4_main_arg1 (c : Dev nD) : W4 m ρ c (Proc.devRef .tc main_arg1) = m ((c : Thread nD τ).loc main_arg1) :=
  (W4_of_ne m ρ c main_arg1 (by decide)).trans (V2_main_arg1 m ρ c)
theorem W4_main_arg2 (c : Dev nD) : W4 m ρ c (Proc.devRef .tc main_arg2) = m ((c : Thread nD τ).loc main_arg2) :=
  (W4_of_ne m ρ c main_arg2 (by decide)).trans (V2_main_arg2 m ρ c)
theorem W4_main_arg3 (c : Dev nD) : W4 m ρ c (Proc.devRef .tc main_arg3) = m ((c : Thread nD τ).loc main_arg3) :=
  (W4_of_ne m ρ c main_arg3 (by decide)).trans (V2_main_arg3 m ρ c)
theorem W4_main_arg4 (c : Dev nD) : W4 m ρ c (Proc.devRef .tc main_arg4) = m ((c : Thread nD τ).loc main_arg4) :=
  (W4_of_ne m ρ c main_arg4 (by decide)).trans (V2_main_arg4 m ρ c)

/-! ## The program as segments, and the run -/

/-- The program's two segments in order. -/
abbrev segs : List (Pipeline.Seg (pcfgs (F := F)) adm (pdats m ρ) () defs₀ 𝒱₀ L lv) :=
  [ .region (reg0 m ρ), .region (reg1 m ρ) ]
/-- The program is the run of the two segments. -/
theorem main_run (c : Dev nD) : main (F := F) c = Pipeline.Seg.run (segs m ρ) :=
  main_segs adm (pdats m ρ) () 𝒱₀ L lv (reg0 m ρ) (reg1 m ρ) c

set_option backward.isDefEq.respectTransparency.types false in
/-- THE RUN: from any memory with zero counters every weakly fair execution of the program terminates, nothing
    faulting, and in every final state the result array holds what the attention pipeline's write-backs leave in it
    (at the contents the projections left) and the five argument arrays hold their launch contents. -/
theorem run_all : θ_run defs (onTc (τ := τ) (main (F := F))) ⟨m, fun _ => 0, ρ⟩ (fun r => ∀ c : Dev nD,
      r.2.mem ((c.tc : Thread nD τ).loc main_v1) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v1 (by decide))).trans (W4_main_v1 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Hand

end
-- ==== Proof.ProjFrameB.lean ====
import proofs.«133872_j34866544509086_2_alg».proof.Proof.Gen.Kernel.Launch
import proofs.«133872_j34866544509086_2_alg».proof.Proof.Gen.Kernel.Skeleton
import proofs.«133872_j34866544509086_2_alg».proof.Proof.Gen.Kernel.Points
import Idealize.ShloMosaic.Lib.Pipeline.FrameBody
import Idealize.ShloMosaic.Lib.Pipeline.Value
import Idealize.ShloMosaic.Lib.Tactic

/-!
  The projection kernel's half of the frame, at any float type.

  The kernel runs on a grid of 8 x 2 points. At each point it is handed one block of 1024 rows of each of the
  two activations (windows 0 and 1) and the three weight matrices whole (windows 2, 3, 4); it loads all five,
  and stores into each of its three output windows (5, 6, 7) one whole block: the product of an activation
  block with a weight matrix. So what the body leaves in an output's staging buffer is a closed function of the
  input blocks at the point (`out0_5`, `out0_6`, `out0_7`), whatever the buffer held before, and every input's
  staging buffer holds that input's block at every point, fetched there or not (the weights' block index never
  moves). Everything is stated at a parameter `V`: the buffers' contents when the region is entered.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: an unfetched input's block index has not
    moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: an unfetched input's block index has not
    moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: an unfetched input's block index has not
    moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: an unfetched input's block index has not
    moved since the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: an unfetched input's block index has not
    moved since the point before. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store is of a whole staging buffer -/

/-- The whole of an activation block, `[1, 1024, 1024]`, -/
abbrev rX : Rect S1x1024x1024 := Rect.unit (s := S1x1024x1024) ![0, 0, 0] S1x1024x1024.size inb_S1x1024x1024_S1x1024x1024_0_0_0
/-- of a weight matrix, `[1024, 64]`, -/
abbrev rW : Rect S1024x64 := Rect.unit (s := S1024x64) ![0, 0] S1024x64.size inb_S1024x64_S1024x64_0_0
/-- and of an output block, `[1, 1024, 64]`. -/
abbrev rO : Rect S1x1024x64 := Rect.unit (s := S1x1024x64) ![0, 0, 0] S1x1024x64.size inb_S1x1024x64_S1x1024x64_0_0_0

theorem hz3 : (![0, 0, 0] : Fin 3 → Nat) = fun _ => 0 := funext fun a => by fin_cases a <;> rfl
theorem hz2 : (![0, 0] : Fin 2 → Nat) = fun _ => 0 := funext fun a => by fin_cases a <;> rfl

/-! ## What the body leaves in each output window's buffer -/

/-- Window 5's staging buffer after the body: its one store, of the product of the first activation's block
    with the first weight matrix. -/
def out0_5 (x0 : Vec F S1x1024x1024 .f32) (x2 : Vec F S1024x64 .f32) : Vec F S1x1024x64 .bf16 :=
  View.canon [⟨rO, k0_pay2 (View.ld x0 rX) (View.ld x2 rW)⟩]
/-- Window 6's: the second activation's block with the second weight matrix. -/
def out0_6 (x1 : Vec F S1x1024x1024 .f32) (x3 : Vec F S1024x64 .f32) : Vec F S1x1024x64 .bf16 :=
  View.canon [⟨rO, k0_pay3 (View.ld x1 rX) (View.ld x3 rW)⟩]
/-- Window 7's: the second activation's block with the third weight matrix. -/
def out0_7 (x1 : Vec F S1x1024x1024 .f32) (x4 : Vec F S1024x64 .f32) : Vec F S1x1024x64 .bf16 :=
  View.canon [⟨rO, k0_pay4 (View.ld x1 rX) (View.ld x4 rW)⟩]

/-- The one store covers the buffer and every load reads its buffer whole: the buffer is left at the payload. -/
theorem out0_5_eq (x0 : Vec F S1x1024x1024 .f32) (x2 : Vec F S1024x64 .f32) : out0_5 x0 x2 = k0_pay2 x0 x2 := by
  unfold out0_5
  rw [View.canon_unit_zero (S := S1x1024x64) hz3 inb_S1x1024x64_S1x1024x64_0_0_0,
    View.ld_unit_zero (S := S1x1024x1024) hz3 inb_S1x1024x1024_S1x1024x1024_0_0_0,
    View.ld_unit_zero (S := S1024x64) hz2 inb_S1024x64_S1024x64_0_0]
theorem out0_6_eq (x1 : Vec F S1x1024x1024 .f32) (x3 : Vec F S1024x64 .f32) : out0_6 x1 x3 = k0_pay3 x1 x3 := by
  unfold out0_6
  rw [View.canon_unit_zero (S := S1x1024x64) hz3 inb_S1x1024x64_S1x1024x64_0_0_0,
    View.ld_unit_zero (S := S1x1024x1024) hz3 inb_S1x1024x1024_S1x1024x1024_0_0_0,
    View.ld_unit_zero (S := S1024x64) hz2 inb_S1024x64_S1024x64_0_0]
theorem out0_7_eq (x1 : Vec F S1x1024x1024 .f32) (x4 : Vec F S1024x64 .f32) : out0_7 x1 x4 = k0_pay4 x1 x4 := by
  unfold out0_7
  rw [View.canon_unit_zero (S := S1x1024x64) hz3 inb_S1x1024x64_S1x1024x64_0_0_0,
    View.ld_unit_zero (S := S1x1024x1024) hz3 inb_S1x1024x1024_S1x1024x1024_0_0_0,
    View.ld_unit_zero (S := S1024x64) hz2 inb_S1024x64_S1024x64_0_0]

/-- A store of a whole output block covers the buffer. -/
theorem coverO (p : Vec F S1x1024x64 .bf16) (y : S1x1024x64.Idx) :
    ∃ pc ∈ ([⟨rO, p⟩] : List (View.Piece (Elt F) S1x1024x64 .bf16)), y ∈ pc.1.set :=
  ⟨_, List.mem_singleton_self _, View.mem_set_unit_zero (S := S1x1024x64) hz3 inb_S1x1024x64_S1x1024x64_0_0_0 y⟩

/-! ## The body's triple -/

set_option maxHeartbeats 1000000 in
/-- The kernel body on whole staging memrefs, the five inputs' at read contents `x0 … x4` and the three outputs' at
    anything, runs to the continuation holding the inputs' as they were and each output's at its one store's
    payload laid over the buffer. The grid coordinates are not read. -/
theorem sound_kernel0 (c : Dev nD) (E : Set ℕ) (i : grid0.Coords)
    (arg0 : Memref sig .tc .vmem S1x1024x1024 .f32) (harg0 : arg0.IsWhole) (arg1 : Memref sig .tc .vmem S1x1024x1024 .f32) (harg1 : arg1.IsWhole)
    (arg2 : Memref sig .tc .vmem S1024x64 .f32) (harg2 : arg2.IsWhole) (arg3 : Memref sig .tc .vmem S1024x64 .f32) (harg3 : arg3.IsWhole)
    (arg4 : Memref sig .tc .vmem S1024x64 .f32) (harg4 : arg4.IsWhole)
    (arg5 : Memref sig .tc .vmem S1x1024x64 .bf16) (harg5 : arg5.IsWhole) (arg6 : Memref sig .tc .vmem S1x1024x64 .bf16) (harg6 : arg6.IsWhole)
    (arg7 : Memref sig .tc .vmem S1x1024x64 .bf16) (harg7 : arg7.IsWhole)
    (x0 x1 : Vec F S1x1024x1024 .f32) (x2 x3 x4 : Vec F S1024x64 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3 ∗ owns (c : Thread nD τ) arg4 fullShare x4
            ∗ owns (c : Thread nD τ) arg5 fullShare (out0_5 x0 x2) ∗ owns (c : Thread nD τ) arg6 fullShare (out0_6 x1 x3)
            ∗ owns (c : Thread nD τ) arg7 fullShare (out0_7 x1 x4)) -∗ K ⟨⟩))
      ⊢ wp frame (wpE (defs₀ (F := F)) Variants.none c none) E
          (cc0__proj_kernel i arg0 harg0 arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩,
    ⟨%d5, %f5, -, H5⟩, ⟨%d6, %f6, -, H6⟩, ⟨%d7, %f7, -, H7⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverO _)
  isplitl [H6]
  · iexists _; isplitr
    swap; · iexact H6
    ipureintro
    exact View.read_writes_eq_canon _ _ _ (coverO _)
  iexists _; isplitr
  swap; · iexact H7
  ipureintro
  exact View.read_writes_eq_canon _ _ _ (coverO _)

/-! ## The pipeline's proof data -/

/-- The proof data of the projection pipeline on core `c`: the arrays as the region finds them; after the body at
    point `t` each input's buffer at its block and each output's at the product of its two input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 2 t)
    | ⟨6, _⟩ => out0_6 (iblk0 V c 1 t) (iblk0 V c 3 t)
    | ⟨7, _⟩ => out0_7 (iblk0 V c 1 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 1 t) (iblk0 V c 3 t) := by dsimp only [dat0]
theorem after0_7 (c : Dev nD) (t : Fin cfg0.N) : (dat0 V c).after 7 t = out0_7 (iblk0 V c 1 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`: the invariant, the core's dues, and the eight windows' current
    staging buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.AttnDefsB.lean ====
import proofs.«133872_j34866544509086_2_alg».proof.Proof.Gen.Kernel.Launch
import proofs.«133872_j34866544509086_2_alg».proof.Proof.Gen.Kernel.Skeleton
import proofs.«133872_j34866544509086_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

/-!
  The attention region (pipeline 1, grid 8 x 4 x 2: batch, query block of 512 rows, key block of 1024 rows),
  what its three control cases are stated over.

  The body has three conditionals on the grid point (b, i, j): the state reset (j = 0), the tile update (the key
  block is causally live: j * 1024 < (i + 1) * 512, that is j = 0, or j = 1 and i ≥ 2) and the write-out (j = 1).
  Numbering the points t = (b * 4 + i) * 2 + j, the three conditions are decided once over the 64 points. The
  output window is stored only at the write-out points and idle elsewhere. The running state (m, l, acc) lives in
  three scratch buffers of the kernel's own, which the region's invariant carries from point to point.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions -/

/-- The state reset is taken: the key block is the first one. -/
abbrev condReset (i : grid1.Coords) : Prop :=
  (Scalar.cmpi .ne (Scalar.extui (Scalar.cmpi .eq (BitVec.ofNat 32 (i 2).val) 0#32)) 0#32) = 1#1
/-- The tile update is taken: the key block's first key is not after the query block's last query. -/
abbrev condLive (i : grid1.Coords) : Prop :=
  (Scalar.cmpi .ne (Scalar.extui (Scalar.cmpi .slt (Scalar.muli (BitVec.ofNat 32 (i 2).val) 1024#32)
    (Scalar.muli (Scalar.addi (BitVec.ofNat 32 (i 1).val) 1#32) 512#32))) 0#32) = 1#1
/-- The write-out is taken: the key block is the last one. -/
abbrev condOut (i : grid1.Coords) : Prop := k1_cond3 i = 1#1

theorem hcondReset : ∀ t : Fin cfg1.N, condReset (grid1.coords t) ↔ t.val % 2 = 0 :=
  (by decide +kernel : ∀ t : Fin grid1.N, condReset (grid1.coords t) ↔ t.val % 2 = 0)
theorem hcondLive : ∀ t : Fin cfg1.N, condLive (grid1.coords t) ↔ (t.val % 2 = 0 ∨ 2 ≤ (t.val / 2) % 4) :=
  (by decide +kernel : ∀ t : Fin grid1.N, condLive (grid1.coords t) ↔ (t.val % 2 = 0 ∨ 2 ≤ (t.val / 2) % 4))
theorem hcondOut : ∀ t : Fin cfg1.N, condOut (grid1.coords t) ↔ t.val % 2 = 1 :=
  (by decide +kernel : ∀ t : Fin grid1.N, condOut (grid1.coords t) ↔ t.val % 2 = 1)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Where the write-out is not taken the output window is idle, -/
theorem idle1_3 : ∀ t : Fin cfg1.N, ¬condOut (grid1.coords t) → cfg1.idle 3 (grid1.coords t) = true := by decide +kernel
/-- and not written back; -/
theorem noFlush1_3 : ∀ t : Fin cfg1.N, ¬condOut (grid1.coords t) → (cfg1.win 3).flush t = false := by decide +kernel
/-- where it is taken the window is live. -/
theorem live1_3 : ∀ t : Fin cfg1.N, condOut (grid1.coords t) → cfg1.idle 3 (grid1.coords t) = false := by decide +kernel

/-! ## The memrefs the body is called with -/

abbrev ms1_0 (t : Fin cfg1.N) : Memref sig .tc .vmem S1x512x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x64 .f32 := win1_3.stage (cfg1.slots t 3)
abbrev hs1_3 (t : Fin cfg1.N) : (ms1_3 t).IsWhole := hstage1_3 ((cfg1.slots t 3).cast nbuf1_3)
/-- The running maximum, the running normaliser and the running weighted sum: whole scoped buffers of the kernel's own. -/
abbrev scM : Memref sig .tc .vmem S512x1 .f32 := Memref.whole cc1_scratch0
abbrev scL : Memref sig .tc .vmem S512x1 .f32 := Memref.whole cc1_scratch1
abbrev scA : Memref sig .tc .vmem S512x64 .f32 := Memref.whole cc1_scratch2

/-! ## The invariant's passengers

  Beside the three state buffers the core has thirteen more scoped buffers that are no staging buffer of this
  region (the projection region's): each rides through every point whole, at some contents. -/

/-- Those thirteen buffers, each at some contents, beside `X`. -/
def chain (c : Dev nD) (X : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f)
    ∗ X)

theorem chain_open (c : Dev nD) (X : sProp 𝕄) : chain (F := F) c X ⊢ iprop(chain (F := F) c iprop(emp) ∗ X) := by
  unfold chain
  iintro ⟨H1, H2, H3, H4, H5, H6, H7, H8, H9, H10, H11, H12, H13, HX⟩
  isplitr [HX]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iempintro
  iexact HX

theorem chain_close (c : Dev nD) (X : sProp 𝕄) : iprop(chain (F := F) c iprop(emp) ∗ X) ⊢ chain (F := F) c X := by
  unfold chain
  iintro ⟨⟨H1, H2, H3, H4, H5, H6, H7, H8, H9, H10, H11, H12, H13, -⟩, HX⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact HX

/-- The region's plain invariant: the thirteen passengers, the three state buffers as memrefs owned at some contents,
    and the generator register at some state. -/
theorem PhiA1_eq (c : Dev nD) :
    (Pipeline.ΦA spec1 c : sProp 𝕄)
      = iprop(chain (F := F) c (iprop((∃ d, owns (c : Thread nD τ) scM fullShare d) ∗ (∃ d, owns (c : Thread nD τ) scL fullShare d)
          ∗ (∃ d, owns (c : Thread nD τ) scA fullShare d))) ∗ (∃ r, prngReg c r)) := by
  unfold Pipeline.ΦA chain; rw [scopedRest1_eq]; simp only [scM, scL, scA, owns_whole]
  rfl

/-! ## Whole-block accesses read back -/

theorem zero2 : (![0, 0] : Fin 2 → Nat) = fun _ => 0 := by funext a; fin_cases a <;> rfl
theorem zero3 : (![0, 0, 0] : Fin 3 → Nat) = fun _ => 0 := by funext a; fin_cases a <;> rfl

/-- After a list of stores whose LAST one fills the whole block, the buffer reads as that store's value. -/
theorem read_write_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons.mpr (Or.inl rfl), View.mem_set_unit_zero h inb y⟩)).trans
    (View.canon_cons_unit_zero h inb w L)

/-- A load of the whole block reads the buffer's contents. -/
theorem readAt_whole {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-! ## One tile's update of the running state, as the body computes it

  From the query block `x0`, the key block `x1`, the value block `x2` and the state `(m, l, acc)` before:
  the new maximum, the new normaliser and the new weighted sum (the grid coordinates enter through the mask). -/

def stepM (a1 a2 : BitVec 32) (x0 : Vec F S1x512x64 .bf16) (x1 : Vec F S1x1024x64 .bf16) (m : Vec F S512x1 .f32) : Vec F S512x1 .f32 :=
  k1_pay5 (k1_pay9 a1 a2 x0 x1 m)
def stepL (a1 a2 : BitVec 32) (x0 : Vec F S1x512x64 .bf16) (x1 : Vec F S1x1024x64 .bf16) (m l : Vec F S512x1 .f32) : Vec F S512x1 .f32 :=
  k1_pay12 a1 a2 x0 x1 m l
def stepA (a1 a2 : BitVec 32) (x0 : Vec F S1x512x64 .bf16) (x1 x2 : Vec F S1x1024x64 .bf16) (m : Vec F S512x1 .f32)
    (acc : Vec F S512x64 .f32) : Vec F S512x64 .f32 :=
  k1_pay4 (k1_pay7 x2) (k1_pay10 a1 a2 x0 x1 m) (k1_pay11 a1 a2 x0 x1 m) acc
/-- The two grid coordinates the body reads, as it spells them. -/
abbrev cI (i : grid1.Coords) : BitVec 32 := BitVec.ofNat 32 (i 1).val
abbrev cJ (i : grid1.Coords) : BitVec 32 := BitVec.ofNat 32 (i 2).val

end Cert.Kernel.Hand

end
-- ==== Proof.AttnRunOutB.lean ====
import proofs.«133872_j34866544509086_2_alg».proof.Proof.AttnDefsB

/-! The attention body at the last key block of a query block whose second key block is causally dead: the running
    state is left as it is and the quotient acc / l is written to the output block. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option pp.maxSteps 40000
set_option pp.deepTerms false

set_option maxHeartbeats 2000000 in
/-- The last key block of a query block whose second key block is causally dead: the state is left as it is and the
    quotient acc / l is written to the output block. -/
theorem runOut (c : Dev nD) (E : Set ℕ) (i : grid1.Coords) (arg3 : Memref sig .tc .vmem S1x512x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole)
    (hc0 : ¬condReset i) (hc1 : ¬condLive i) (hc2 : condOut i)
    (x0 : Vec F S1x512x64 .bf16) (x1 x2 : Vec F S1x1024x64 .bf16) (xi3 : Vec F S1x512x64 .f32) (sm sl : Vec F S512x1 .f32) (sa : Vec F S512x64 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3
        ∗ owns (c : Thread nD τ) arg7 fullShare sm ∗ owns (c : Thread nD τ) arg8 fullShare sl ∗ owns (c : Thread nD τ) arg9 fullShare sa
        ∗ (iprop(owns (c : Thread nD τ) arg3 fullShare x0 ∗ owns (c : Thread nD τ) arg4 fullShare x1 ∗ owns (c : Thread nD τ) arg5 fullShare x2
            ∗ owns (c : Thread nD τ) arg6 fullShare (k1_pay6 sa sl)
            ∗ owns (c : Thread nD τ) arg7 fullShare sm ∗ owns (c : Thread nD τ) arg8 fullShare sl ∗ owns (c : Thread nD τ) arg9 fullShare sa) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
  sl_exec (disch := first | exact hc0 | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    refine (read_write_whole _ _ zero3 _ _ _).trans ?_
    rw [readAt_whole _ _ zero2, readAt_whole _ _ zero2, hf9, hf8]
  isplitl [H7]
  · iexists _; isplitr; · ipureintro; exact hf7
    iexact H7
  isplitl [H8]
  · iexists _; isplitr; · ipureintro; exact hf8
    iexact H8
  iexists _; isplitr; · ipureintro; exact hf9
  iexact H9

end Cert.Kernel.Hand

end
-- ==== Proof.AttnRunStepB.lean ====
import proofs.«133872_j34866544509086_2_alg».proof.Proof.AttnDefsB

/-! The attention body at the first key block of a query block: the running state is reset to (-∞, 0, 0) and updated
    by this tile; the output block is not touched. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option pp.maxSteps 40000
set_option pp.deepTerms false

set_option maxHeartbeats 2000000 in
/-- The first key block of a query block: the state is reset to (-∞, 0, 0) and updated by this tile; the output block
    is not touched. -/
theorem runStep (c : Dev nD) (E : Set ℕ) (i : grid1.Coords) (arg3 : Memref sig .tc .vmem S1x512x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole)
    (hc0 : condReset i) (hc1 : condLive i) (hc2 : ¬condOut i)
    (x0 : Vec F S1x512x64 .bf16) (x1 x2 : Vec F S1x1024x64 .bf16) (xi3 : Vec F S1x512x64 .f32) (sm sl : Vec F S512x1 .f32) (sa : Vec F S512x64 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3
        ∗ owns (c : Thread nD τ) arg7 fullShare sm ∗ owns (c : Thread nD τ) arg8 fullShare sl ∗ owns (c : Thread nD τ) arg9 fullShare sa
        ∗ (iprop(owns (c : Thread nD τ) arg3 fullShare x0 ∗ owns (c : Thread nD τ) arg4 fullShare x1 ∗ owns (c : Thread nD τ) arg5 fullShare x2
            ∗ owns (c : Thread nD τ) arg6 fullShare xi3
            ∗ owns (c : Thread nD τ) arg7 fullShare (stepM (cI i) (cJ i) x0 x1 k1_pay1) ∗ owns (c : Thread nD τ) arg8 fullShare (stepL (cI i) (cJ i) x0 x1 k1_pay1 k1_pay2) ∗ owns (c : Thread nD τ) arg9 fullShare (stepA (cI i) (cJ i) x0 x1 x2 k1_pay1 k1_pay3)) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
  sl_exec (disch := first | exact hc0 | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H7]
  · iexists _; isplitr
    swap; · iexact H7
    ipureintro
    sl_unfold_run_names
    refine (read_write_whole _ _ zero2 _ _ _).trans ?_
    simp only [readAt_whole (S := S1x512x64) _ _ zero3, readAt_whole (S := S1x1024x64) _ _ zero3, readAt_whole (S := S512x1) _ _ zero2, readAt_whole (S := S512x64) _ _ zero2, View.readCov_unit_zero (S := S512x1) _ zero2, View.readCov_unit_zero (S := S512x64) _ zero2, hf0, hf1, hf2, hf3, hf7, hf8, hf9]
    rfl
  isplitl [H8]
  · iexists _; isplitr
    swap; · iexact H8
    ipureintro
    sl_unfold_run_names
    refine (read_write_whole _ _ zero2 _ _ _).trans ?_
    simp only [readAt_whole (S := S1x512x64) _ _ zero3, readAt_whole (S := S1x1024x64) _ _ zero3, readAt_whole (S := S512x1) _ _ zero2, readAt_whole (S := S512x64) _ _ zero2, View.readCov_unit_zero (S := S512x1) _ zero2, View.readCov_unit_zero (S := S512x64) _ zero2, hf0, hf1, hf2, hf3, hf7, hf8, hf9]
    rfl
  iexists _; isplitr
  swap; · iexact H9
  ipureintro
  sl_unfold_run_names
  refine (read_write_whole _ _ zero2 _ _ _).trans ?_
  simp only [readAt_whole (S := S1x512x64) _ _ zero3, readAt_whole (S := S1x1024x64) _ _ zero3, readAt_whole (S := S512x1) _ _ zero2, readAt_whole (S := S512x64) _ _ zero2, View.readCov_unit_zero (S := S512x1) _ zero2, View.readCov_unit_zero (S := S512x64) _ zero2, hf0, hf1, hf2, hf3, hf7, hf8, hf9]
  rfl

end Cert.Kernel.Hand

end
-- ==== Proof.AttnRunStepOutB.lean ====
import proofs.«133872_j34866544509086_2_alg».proof.Proof.AttnDefsB

/-! The attention body at the last key block of a query block, causally live: the running state is updated by this
    tile and the quotient acc / l of the new state is written to the output block. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option pp.maxSteps 40000
set_option pp.deepTerms false

set_option maxHeartbeats 2000000 in
/-- The last key block of a query block, causally live: the state is updated by this tile and the quotient acc / l of
    the NEW state is written to the output block. -/
theorem runStepOut (c : Dev nD) (E : Set ℕ) (i : grid1.Coords) (arg3 : Memref sig .tc .vmem S1x512x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole)
    (hc0 : ¬condReset i) (hc1 : condLive i) (hc2 : condOut i)
    (x0 : Vec F S1x512x64 .bf16) (x1 x2 : Vec F S1x1024x64 .bf16) (xi3 : Vec F S1x512x64 .f32) (sm sl : Vec F S512x1 .f32) (sa : Vec F S512x64 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3
        ∗ owns (c : Thread nD τ) arg7 fullShare sm ∗ owns (c : Thread nD τ) arg8 fullShare sl ∗ owns (c : Thread nD τ) arg9 fullShare sa
        ∗ (iprop(owns (c : Thread nD τ) arg3 fullShare x0 ∗ owns (c : Thread nD τ) arg4 fullShare x1 ∗ owns (c : Thread nD τ) arg5 fullShare x2
            ∗ owns (c : Thread nD τ) arg6 fullShare (k1_pay6 (stepA (cI i) (cJ i) x0 x1 x2 sm sa) (stepL (cI i) (cJ i) x0 x1 sm sl))
            ∗ owns (c : Thread nD τ) arg7 fullShare (stepM (cI i) (cJ i) x0 x1 sm) ∗ owns (c : Thread nD τ) arg8 fullShare (stepL (cI i) (cJ i) x0 x1 sm sl) ∗ owns (c : Thread nD τ) arg9 fullShare (stepA (cI i) (cJ i) x0 x1 x2 sm sa)) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
  sl_exec (disch := first | exact hc0 | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_run_names
    refine (read_write_whole _ _ zero3 _ _ _).trans ?_
    simp only [readAt_whole (S := S1x512x64) _ _ zero3, readAt_whole (S := S1x1024x64) _ _ zero3, readAt_whole (S := S512x1) _ _ zero2, readAt_whole (S := S512x64) _ _ zero2, View.readCov_unit_zero (S := S512x1) _ zero2, View.readCov_unit_zero (S := S512x64) _ zero2, hf0, hf1, hf2, hf3, hf7, hf8, hf9]
    rfl
  isplitl [H7]
  · iexists _; isplitr
    swap; · iexact H7
    ipureintro
    sl_unfold_run_names
    refine (read_write_whole _ _ zero2 _ _ _).trans ?_
    simp only [readAt_whole (S := S1x512x64) _ _ zero3, readAt_whole (S := S1x1024x64) _ _ zero3, readAt_whole (S := S512x1) _ _ zero2, readAt_whole (S := S512x64) _ _ zero2, View.readCov_unit_zero (S := S512x1) _ zero2, View.readCov_unit_zero (S := S512x64) _ zero2, hf0, hf1, hf2, hf3, hf7, hf8, hf9]
    rfl
  isplitl [H8]
  · iexists _; isplitr
    swap; · iexact H8
    ipureintro
    sl_unfold_run_names
    refine (read_write_whole _ _ zero2 _ _ _).trans ?_
    simp only [readAt_whole (S := S1x512x64) _ _ zero3, readAt_whole (S := S1x1024x64) _ _ zero3, readAt_whole (S := S512x1) _ _ zero2, readAt_whole (S := S512x64) _ _ zero2, View.readCov_unit_zero (S := S512x1) _ zero2, View.readCov_unit_zero (S := S512x64) _ zero2, hf0, hf1, hf2, hf3, hf7, hf8, hf9]
    rfl
  iexists _; isplitr
  swap; · iexact H9
  ipureintro
  sl_unfold_run_names
  refine (read_write_whole _ _ zero2 _ _ _).trans ?_
  simp only [readAt_whole (S := S1x512x64) _ _ zero3, readAt_whole (S := S1x1024x64) _ _ zero3, readAt_whole (S := S512x1) _ _ zero2, readAt_whole (S := S512x64) _ _ zero2, View.readCov_unit_zero (S := S512x1) _ zero2, View.readCov_unit_zero (S := S512x64) _ zero2, hf0, hf1, hf2, hf3, hf7, hf8, hf9]
  rfl

end Cert.Kernel.Hand

end
-- ==== Proof.AttnDatB.lean ====
import proofs.«133872_j34866544509086_2_alg».proof.Proof.AttnRunOutB
import proofs.«133872_j34866544509086_2_alg».proof.Proof.AttnRunStepB
import proofs.«133872_j34866544509086_2_alg».proof.Proof.AttnRunStepOutB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  The attention region's proof data and its body obligation.

  Point t = (b * 4 + i) * 2 + j. At an even point (j = 0) the state is reset and updated by the first key block:
  the state after it is one tile step from (-∞, 0, 0). At an odd point (j = 1) the second key block is causally
  live iff 2 ≤ i: then the state is updated once more, else it is left as the point before left it; in both cases
  the quotient acc / l of the state is written to the output block. So the state after any point is an explicit
  function of the blocks at that point and at the point before — no recursion over the grid.
-/

section Region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched its block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The running state after each point -/

/-- The state (m, l, acc). -/
abbrev St (F : FTy → Type) [FloatOps F] : Type := Vec F S512x1 .f32 × Vec F S512x1 .f32 × Vec F S512x64 .f32

/-- The reset state (-∞, 0, 0), as the body stores it. -/
def initSt : St F := (k1_pay1, k1_pay2, k1_pay3)

/-- One tile step at point `t` from the state `s`. -/
def stepAt (c : Dev nD) (t : Fin cfg1.N) (s : St F) : St F :=
  (stepM (cI (grid1.coords t)) (cJ (grid1.coords t)) (iblk1 V c 0 t) (iblk1 V c 1 t) s.1,
   stepL (cI (grid1.coords t)) (cJ (grid1.coords t)) (iblk1 V c 0 t) (iblk1 V c 1 t) s.1 s.2.1,
   stepA (cI (grid1.coords t)) (cJ (grid1.coords t)) (iblk1 V c 0 t) (iblk1 V c 1 t) (iblk1 V c 2 t) s.1 s.2.2)

/-- The state after point `n`. -/
def stateAt (c : Dev nD) (n : ℕ) (hn : n < cfg1.N) : St F :=
  if n % 2 = 0 then stepAt V c ⟨n, hn⟩ initSt
  else if 2 ≤ (n / 2) % 4 then
    stepAt V c ⟨n, hn⟩ (stepAt V c ⟨n - 1, Nat.lt_of_le_of_lt (Nat.sub_le _ _) hn⟩ initSt)
  else stepAt V c ⟨n - 1, Nat.lt_of_le_of_lt (Nat.sub_le _ _) hn⟩ initSt

theorem stateAt_even (c : Dev nD) (t : Fin cfg1.N) (h0 : t.val % 2 = 0) :
    stateAt V c t.val t.isLt = stepAt V c t initSt := by
  unfold stateAt; rw [if_pos h0]

theorem stateAt_prev (c : Dev nD) (t : Fin cfg1.N) (h0 : ¬t.val % 2 = 0) :
    stateAt V c (t.val - 1) (Nat.lt_of_le_of_lt (Nat.sub_le _ _) t.isLt)
      = stepAt V c ⟨t.val - 1, Nat.lt_of_le_of_lt (Nat.sub_le _ _) t.isLt⟩ initSt := by
  unfold stateAt; rw [if_pos (by omega)]

theorem stateAt_dead (c : Dev nD) (t : Fin cfg1.N) (h0 : ¬t.val % 2 = 0) (h1 : ¬2 ≤ (t.val / 2) % 4) :
    stateAt V c t.val t.isLt = stateAt V c (t.val - 1) (Nat.lt_of_le_of_lt (Nat.sub_le _ _) t.isLt) := by
  rw [stateAt_prev V c t h0]; unfold stateAt; rw [if_neg h0, if_neg h1]

theorem stateAt_live (c : Dev nD) (t : Fin cfg1.N) (h0 : ¬t.val % 2 = 0) (h1 : 2 ≤ (t.val / 2) % 4) :
    stateAt V c t.val t.isLt = stepAt V c t (stateAt V c (t.val - 1) (Nat.lt_of_le_of_lt (Nat.sub_le _ _) t.isLt)) := by
  rw [stateAt_prev V c t h0]; unfold stateAt; rw [if_neg h0, if_pos h1]

/-- What a write-out point leaves in the output block: acc / l of the state after it. -/
def outAt (c : Dev nD) (t : Fin cfg1.N) : Vec F S1x512x64 .f32 :=
  k1_pay6 (stateAt V c t.val t.isLt).2.2 (stateAt V c t.val t.isLt).2.1

/-! ## The invariant -/

/-- Before the first point the region's plain invariant; after point `n` the three state buffers at the state after
    it, the passengers, and the generator register at some state. -/
def PhiS (c : Dev nD) : (n : ℕ) → n ≤ cfg1.N → sProp 𝕄
  | 0, _ => Pipeline.ΦA spec1 c
  | n + 1, hn => iprop(chain (F := F) c (iprop(owns (c : Thread nD τ) scM fullShare (stateAt V c n hn).1
      ∗ owns (c : Thread nD τ) scL fullShare (stateAt V c n hn).2.1 ∗ owns (c : Thread nD τ) scA fullShare (stateAt V c n hn).2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(chain (F := F) c (iprop(owns (c : Thread nD τ) scM fullShare (stateAt V c n hn).1
      ∗ owns (c : Thread nD τ) scL fullShare (stateAt V c n hn).2.1 ∗ owns (c : Thread nD τ) scA fullShare (stateAt V c n hn).2.2)) ∗ (∃ r, prngReg c r)) := rfl

theorem PhiS_pos (c : Dev nD) (n : ℕ) (h : n ≤ cfg1.N) (hz : n ≠ 0) :
    PhiS V c n h = iprop(chain (F := F) c (iprop(owns (c : Thread nD τ) scM fullShare (stateAt V c (n - 1) (by omega)).1
      ∗ owns (c : Thread nD τ) scL fullShare (stateAt V c (n - 1) (by omega)).2.1 ∗ owns (c : Thread nD τ) scA fullShare (stateAt V c (n - 1) (by omega)).2.2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4000000 in
/-- The body at any point: which of the three cases the point is in is read off `t % 2` and `(t / 2) % 4`; the
    invariant hands the body the three state buffers (at anything before the first point, else at the state the point
    before left) and takes them back at this point's state; the passengers, the generator register and the core's
    dues pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  have hN : t.val < 64 := lt_of_lt_of_eq t.isLt (show cfg1.N = 64 from N_1)
  by_cases h0 : t.val % 2 = 0
  · -- the first key block: reset, then one tile step; the output block is idle
    have hcR : condReset (grid1.coords t) := (hcondReset t).mpr h0
    have hcL : condLive (grid1.coords t) := (hcondLive t).mpr (Or.inl h0)
    have hcO : ¬condOut (grid1.coords t) := fun h => by have := (hcondOut t).mp h; omega
    rw [Dat.leavesExact_idle (dat1 V c) 3 t (idle1_3 t hcO) (noFlush1_3 t hcO)]
    rw [stateAt_even V c t h0]
    unfold stepAt initSt; dsimp only
    by_cases hz : t.val = 0
    · rw [PhiS_castSucc V c t, PhiS_zero V c _ _ hz, PhiA1_eq]
      iintro ⟨⟨HC, Hg⟩, Ho, ⟨%d0, H0⟩, ⟨%d1, H1⟩, ⟨%d2, H2⟩, ⟨%d3, H3⟩⟩
      ihave HC' := (chain_open (F := F) c _) $$ HC
      icases HC' with ⟨HO, ⟨%sm, HS0⟩, ⟨%sl, HS1⟩, ⟨%sa, HS2⟩⟩
      iapply (runStep c Set.univ (grid1.coords t) _ _ _ _ _ _ _ _ _ _ _ _ _ _ hcR hcL hcO (iblk1 V c 0 t) (iblk1 V c 1 t) (iblk1 V c 2 t) _ sm sl sa _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HO HS0 HS1 HS2 Hg]
      · isplitl [HO HS0 HS1 HS2]
        · iapply (chain_close (F := F) c _)
          isplitl [HO]; · iexact HO
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HC, Hg⟩, Ho, ⟨%d0, H0⟩, ⟨%d1, H1⟩, ⟨%d2, H2⟩, ⟨%d3, H3⟩⟩
      ihave HC' := (chain_open (F := F) c _) $$ HC
      icases HC' with ⟨HO, HS0, HS1, HS2⟩
      iapply (runStep c Set.univ (grid1.coords t) _ _ _ _ _ _ _ _ _ _ _ _ _ _ hcR hcL hcO (iblk1 V c 0 t) (iblk1 V c 1 t) (iblk1 V c 2 t) _ _ _ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HO HS0 HS1 HS2 Hg]
      · isplitl [HO HS0 HS1 HS2]
        · iapply (chain_close (F := F) c _)
          isplitl [HO]; · iexact HO
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
  · have hcR : ¬condReset (grid1.coords t) := fun h => h0 ((hcondReset t).mp h)
    have hcO : condOut (grid1.coords t) := (hcondOut t).mpr (by omega)
    have hz : t.val ≠ 0 := by omega
    rw [show (dat1 V c).leavesExact 3 t = owns (c : Thread nD τ) (ms1_3 t) fullShare ((dat1 V c).after 3 t) from by
      unfold Dat.leavesExact; rw [live1_3 t hcO], after1_3]
    unfold outAt
    rw [PhiS_castSucc V c t, PhiS_pos V c _ _ hz]
    by_cases h1 : 2 ≤ (t.val / 2) % 4
    · -- the second key block, causally live: one more tile step, then the write-out
      have hcL : condLive (grid1.coords t) := (hcondLive t).mpr (Or.inr h1)
      rw [stateAt_live V c t h0 h1]
      unfold stepAt; dsimp only
      iintro ⟨⟨HC, Hg⟩, Ho, ⟨%d0, H0⟩, ⟨%d1, H1⟩, ⟨%d2, H2⟩, ⟨%d3, H3⟩⟩
      ihave HC' := (chain_open (F := F) c _) $$ HC
      icases HC' with ⟨HO, HS0, HS1, HS2⟩
      iapply (runStepOut c Set.univ (grid1.coords t) _ _ _ _ _ _ _ _ _ _ _ _ _ _ hcR hcL hcO (iblk1 V c 0 t) (iblk1 V c 1 t) (iblk1 V c 2 t) _ _ _ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HO HS0 HS1 HS2 Hg]
      · isplitl [HO HS0 HS1 HS2]
        · iapply (chain_close (F := F) c _)
          isplitl [HO]; · iexact HO
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexact H3
    · -- the second key block, causally dead: the state stays, and is written out
      have hcL : ¬condLive (grid1.coords t) := fun h => by
        rcases (hcondLive t).mp h with h | h
        · exact h0 h
        · exact h1 h
      rw [stateAt_dead V c t h0 h1]
      iintro ⟨⟨HC, Hg⟩, Ho, ⟨%d0, H0⟩, ⟨%d1, H1⟩, ⟨%d2, H2⟩, ⟨%d3, H3⟩⟩
      ihave HC' := (chain_open (F := F) c _) $$ HC
      icases HC' with ⟨HO, HS0, HS1, HS2⟩
      iapply (runOut c Set.univ (grid1.coords t) _ _ _ _ _ _ _ _ _ _ _ _ _ _ hcR hcL hcO (iblk1 V c 0 t) (iblk1 V c 1 t) (iblk1 V c 2 t) _ _ _ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HO HS0 HS1 HS2 Hg]
      · isplitl [HO HS0 HS1 HS2]
        · iapply (chain_close (F := F) c _)
          isplitl [HO]; · iexact HO
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After any point but the first the invariant gives the plain one back: the state's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨HC, Hg⟩
  ihave HC' := (chain_open (F := F) c _) $$ HC
  icases HC' with ⟨HO, HS0, HS1, HS2⟩
  isplitl [HO HS0 HS1 HS2]
  · iapply (chain_close (F := F) c _)
    isplitl [HO]; · iexact HO
    isplitl [HS0]; · iexists _; iexact HS0
    isplitl [HS1]; · iexists _; iexact HS1
    iexists _; iexact HS2
  iexact Hg

theorem hout1 (c : Dev nD) : (dat1 V c).Φ (Fin.last cfg1.N) ⊢ Pipeline.ΦA spec1 c :=
  Phi_out1 V c _ (by rw [Fin.val_last]; have : cfg1.N = 64 := N_1; omega)

end Region

end Cert.Kernel.Hand

end
-- ==== Proof.AssembleB.lean ====
import proofs.«133872_j34866544509086_2_alg».proof.Proof.ProjFrameB
import proofs.«133872_j34866544509086_2_alg».proof.Proof.AttnDatB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The whole program's run, at any float type: the program is two kernel regions and nothing else, the projections
  (pipeline 0) and the attention proper (pipeline 1). A core's buffers at launch are `W0`; after the projections its
  three output arrays hold what that pipeline's write-backs leave and every other buffer is untouched (`W2`); after
  the attention its output array holds what its write-backs leave, the rest again untouched (`W4`). Each region is
  entered from "every unscoped buffer at the boundary's contents, the generator register at some state, nothing
  owed" and left at the same at the next boundary; the run reads the final memory off `W4`.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the three boundaries -/

/-- Core `c`'s buffers at launch. -/
abbrev W0 : Dev nD → Valuation τ sig (Elt F) := fun c b => (s₀ m ρ).mem ((c : Dev nD), b)
/-- The same read at the TensorCore's references: what the projections are entered from. -/
abbrev V0 : (c : Dev nD) → (b : Ref sig .tc) → Buf (Elt F) ((c : Thread nD τ).loc b) := fun c b => m ((c : Thread nD τ).loc b)
/-- After the projections: that pipeline's arrays at what it leaves (an input as entered, an output its write-backs
    folded), every other buffer as at launch. -/
def W2 (c : Dev nD) : Valuation τ sig (Elt F) :=
  Pipeline.withArrays spec0 c (W0 m ρ c) fun w => (dat0 (V0 m) c).arrAt w cfg0.N
theorem W2_arr (c : Dev nD) (w : Fin cfg0.W) :
    W2 m ρ c (Proc.devRef .tc (Pipeline.arrRef spec0 w)) = (dat0 (V0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
/-- The same read at the TensorCore's references: what the attention is entered from. -/
abbrev V2 : (c : Dev nD) → (b : Ref sig .tc) → Buf (Elt F) ((c : Thread nD τ).loc b) := fun c b => W2 m ρ c b
theorem hF0 (c : Dev nD) (w : Fin cfg0.W) : (dat0 (V0 m) c).arrAt w cfg0.N = V2 m ρ c (Pipeline.arrRef spec0 w) :=
  (W2_arr m ρ c w).symm
theorem hrest0 (c : Dev nD) : ∀ b, b ∉ Finset.univ.image (Pipeline.arrRef spec0) → V2 m ρ c b = V0 m c b :=
  fun b hb => W2_of_ne m ρ c b fun w e => hb (Finset.mem_image.mpr ⟨w, Finset.mem_univ _, e⟩)

/-- After the attention: that pipeline's arrays at what it leaves, every other buffer as it was entered. -/
def W4 (c : Dev nD) : Valuation τ sig (Elt F) :=
  Pipeline.withArrays spec1 c (W2 m ρ c) fun w => (dat1 (V2 m ρ) c).arrAt w cfg1.N
theorem W4_arr (c : Dev nD) (w : Fin cfg1.W) :
    W4 m ρ c (Proc.devRef .tc (Pipeline.arrRef spec1 w)) = (dat1 (V2 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
/-- The same read at the TensorCore's references: what the program ends at. -/
abbrev V4 : (c : Dev nD) → (b : Ref sig .tc) → Buf (Elt F) ((c : Thread nD τ).loc b) := fun c b => W4 m ρ c b
theorem hF1 (c : Dev nD) (w : Fin cfg1.W) : (dat1 (V2 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

/-! ## The proof data family and the thread state -/

/-- No pipeline has a prefetched table. -/
abbrev adm : (p : Fin 2) → (pcfgs (F := F) p).Adm := fun p => (cfgs p).toPCfg_adm
/-- Every pipeline's proof data, each at the contents its region is entered from. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both regions: the generator register at some state, and the core owing nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projections over the thread state: entered from every unscoped buffer at `W0`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m c) fun _ => rfl
    rw [show unscopedBufs c (V0 m c) = StableHlo.held (c : Thread nD τ) (Pipeline.ucRefs τ sig) (W0 m ρ c)
      from Pipeline.unscopedBufs_held c (W0 m ρ c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention over the thread state: entered from every unscoped buffer at `W2`, left at `W4`. Its invariant
    is the class invariant only at the first point and after the last (the running state sits in three scratch
    buffers in between), so the generator register enters and leaves it through the two entailments of the proof data. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## What the boundaries' buffers hold -/

/-- After the projections each of that pipeline's arrays holds what the pipeline leaves in it. -/
theorem V2_out (c : Dev nD) (w : Fin cfg0.W) : V2 m ρ c (Pipeline.arrRef spec0 w) = (dat0 (V0 m) c).arrAt w cfg0.N :=
  W2_arr m ρ c w
/-- The three projection arrays after the projections. -/
theorem V2_main_v0_0 (c : Dev nD) : V2 m ρ c main_v0_0 = (dat0 (V0 m) c).arrAt 5 cfg0.N := W2_arr m ρ c 5
theorem V2_main_v0_1 (c : Dev nD) : V2 m ρ c main_v0_1 = (dat0 (V0 m) c).arrAt 6 cfg0.N := W2_arr m ρ c 6
theorem V2_main_v0_2 (c : Dev nD) : V2 m ρ c main_v0_2 = (dat0 (V0 m) c).arrAt 7 cfg0.N := W2_arr m ρ c 7
/-- The five arguments are inputs of the projections: they are read, never written, so they hold their launch contents. -/
theorem V2_main_arg0 (c : Dev nD) : V2 m ρ c main_arg0 = m ((c : Thread nD τ).loc main_arg0) :=
  (W2_arr m ρ c 0).trans (((dat0 (V0 m) c).arrAt_in 0 rfl _).trans (A_eq0 (V0 m) c 0))
theorem V2_main_arg1 (c : Dev nD) : V2 m ρ c main_arg1 = m ((c : Thread nD τ).loc main_arg1) :=
  (W2_arr m ρ c 1).trans (((dat0 (V0 m) c).arrAt_in 1 rfl _).trans (A_eq0 (V0 m) c 1))
theorem V2_main_arg2 (c : Dev nD) : V2 m ρ c main_arg2 = m ((c : Thread nD τ).loc main_arg2) :=
  (W2_arr m ρ c 2).trans (((dat0 (V0 m) c).arrAt_in 2 rfl _).trans (A_eq0 (V0 m) c 2))
theorem V2_main_arg3 (c : Dev nD) : V2 m ρ c main_arg3 = m ((c : Thread nD τ).loc main_arg3) :=
  (W2_arr m ρ c 3).trans (((dat0 (V0 m) c).arrAt_in 3 rfl _).trans (A_eq0 (V0 m) c 3))
theorem V2_main_arg4 (c : Dev nD) : V2 m ρ c main_arg4 = m ((c : Thread nD τ).loc main_arg4) :=
  (W2_arr m ρ c 4).trans (((dat0 (V0 m) c).arrAt_in 4 rfl _).trans (A_eq0 (V0 m) c 4))

/-- At the end the result array holds what the attention's write-backs leave in it, -/
theorem W4_main_v1 (c : Dev nD) : W4 m ρ c (Proc.devRef .tc main_v1) = (dat1 (V2 m ρ) c).arrAt 3 cfg1.N := W4_arr m ρ c 3
/-- and each argument, which the attention bypasses, its launch contents. -/
theorem W4_main_arg0 (c : Dev nD) : W4 m ρ c (Proc.devRef .tc main_arg0) = m ((c : Thread nD τ).loc main_arg0) :=
  (W4_of_ne m ρ c main_arg0 (by decide)).trans (V2_main_arg0 m ρ c)
theorem W4_main_arg1 (c : Dev nD) : W4 m ρ c (Proc.devRef .tc main_arg1) = m ((c : Thread nD τ).loc main_arg1) :=
  (W4_of_ne m ρ c main_arg1 (by decide)).trans (V2_main_arg1 m ρ c)
theorem W4_main_arg2 (c : Dev nD) : W4 m ρ c (Proc.devRef .tc main_arg2) = m ((c : Thread nD τ).loc main_arg2) :=
  (W4_of_ne m ρ c main_arg2 (by decide)).trans (V2_main_arg2 m ρ c)
theorem W4_main_arg3 (c : Dev nD) : W4 m ρ c (Proc.devRef .tc main_arg3) = m ((c : Thread nD τ).loc main_arg3) :=
  (W4_of_ne m ρ c main_arg3 (by decide)).trans (V2_main_arg3 m ρ c)
theorem W4_main_arg4 (c : Dev nD) : W4 m ρ c (Proc.devRef .tc main_arg4) = m ((c : Thread nD τ).loc main_arg4) :=
  (W4_of_ne m ρ c main_arg4 (by decide)).trans (V2_main_arg4 m ρ c)

/-! ## The program as segments, and the run -/

/-- The program's two segments in order. -/
abbrev segs : List (Pipeline.Seg (pcfgs (F := F)) adm (pdats m ρ) () defs₀ 𝒱₀ L lv) :=
  [ .region (reg0 m ρ), .region (reg1 m ρ) ]
/-- The program is the run of the two segments. -/
theorem main_run (c : Dev nD) : main (F := F) c = Pipeline.Seg.run (segs m ρ) :=
  main_segs adm (pdats m ρ) () 𝒱₀ L lv (reg0 m ρ) (reg1 m ρ) c

set_option backward.isDefEq.respectTransparency.types false in
/-- THE RUN: from any memory with zero counters every weakly fair execution of the program terminates, nothing
    faulting, and in every final state the result array holds what the attention pipeline's write-backs leave in it
    (at the contents the projections left) and the five argument arrays hold their launch contents. -/
theorem run_all : θ_run defs (onTc (τ := τ) (main (F := F))) ⟨m, fun _ => 0, ρ⟩ (fun r => ∀ c : Dev nD,
      r.2.mem ((c.tc : Thread nD τ).loc main_v1) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v1 (by decide))).trans (W4_main_v1 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.Kernel.Hand

end
-- ==== Proof.PayAt0.lean ====
import proofs.«133872_j34866544509086_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
  The projection kernel's stored values read at an index, at the extended reals: each of the three written
  blocks at `(0, r, h)` is the plain sum `∑ c, x (0, r, c) * W (c, h)` of the loaded input block against the
  loaded weight (the format changes are the identity on extended reals, the accumulator is zero).
-/

noncomputable section

namespace Cert.Attn.Pay

open scoped BigOperators
open Idealize.ShloMosaic Idealize.ShloMosaic.ValueIdx Cert.KernelIdeal Cert.KernelIdeal.Gen

/-! ## A `tpu.matmul` into a zero accumulator, read at an index -/

theorem mm_proj_lhs0 (i : S1024x64.Idx) (q : dot_S1024x1024_S1024x64_S1024x64_1_0_0_1_n_n.contr.Idx) : (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem mm_proj_rhs1 (i : S1024x64.Idx) (q : dot_S1024x1024_S1024x64_S1024x64_1_0_0_1_n_n.contr.Idx) : (dot_S1024x1024_S1024x64_S1024x64_1_0_0_1_n_n.rhsIdx i q 1).val = (i 1).val := by
  unfold DotDims.rhsIdx
  rw [dif_neg (show ¬(1 : Fin 2) ∈ dot_S1024x1024_S1024x64_S1024x64_1_0_0_1_n_n.rhsBatch by decide), dif_pos (show (1 : Fin 2) ∈ dot_S1024x1024_S1024x64_S1024x64_1_0_0_1_n_n.rhsNonContracting by decide)]
  rfl

/-- The product into a zero accumulator, read at `(r, c)`: the sum over the contracted coordinate. -/
theorem mm_proj (lhs : FVec Ideal S1024x1024 .bf16) (rhs : FVec Ideal S1024x64 .bf16) (r : Fin 1024) (c : Fin 64) :
    matmul dot_S1024x1024_S1024x64_S1024x64_1_0_0_1_n_n none lhs rhs (constant (F := Ideal) S1024x64 .f32 0x00000000#32) (ix2 r c)
      = ∑ k : Fin 1024, lhs (ix2 r k) * rhs (ix2 k c) := by
  simp only [matmul]
  rw [Ideal.matmul_constant_zero_apply, ← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 r c) ((contrEquiv1 dot_S1024x1024_S1024x64_S1024x64_1_0_0_1_n_n 1024 rfl rfl).symm k) = ix2 r k := funext fun a => Fin.ext (by
    match a with
    | ⟨0, _⟩ => exact mm_proj_lhs0 _ _
    | ⟨1, _⟩ => exact (dot_S1024x1024_S1024x64_S1024x64_1_0_0_1_n_n.lhsIdx_val_of_single rfl _ _).trans hk)
  have er : dot_S1024x1024_S1024x64_S1024x64_1_0_0_1_n_n.rhsIdx (ix2 r c) ((contrEquiv1 dot_S1024x1024_S1024x64_S1024x64_1_0_0_1_n_n 1024 rfl rfl).symm k) = ix2 k c := funext fun a => Fin.ext (by
    match a with
    | ⟨0, _⟩ => exact (dot_S1024x1024_S1024x64_S1024x64_1_0_0_1_n_n.rhsIdx_val_of_single rfl _ _).trans hk
    | ⟨1, _⟩ => exact mm_proj_rhs1 _ _)
  rw [el, er]

/-! ## The three projections -/

/-- The input block in the matrix unit's format, at `(r, c)`: the loaded block at `(0, r, c)`. -/
theorem pay1_at (v3 : Vec Ideal S1x1024x1024 .f32) (r c : Fin 1024) :
    k0_pay1 (F := Ideal) v3 (ix2 r c) = v3 (ix3 0 r c) := by
  unfold k0_pay1
  rw [truncf_apply, shapeCast_1ab_ab_apply]

theorem proj_at (v0 : Vec Ideal S1x1024x1024 .f32) (v6 : Vec Ideal S1024x64 .f32) (r : Fin 1024) (h : Fin 64) :
    k0_pay2 (F := Ideal) v0 v6 (ix3 0 r h) = ∑ c : Fin 1024, v0 (ix3 0 r c) * v6 (ix2 c h) := by
  unfold k0_pay2
  rw [shapeCast_ab_1ab_apply, truncf_apply, mm_proj]
  refine Finset.sum_congr rfl fun c _ => ?_
  rw [truncf_apply, truncf_apply, shapeCast_1ab_ab_apply]

theorem proj_at3 (v3 : Vec Ideal S1x1024x1024 .f32) (v8 : Vec Ideal S1024x64 .f32) (r : Fin 1024) (h : Fin 64) :
    k0_pay3 (F := Ideal) v3 v8 (ix3 0 r h) = ∑ c : Fin 1024, v3 (ix3 0 r c) * v8 (ix2 c h) := by
  unfold k0_pay3
  rw [shapeCast_ab_1ab_apply, truncf_apply, mm_proj]
  refine Finset.sum_congr rfl fun c _ => ?_
  rw [truncf_apply, pay1_at]

theorem proj_at4 (v3 : Vec Ideal S1x1024x1024 .f32) (v10 : Vec Ideal S1024x64 .f32) (r : Fin 1024) (h : Fin 64) :
    k0_pay4 (F := Ideal) v3 v10 (ix3 0 r h) = ∑ c : Fin 1024, v3 (ix3 0 r c) * v10 (ix2 c h) := by
  unfold k0_pay4
  rw [shapeCast_ab_1ab_apply, truncf_apply, mm_proj]
  refine Finset.sum_congr rfl fun c _ => ?_
  rw [truncf_apply, pay1_at]

end Cert.Attn.Pay

end
-- ==== Proof.ProjValue.lean ====
import proofs.«133872_j34866544509086_2_alg».proof.Proof.ProjFrameI
import proofs.«133872_j34866544509086_2_alg».proof.Proof.AttnArr
import proofs.«133872_j34866544509086_2_alg».proof.Proof.PayAt0
import Idealize.ShloMosaic.Lib.Pipeline.Value
import Idealize.ShloMosaic.Lib.ValueIdx

/-!
  The value of the projection region on the extended reals.

  Each output window of the projection kernel is written back at every one of the 8 x 2 grid points; the
  point `t` writes rows `(t % 2) * 1024 … (t % 2) * 1024 + 1023` of batch `t / 2`, and what it writes is the
  product of that block of rows of an activation with a whole weight matrix. These blocks tile the output
  array, so the array ends holding one function of the region-entry arrays: at index `(b, r, h)` the sum over
  the model dimension `k` of `x (b, r, k) * W (k, h)`.
-/

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal.Gen
open scoped BigOperators

variable (V : (c : Dev nD) → (b : Ref sig .tc) → Buf (Elt Ideal) ((c : Thread nD τ).loc b))

/-- A projection on arrays: contract the last axis of `x` with the first of `W`. -/
def projArr (x : S8x2048x1024.Idx → EReal) (W : S1024x64.Idx → EReal) : S8x2048x64.Idx → EReal :=
  fun i => ∑ k : Fin 1024, x (ix3 (i 0) (i 1) k) * W (ix2 k (i 2))

/-- A block payload that is, at every index `(0, r, h)` of the block, row `r` of the activation block against
    column `h` of the weight matrix. -/
def IsProj (pay : Vec Ideal S1x1024x1024 .f32 → Vec Ideal S1024x64 .f32 → FVec Ideal S1x1024x64 .bf16) : Prop :=
  ∀ (v0 : Vec Ideal S1x1024x1024 .f32) (v6 : Vec Ideal S1024x64 .f32) (r : Fin 1024) (h : Fin 64),
    pay v0 v6 (ix3 0 r h) = ∑ c : Fin 1024, v0 (ix3 0 r c) * v6 (ix2 c h)

/-- An index of an output block has first coordinate zero. -/
theorem blkIdx_eq (j : S1x1024x64.Idx) : j = ix3 (0 : Fin 1) (j 1) (j 2) := by
  have h0 : (j 0).val < 1 := (j 0).isLt
  funext a
  match a with
  | ⟨0, _⟩ => exact Fin.ext (by show (j 0).val = 0; omega)
  | ⟨1, _⟩ => rfl
  | ⟨2, _⟩ => rfl

/-- Such a payload at any index of the block. -/
theorem IsProj.at {pay : Vec Ideal S1x1024x1024 .f32 → Vec Ideal S1024x64 .f32 → FVec Ideal S1x1024x64 .bf16} (hp : IsProj pay)
    (x0 : Vec Ideal S1x1024x1024 .f32) (x2 : Vec Ideal S1024x64 .f32) (j : S1x1024x64.Idx) :
    pay x0 x2 j = ∑ k : Fin 1024, x0 (ix3 0 (j 1) k) * x2 (ix2 k (j 2)) :=
  (congrArg (pay x0 x2) (blkIdx_eq j)).trans (hp x0 x2 (j 1) (j 2))

/-! ## The grid's index maps -/

/-- The printed index maps, decided over the 16 grid points: the activations' blocks and the outputs' blocks
    are block `t % 2` of batch `t / 2`; the weights' block index is zero. -/
theorem idx_facts : ∀ t : Fin cfg0.N,
    (win0_0.index t (0 : Fin 3) = t.val / 2 ∧ win0_0.index t (1 : Fin 3) = t.val % 2 ∧ win0_0.index t (2 : Fin 3) = 0)
    ∧ (win0_1.index t (0 : Fin 3) = t.val / 2 ∧ win0_1.index t (1 : Fin 3) = t.val % 2 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t.val / 2 ∧ win0_5.index t (1 : Fin 3) = t.val % 2 ∧ win0_5.index t (2 : Fin 3) = 0)
    ∧ (win0_6.index t (0 : Fin 3) = t.val / 2 ∧ win0_6.index t (1 : Fin 3) = t.val % 2 ∧ win0_6.index t (2 : Fin 3) = 0)
    ∧ (win0_7.index t (0 : Fin 3) = t.val / 2 ∧ win0_7.index t (1 : Fin 3) = t.val % 2 ∧ win0_7.index t (2 : Fin 3) = 0) :=
  (by decide +kernel : ∀ t : Fin grid0.N, _)

/-! ## The input blocks as parts of their arrays -/

/-- The first activation's block at point `t`, at an index `y` of the block, is the array at batch `t / 2`, row
    `(t % 2) * 1024 + y 1`, column `y 2`. -/
theorem iblkX0_apply (c : Dev nD) (t : Fin cfg0.N) (y : S1x1024x1024.Idx) (i : S8x2048x1024.Idx)
    (h0 : (i 0).val = t.val / 2) (h1 : (i 1).val = t.val % 2 * 1024 + (y 1).val) (h2 : (i 2).val = (y 2).val) :
    iblk0 V c 0 t y = (V c main_arg0 : S8x2048x1024.Idx → EReal) i := by
  obtain ⟨⟨a0, a1, a2⟩, -⟩ := idx_facts t
  have hy0 : (y 0).val < 1 := (y 0).isLt
  unfold iblk0
  rw [View.read_apply]
  show V c main_arg0 (((cfg0.win 0).blk t).view.emb y) = V c main_arg0 i
  congr 1
  funext a
  apply Fin.ext
  match a with
  | ⟨0, _⟩ => show win0_0.index t (0 : Fin 3) * 1 + 1 * (y 0).val = (i 0).val; omega
  | ⟨1, _⟩ => show win0_0.index t (1 : Fin 3) * 1024 + 1 * (y 1).val = (i 1).val; omega
  | ⟨2, _⟩ => show win0_0.index t (2 : Fin 3) * 1024 + 1 * (y 2).val = (i 2).val; omega

/-- The second activation's block, likewise. -/
theorem iblkX1_apply (c : Dev nD) (t : Fin cfg0.N) (y : S1x1024x1024.Idx) (i : S8x2048x1024.Idx)
    (h0 : (i 0).val = t.val / 2) (h1 : (i 1).val = t.val % 2 * 1024 + (y 1).val) (h2 : (i 2).val = (y 2).val) :
    iblk0 V c 1 t y = (V c main_arg1 : S8x2048x1024.Idx → EReal) i := by
  obtain ⟨-, ⟨a0, a1, a2⟩, -⟩ := idx_facts t
  have hy0 : (y 0).val < 1 := (y 0).isLt
  unfold iblk0
  rw [View.read_apply]
  show V c main_arg1 (((cfg0.win 1).blk t).view.emb y) = V c main_arg1 i
  congr 1
  funext a
  apply Fin.ext
  match a with
  | ⟨0, _⟩ => show win0_1.index t (0 : Fin 3) * 1 + 1 * (y 0).val = (i 0).val; omega
  | ⟨1, _⟩ => show win0_1.index t (1 : Fin 3) * 1024 + 1 * (y 1).val = (i 1).val; omega
  | ⟨2, _⟩ => show win0_1.index t (2 : Fin 3) * 1024 + 1 * (y 2).val = (i 2).val; omega

/-- A weight matrix's block at any point is the whole matrix. -/
theorem iblkW2_apply (c : Dev nD) (t : Fin cfg0.N) (y : S1024x64.Idx) :
    iblk0 V c 2 t y = (V c main_arg2 : S1024x64.Idx → EReal) y := by
  obtain ⟨-, -, ⟨a0, a1⟩, -⟩ := idx_facts t
  unfold iblk0
  rw [View.read_apply]
  show V c main_arg2 (((cfg0.win 2).blk t).view.emb y) = V c main_arg2 y
  congr 1
  funext a
  apply Fin.ext
  match a with
  | ⟨0, _⟩ => show win0_2.index t (0 : Fin 2) * 1024 + 1 * (y 0).val = (y 0).val; omega
  | ⟨1, _⟩ => show win0_2.index t (1 : Fin 2) * 64 + 1 * (y 1).val = (y 1).val; omega
theorem iblkW3_apply (c : Dev nD) (t : Fin cfg0.N) (y : S1024x64.Idx) :
    iblk0 V c 3 t y = (V c main_arg3 : S1024x64.Idx → EReal) y := by
  obtain ⟨-, -, -, ⟨a0, a1⟩, -⟩ := idx_facts t
  unfold iblk0
  rw [View.read_apply]
  show V c main_arg3 (((cfg0.win 3).blk t).view.emb y) = V c main_arg3 y
  congr 1
  funext a
  apply Fin.ext
  match a with
  | ⟨0, _⟩ => show win0_3.index t (0 : Fin 2) * 1024 + 1 * (y 0).val = (y 0).val; omega
  | ⟨1, _⟩ => show win0_3.index t (1 : Fin 2) * 64 + 1 * (y 1).val = (y 1).val; omega
theorem iblkW4_apply (c : Dev nD) (t : Fin cfg0.N) (y : S1024x64.Idx) :
    iblk0 V c 4 t y = (V c main_arg4 : S1024x64.Idx → EReal) y := by
  obtain ⟨-, -, -, -, ⟨a0, a1⟩, -⟩ := idx_facts t
  unfold iblk0
  rw [View.read_apply]
  show V c main_arg4 (((cfg0.win 4).blk t).view.emb y) = V c main_arg4 y
  congr 1
  funext a
  apply Fin.ext
  match a with
  | ⟨0, _⟩ => show win0_4.index t (0 : Fin 2) * 1024 + 1 * (y 0).val = (y 0).val; omega
  | ⟨1, _⟩ => show win0_4.index t (1 : Fin 2) * 64 + 1 * (y 1).val = (y 1).val; omega

/-! ## What each point writes back -/

/-- Point `t` writes back to the first output block `t` of the projection of the first activation by the first
    weight matrix. -/
theorem flushedQ_eq (hp : IsProj k0_pay2) (c : Dev nD) (t : Fin cfg0.N) :
    (dat0 V c).flushed 5 t = ((cfg0.win 5).blk t).view.read (Elt Ideal) (projArr (V c main_arg0) (V c main_arg2)) := by
  show (cfg0.win 5).cut (grid0.coords t) ((dat0 V c).after 5 t) = _
  rw [after0_5, out0_5_eq]
  obtain ⟨-, -, -, -, -, ⟨q0, q1, q2⟩, -, -⟩ := idx_facts t
  funext j
  have hj0 : (j 0).val < 1 := (j 0).isLt
  show k0_pay2 (iblk0 V c 0 t) (iblk0 V c 2 t) j = projArr (V c main_arg0) (V c main_arg2) (((cfg0.win 5).blk t).view.emb j)
  refine (hp.at _ _ j).trans ?_
  refine Finset.sum_congr rfl fun k _ => ?_
  refine congrArg₂ (· * ·) ?_ ?_
  · refine iblkX0_apply V c t _ _ ?_ ?_ rfl
    · show win0_5.index t (0 : Fin 3) * 1 + 1 * (j 0).val = t.val / 2; omega
    · show win0_5.index t (1 : Fin 3) * 1024 + 1 * (j 1).val = t.val % 2 * 1024 + (j 1).val; omega
  · refine (iblkW2_apply V c t _).trans ?_
    congr 1
    funext a
    apply Fin.ext
    match a with
    | ⟨0, _⟩ => rfl
    | ⟨1, _⟩ => show (j 2).val = win0_5.index t (2 : Fin 3) * 64 + 1 * (j 2).val; omega

/-- Point `t` writes back to the second output block `t` of the projection of the second activation by the second
    weight matrix, -/
theorem flushedK_eq (hp : IsProj k0_pay3) (c : Dev nD) (t : Fin cfg0.N) :
    (dat0 V c).flushed 6 t = ((cfg0.win 6).blk t).view.read (Elt Ideal) (projArr (V c main_arg1) (V c main_arg3)) := by
  show (cfg0.win 6).cut (grid0.coords t) ((dat0 V c).after 6 t) = _
  rw [after0_6, out0_6_eq]
  obtain ⟨-, -, -, -, -, -, ⟨q0, q1, q2⟩, -⟩ := idx_facts t
  funext j
  have hj0 : (j 0).val < 1 := (j 0).isLt
  show k0_pay3 (iblk0 V c 1 t) (iblk0 V c 3 t) j = projArr (V c main_arg1) (V c main_arg3) (((cfg0.win 6).blk t).view.emb j)
  refine (hp.at _ _ j).trans ?_
  refine Finset.sum_congr rfl fun k _ => ?_
  refine congrArg₂ (· * ·) ?_ ?_
  · refine iblkX1_apply V c t _ _ ?_ ?_ rfl
    · show win0_6.index t (0 : Fin 3) * 1 + 1 * (j 0).val = t.val / 2; omega
    · show win0_6.index t (1 : Fin 3) * 1024 + 1 * (j 1).val = t.val % 2 * 1024 + (j 1).val; omega
  · refine (iblkW3_apply V c t _).trans ?_
    congr 1
    funext a
    apply Fin.ext
    match a with
    | ⟨0, _⟩ => rfl
    | ⟨1, _⟩ => show (j 2).val = win0_6.index t (2 : Fin 3) * 64 + 1 * (j 2).val; omega

/-- and to the third output block `t` of the projection of the second activation by the third weight matrix. -/
theorem flushedV_eq (hp : IsProj k0_pay4) (c : Dev nD) (t : Fin cfg0.N) :
    (dat0 V c).flushed 7 t = ((cfg0.win 7).blk t).view.read (Elt Ideal) (projArr (V c main_arg1) (V c main_arg4)) := by
  show (cfg0.win 7).cut (grid0.coords t) ((dat0 V c).after 7 t) = _
  rw [after0_7, out0_7_eq]
  obtain ⟨-, -, -, -, -, -, -, ⟨q0, q1, q2⟩⟩ := idx_facts t
  funext j
  have hj0 : (j 0).val < 1 := (j 0).isLt
  show k0_pay4 (iblk0 V c 1 t) (iblk0 V c 4 t) j = projArr (V c main_arg1) (V c main_arg4) (((cfg0.win 7).blk t).view.emb j)
  refine (hp.at _ _ j).trans ?_
  refine Finset.sum_congr rfl fun k _ => ?_
  refine congrArg₂ (· * ·) ?_ ?_
  · refine iblkX1_apply V c t _ _ ?_ ?_ rfl
    · show win0_7.index t (0 : Fin 3) * 1 + 1 * (j 0).val = t.val / 2; omega
    · show win0_7.index t (1 : Fin 3) * 1024 + 1 * (j 1).val = t.val % 2 * 1024 + (j 1).val; omega
  · refine (iblkW4_apply V c t _).trans ?_
    congr 1
    funext a
    apply Fin.ext
    match a with
    | ⟨0, _⟩ => rfl
    | ⟨1, _⟩ => show (j 2).val = win0_7.index t (2 : Fin 3) * 64 + 1 * (j 2).val; omega

/-! ## The blocks tile each output array -/

/-- An index of the first output array is in point `t`'s block iff each coordinate is in the block's range. -/
theorem mem_blkQ (t : Fin cfg0.N) (i : S8x2048x64.Idx) :
    i ∈ ((cfg0.win 5).blk t).view.set ↔ ∀ a : Fin 3, win0_5.index t a * S1x1024x64.size a ≤ (i a).val ∧ (i a).val < win0_5.index t a * S1x1024x64.size a + S1x1024x64.size a := by
  show i ∈ ((View.whole main_v0_0).slice (win0_5.rect t)).set ↔ _
  rw [View.set_slice_whole, Rect.mem_set_unit]
  exact Iff.rfl
theorem mem_blkK (t : Fin cfg0.N) (i : S8x2048x64.Idx) :
    i ∈ ((cfg0.win 6).blk t).view.set ↔ ∀ a : Fin 3, win0_6.index t a * S1x1024x64.size a ≤ (i a).val ∧ (i a).val < win0_6.index t a * S1x1024x64.size a + S1x1024x64.size a := by
  show i ∈ ((View.whole main_v0_1).slice (win0_6.rect t)).set ↔ _
  rw [View.set_slice_whole, Rect.mem_set_unit]
  exact Iff.rfl
theorem mem_blkV (t : Fin cfg0.N) (i : S8x2048x64.Idx) :
    i ∈ ((cfg0.win 7).blk t).view.set ↔ ∀ a : Fin 3, win0_7.index t a * S1x1024x64.size a ≤ (i a).val ∧ (i a).val < win0_7.index t a * S1x1024x64.size a + S1x1024x64.size a := by
  show i ∈ ((View.whole main_v0_2).slice (win0_7.rect t)).set ↔ _
  rw [View.set_slice_whole, Rect.mem_set_unit]
  exact Iff.rfl

/-- The point whose blocks hold row `(b, r)`: `b * 2 + r / 1024`. -/
def pointOf (i : S8x2048x64.Idx) : Fin cfg0.N :=
  ⟨(i 0).val * 2 + (i 1).val / 1024, by
    have h0 : (i 0).val < 8 := (i 0).isLt
    have h1 : (i 1).val < 2048 := (i 1).isLt
    rw [show cfg0.N = 16 from N_0]; omega⟩

theorem pointOf_val (i : S8x2048x64.Idx) : (pointOf i).val = (i 0).val * 2 + (i 1).val / 1024 := rfl

/-- Every index of the first output array is in the block of a point that writes back; -/
theorem coverQ (i : S8x2048x64.Idx) : ∃ t : Fin cfg0.N, (cfg0.win 5).flush t = true ∧ i ∈ ((cfg0.win 5).blk t).view.set := by
  have h0 : (i 0).val < 8 := (i 0).isLt
  have h1 : (i 1).val < 2048 := (i 1).isLt
  have h2 : (i 2).val < 64 := (i 2).isLt
  have ht := pointOf_val i
  refine ⟨pointOf i, flush0_5 _, ?_⟩
  rw [mem_blkQ]
  obtain ⟨-, -, -, -, -, ⟨q0, q1, q2⟩, -, -⟩ := idx_facts (pointOf i)
  intro a
  match a with
  | ⟨0, _⟩ => show win0_5.index (pointOf i) (0 : Fin 3) * 1 ≤ (i 0).val ∧ (i 0).val < win0_5.index (pointOf i) (0 : Fin 3) * 1 + 1; omega
  | ⟨1, _⟩ => show win0_5.index (pointOf i) (1 : Fin 3) * 1024 ≤ (i 1).val ∧ (i 1).val < win0_5.index (pointOf i) (1 : Fin 3) * 1024 + 1024; omega
  | ⟨2, _⟩ => show win0_5.index (pointOf i) (2 : Fin 3) * 64 ≤ (i 2).val ∧ (i 2).val < win0_5.index (pointOf i) (2 : Fin 3) * 64 + 64; omega
/-- of the second; -/
theorem coverK (i : S8x2048x64.Idx) : ∃ t : Fin cfg0.N, (cfg0.win 6).flush t = true ∧ i ∈ ((cfg0.win 6).blk t).view.set := by
  have h0 : (i 0).val < 8 := (i 0).isLt
  have h1 : (i 1).val < 2048 := (i 1).isLt
  have h2 : (i 2).val < 64 := (i 2).isLt
  have ht := pointOf_val i
  refine ⟨pointOf i, flush0_6 _, ?_⟩
  rw [mem_blkK]
  obtain ⟨-, -, -, -, -, -, ⟨q0, q1, q2⟩, -⟩ := idx_facts (pointOf i)
  intro a
  match a with
  | ⟨0, _⟩ => show win0_6.index (pointOf i) (0 : Fin 3) * 1 ≤ (i 0).val ∧ (i 0).val < win0_6.index (pointOf i) (0 : Fin 3) * 1 + 1; omega
  | ⟨1, _⟩ => show win0_6.index (pointOf i) (1 : Fin 3) * 1024 ≤ (i 1).val ∧ (i 1).val < win0_6.index (pointOf i) (1 : Fin 3) * 1024 + 1024; omega
  | ⟨2, _⟩ => show win0_6.index (pointOf i) (2 : Fin 3) * 64 ≤ (i 2).val ∧ (i 2).val < win0_6.index (pointOf i) (2 : Fin 3) * 64 + 64; omega
/-- of the third. -/
theorem coverV (i : S8x2048x64.Idx) : ∃ t : Fin cfg0.N, (cfg0.win 7).flush t = true ∧ i ∈ ((cfg0.win 7).blk t).view.set := by
  have h0 : (i 0).val < 8 := (i 0).isLt
  have h1 : (i 1).val < 2048 := (i 1).isLt
  have h2 : (i 2).val < 64 := (i 2).isLt
  have ht := pointOf_val i
  refine ⟨pointOf i, flush0_7 _, ?_⟩
  rw [mem_blkV]
  obtain ⟨-, -, -, -, -, -, -, ⟨q0, q1, q2⟩⟩ := idx_facts (pointOf i)
  intro a
  match a with
  | ⟨0, _⟩ => show win0_7.index (pointOf i) (0 : Fin 3) * 1 ≤ (i 0).val ∧ (i 0).val < win0_7.index (pointOf i) (0 : Fin 3) * 1 + 1; omega
  | ⟨1, _⟩ => show win0_7.index (pointOf i) (1 : Fin 3) * 1024 ≤ (i 1).val ∧ (i 1).val < win0_7.index (pointOf i) (1 : Fin 3) * 1024 + 1024; omega
  | ⟨2, _⟩ => show win0_7.index (pointOf i) (2 : Fin 3) * 64 ≤ (i 2).val ∧ (i 2).val < win0_7.index (pointOf i) (2 : Fin 3) * 64 + 64; omega

/-! ## The output arrays when the region ends -/

/-- The first output array ends holding the projection of the first activation by the first weight matrix, -/
theorem Q_final_of (hp : IsProj k0_pay2) (c : Dev nD) :
    (dat0 V c).arrAt 5 cfg0.N = projArr (V c main_arg0) (V c main_arg2) :=
  (dat0 V c).arrAt_eq_of_cover 5 (projArr (V c main_arg0) (V c main_arg2)) (fun t _ => flushedQ_eq V hp c t) coverQ
/-- the second the projection of the second activation by the second weight matrix, -/
theorem K_final_of (hp : IsProj k0_pay3) (c : Dev nD) :
    (dat0 V c).arrAt 6 cfg0.N = projArr (V c main_arg1) (V c main_arg3) :=
  (dat0 V c).arrAt_eq_of_cover 6 (projArr (V c main_arg1) (V c main_arg3)) (fun t _ => flushedK_eq V hp c t) coverK
/-- the third the projection of the second activation by the third weight matrix. -/
theorem V_final_of (hp : IsProj k0_pay4) (c : Dev nD) :
    (dat0 V c).arrAt 7 cfg0.N = projArr (V c main_arg1) (V c main_arg4) :=
  (dat0 V c).arrAt_eq_of_cover 7 (projArr (V c main_arg1) (V c main_arg4)) (fun t _ => flushedV_eq V hp c t) coverV

/-- The projection on arrays at an index, as the sum it is. -/
theorem projArr_apply (x : S8x2048x1024.Idx → EReal) (W : S1024x64.Idx → EReal) (b : Fin 8) (r : Fin 2048) (h : Fin 64) :
    projArr x W (ix3 b r h) = ∑ k : Fin 1024, x (ix3 b r k) * W (ix2 k h) := rfl

/-- The same as the specification's projection of the arrays read as functions of their coordinates. -/
theorem projArr_eq_proj (x : FVec Ideal S8x2048x1024 .f32) (W : FVec Ideal S1024x64 .f32) (b : Fin 8) (r : Fin 2048) (h : Fin 64) :
    projArr x W (ix3 b r h) = Cert.Attn.proj (Cert.Attn.cur3 x) (Cert.Attn.cur2 W) b r h := rfl

/-! ## With the payloads' sums -/

/-- The three printed payloads are such row-by-column sums. -/
theorem isProj_pay2 : IsProj k0_pay2 := Cert.Attn.Pay.proj_at
theorem isProj_pay3 : IsProj k0_pay3 := Cert.Attn.Pay.proj_at3
theorem isProj_pay4 : IsProj k0_pay4 := Cert.Attn.Pay.proj_at4

/-- So the region leaves `q · Wq` in its first output array, -/
theorem Q_final (c : Dev nD) : (dat0 V c).arrAt 5 cfg0.N = projArr (V c main_arg0) (V c main_arg2) :=
  Q_final_of V isProj_pay2 c
/-- `k · Wk` in its second, -/
theorem K_final (c : Dev nD) : (dat0 V c).arrAt 6 cfg0.N = projArr (V c main_arg1) (V c main_arg3) :=
  K_final_of V isProj_pay3 c
/-- and `k · Wv` in its third. -/
theorem V_final (c : Dev nD) : (dat0 V c).arrAt 7 cfg0.N = projArr (V c main_arg1) (V c main_arg4) :=
  V_final_of V isProj_pay4 c

end Cert.KernelIdeal.Hand

end
-- ==== Proof.LibSoftmaxTiles.lean ====
/-
  Tiled ("online") softmax-weighted sums on the extended reals.

  A row's energies arrive in tiles of `R` columns. A running state `(m, l, acc)` starts at
  `(-∞, 0, 0)`; a tile with energies `s j` and values `v j` (real numbers) replaces it by

      m'   = max m (max over the tile of s, folded from -∞)
      α    = exp (m - m')
      l'   = α * l + (0 + ∑ j, exp (s j - m'))
      acc' = α * acc + ∑ j, exp (s j - m') * v j

  (`step`), every operation the extended reals' own (`Ideal.exp`, with `exp (-∞) = 0`; at the first
  tile `-∞ - m' = -∞`, so `α = 0`). After `k + 1` tiles the state is FINITE and is the classical
  triple: the maximum `M` of every energy seen, `∑ exp (s - M)` and `∑ exp (s - M) * v` over every
  column seen (`state_succ`). The step from one maximum to a larger one is the rescaling identity
  `exp (M - M') * exp (s - M) = exp (s - M')`, proved over the reals (`stateR_eq`); the extended
  reals only carry the coercions (`step_bot`, `step_coe`). So the quotient `acc / l` after the last
  tile is the one-pass softmax-weighted sum `∑ (exp (s - M) / L) * v` (`div_state_eq`, and
  `div_state_eq_fintype` with the maximum and the normaliser spelled as a one-pass program computes
  them: a fold of `max` from `-∞` and `0 + ∑`, over any finite index type in bijection with
  tiles × columns).

  General facts proved on the way: a finite sum of coerced reals is the coerced sum (`coe_sum`); a
  fold of `max` from `-∞` over coerced reals is the coerced maximum (`fold_max_bot_coe`,
  `fold_max_bot_coe_of_isGreatest`).
-/
import Idealize.ShloMosaic.PureOps.Ideal

namespace Idealize.ShloMosaic.SoftmaxTiles

open scoped BigOperators

/-! ## Coerced reals inside the extended reals -/

/-- A finite sum of coerced reals is the coercion of the real sum. -/
theorem coe_sum {ι : Type*} (t : Finset ι) (g : ι → ℝ) :
    ((∑ i ∈ t, g i : ℝ) : EReal) = ∑ i ∈ t, (g i : EReal) := by
  classical
  induction t using Finset.induction_on with
  | empty => simp
  | insert a t ha ih => rw [Finset.sum_insert ha, Finset.sum_insert ha, EReal.coe_add, ih]

/-- The coercion commutes with `max`. -/
theorem coe_max (a b : ℝ) : ((max a b : ℝ) : EReal) = max (a : EReal) (b : EReal) :=
  EReal.coe_strictMono.monotone.map_max

/-- `exp` of a difference of coerced reals. -/
theorem exp_coe_sub (a b : ℝ) : Ideal.exp ((a : EReal) - (b : EReal)) = ((Real.exp (a - b) : ℝ) : EReal) := by
  rw [← EReal.coe_sub, Ideal.exp_coe]

/-- A fold of `max` from `-∞` over coerced reals, on a nonempty finite set, is the coerced maximum. -/
theorem fold_max_bot_coe_finset {ι : Type*} (t : Finset ι) (H : t.Nonempty) (f : ι → ℝ) :
    t.fold max (⊥ : EReal) (fun i => (f i : EReal)) = ((t.sup' H f : ℝ) : EReal) := by
  apply le_antisymm
  · rw [Finset.fold_max_le]
    exact ⟨bot_le, fun i hi => EReal.coe_le_coe_iff.2 (Finset.le_sup' f hi)⟩
  · obtain ⟨i, hi, h⟩ := Finset.exists_mem_eq_sup' H f
    rw [Finset.le_fold_max]
    exact Or.inr ⟨i, hi, by rw [h]⟩

/-- The same over a whole nonempty finite type. -/
theorem fold_max_bot_coe {ι : Type*} [Fintype ι] [Nonempty ι] (f : ι → ℝ) :
    (Finset.univ : Finset ι).fold max (⊥ : EReal) (fun i => (f i : EReal))
      = ((Finset.univ.sup' Finset.univ_nonempty f : ℝ) : EReal) :=
  fold_max_bot_coe_finset _ _ f

/-- … and against any real number known to be the greatest value. -/
theorem fold_max_bot_coe_of_isGreatest {ι : Type*} [Fintype ι] (f : ι → ℝ) (M : ℝ)
    (hle : ∀ i, f i ≤ M) (hex : ∃ i, f i = M) :
    (Finset.univ : Finset ι).fold max (⊥ : EReal) (fun i => (f i : EReal)) = (M : EReal) := by
  apply le_antisymm
  · rw [Finset.fold_max_le]
    exact ⟨bot_le, fun i _ => EReal.coe_le_coe_iff.2 (hle i)⟩
  · obtain ⟨i, h⟩ := hex
    rw [Finset.le_fold_max]
    exact Or.inr ⟨i, Finset.mem_univ _, by rw [h]⟩

/-- The supremum spelling of the same maximum. -/
theorem sup_coe {ι : Type*} [Fintype ι] [Nonempty ι] (f : ι → ℝ) :
    (Finset.univ : Finset ι).sup (fun i => (f i : EReal))
      = ((Finset.univ.sup' Finset.univ_nonempty f : ℝ) : EReal) :=
  fold_max_bot_coe f

/-- `0 + ∑ exp (s - M)` of coerced reals is the coerced real sum. -/
theorem zero_add_sum_exp_coe {ι : Type*} [Fintype ι] (f : ι → ℝ) (M : ℝ) :
    (0 : EReal) + ∑ i, Ideal.exp ((f i : EReal) - (M : EReal)) = ((∑ i, Real.exp (f i - M) : ℝ) : EReal) := by
  rw [zero_add, coe_sum]
  exact Finset.sum_congr rfl fun i _ => exp_coe_sub _ _

variable {R : ℕ}

/-! ## The update, on the extended reals -/

/-- A tile's maximum as the fold of `max` from `-∞`. -/
noncomputable def rowMax (s : Fin R → ℝ) : EReal :=
  (Finset.univ : Finset (Fin R)).fold max (⊥ : EReal) (fun j => (s j : EReal))

/-- One tile's update of the running state `(m, l, acc)`. -/
noncomputable def step (s v : Fin R → ℝ) (st : EReal × EReal × EReal) : EReal × EReal × EReal :=
  (max st.1 (rowMax s),
   Ideal.exp (st.1 - max st.1 (rowMax s)) * st.2.1
     + (0 + ∑ j, Ideal.exp ((s j : EReal) - max st.1 (rowMax s))),
   Ideal.exp (st.1 - max st.1 (rowMax s)) * st.2.2
     + ∑ j, Ideal.exp ((s j : EReal) - max st.1 (rowMax s)) * (v j : EReal))

/-- The state after `k` tiles, from `(-∞, 0, 0)`. -/
noncomputable def state (s v : ℕ → Fin R → ℝ) : ℕ → EReal × EReal × EReal
  | 0 => (⊥, 0, 0)
  | k + 1 => step (s k) (v k) (state s v k)

@[simp] theorem state_zero (s v : ℕ → Fin R → ℝ) : state s v 0 = (⊥, 0, 0) := rfl
theorem state_succ' (s v : ℕ → Fin R → ℝ) (k : ℕ) : state s v (k + 1) = step (s k) (v k) (state s v k) := rfl

/-! ## The same update on finite states, over the reals -/

section Real
variable [NeZero R]

/-- A tile's maximum as a real number. -/
noncomputable def tileMax (f : Fin R → ℝ) : ℝ := Finset.univ.sup' Finset.univ_nonempty f

theorem rowMax_eq (s : Fin R → ℝ) : rowMax s = (tileMax s : EReal) := fold_max_bot_coe s

/-- The state after the first tile. -/
noncomputable def initR (s v : Fin R → ℝ) : ℝ × ℝ × ℝ :=
  (tileMax s, ∑ j, Real.exp (s j - tileMax s), ∑ j, Real.exp (s j - tileMax s) * v j)

/-- The update of a finite state. -/
noncomputable def stepR (s v : Fin R → ℝ) (x : ℝ × ℝ × ℝ) : ℝ × ℝ × ℝ :=
  (max x.1 (tileMax s),
   Real.exp (x.1 - max x.1 (tileMax s)) * x.2.1 + ∑ j, Real.exp (s j - max x.1 (tileMax s)),
   Real.exp (x.1 - max x.1 (tileMax s)) * x.2.2 + ∑ j, Real.exp (s j - max x.1 (tileMax s)) * v j)

/-- A real triple as an extended-real one. -/
def coe3 (x : ℝ × ℝ × ℝ) : EReal × EReal × EReal := ((x.1 : EReal), (x.2.1 : EReal), (x.2.2 : EReal))

theorem sum_exp_mul_coe (s v : Fin R → ℝ) (M : ℝ) :
    ∑ j, Ideal.exp ((s j : EReal) - (M : EReal)) * (v j : EReal)
      = ((∑ j, Real.exp (s j - M) * v j : ℝ) : EReal) := by
  rw [coe_sum]
  exact Finset.sum_congr rfl fun j _ => by rw [exp_coe_sub, EReal.coe_mul]

/-- The first tile: from `(-∞, 0, 0)` the factor `α` is `exp (-∞) = 0`. -/
theorem step_bot (s v : Fin R → ℝ) : step s v (⊥, 0, 0) = coe3 (initR s v) := by
  unfold step coe3 initR
  simp only [rowMax_eq, bot_sup_eq, max_bot_left, EReal.bot_sub, Ideal.exp_bot, mul_zero, zero_add,
    sum_exp_mul_coe]
  rw [← zero_add (∑ j, Ideal.exp ((s j : EReal) - (tileMax s : EReal))), zero_add_sum_exp_coe]

/-- A later tile: a finite state stays finite, and the update is the real one. -/
theorem step_coe (s v : Fin R → ℝ) (x : ℝ × ℝ × ℝ) : step s v (coe3 x) = coe3 (stepR s v x) := by
  unfold step coe3 stepR
  simp only [rowMax_eq, ← coe_max, exp_coe_sub, zero_add, ← EReal.coe_mul, ← coe_sum, ← EReal.coe_add]

end Real

/-! ## The invariant, over the reals -/

section Invariant
variable [NeZero R]

/-- The finite states: after tile `0`, then one update per tile. -/
noncomputable def stateR (s v : ℕ → Fin R → ℝ) : ℕ → ℝ × ℝ × ℝ
  | 0 => initR (s 0) (v 0)
  | k + 1 => stepR (s (k + 1)) (v (k + 1)) (stateR s v k)

/-- After `k + 1` tiles the extended-real state is the finite one. -/
theorem state_succ_eq_coe3 (s v : ℕ → Fin R → ℝ) (k : ℕ) : state s v (k + 1) = coe3 (stateR s v k) := by
  induction k with
  | zero => exact step_bot _ _
  | succ k ih => rw [state_succ', ih, step_coe]; rfl

/-- The maximum of every energy of tiles `0 … k`. -/
noncomputable def runMax (s : ℕ → Fin R → ℝ) : ℕ → ℝ
  | 0 => tileMax (s 0)
  | k + 1 => max (runMax s k) (tileMax (s (k + 1)))

/-- The normaliser over tiles `0 … k`: `∑ exp (s - M)`. -/
noncomputable def runSum (s : ℕ → Fin R → ℝ) (k : ℕ) : ℝ :=
  ∑ i ∈ Finset.range (k + 1), ∑ j, Real.exp (s i j - runMax s k)

/-- The weighted sum over tiles `0 … k`: `∑ exp (s - M) * v`. -/
noncomputable def runAcc (s v : ℕ → Fin R → ℝ) (k : ℕ) : ℝ :=
  ∑ i ∈ Finset.range (k + 1), ∑ j, Real.exp (s i j - runMax s k) * v i j

/-- Rescaling from the maximum `M` to `M'`: `exp (M - M') * ∑ exp (s - M) * w = ∑ exp (s - M') * w`. -/
theorem rescale {ι : Type*} (t : Finset ι) (f w : ι → ℝ) (M M' : ℝ) :
    Real.exp (M - M') * ∑ i ∈ t, Real.exp (f i - M) * w i = ∑ i ∈ t, Real.exp (f i - M') * w i := by
  rw [Finset.mul_sum]
  refine Finset.sum_congr rfl fun i _ => ?_
  rw [← mul_assoc, ← Real.exp_add]
  congr 2; ring

theorem rescale₂ (k : ℕ) (s w : ℕ → Fin R → ℝ) (M M' : ℝ) :
    Real.exp (M - M') * ∑ i ∈ Finset.range k, ∑ j, Real.exp (s i j - M) * w i j
      = ∑ i ∈ Finset.range k, ∑ j, Real.exp (s i j - M') * w i j := by
  rw [Finset.mul_sum]
  exact Finset.sum_congr rfl fun i _ => rescale _ _ _ _ _

/-- THE INVARIANT over the reals: the finite state is (maximum, normaliser, weighted sum). -/
theorem stateR_eq (s v : ℕ → Fin R → ℝ) (k : ℕ) :
    stateR s v k = (runMax s k, runSum s k, runAcc s v k) := by
  induction k with
  | zero => simp [stateR, initR, runMax, runSum, runAcc]
  | succ k ih =>
    have h1 := rescale₂ (k + 1) s (fun _ _ => 1) (runMax s k) (runMax s (k + 1))
    have h2 := rescale₂ (k + 1) s v (runMax s k) (runMax s (k + 1))
    simp only [mul_one] at h1
    rw [stateR, ih]
    unfold stepR
    simp only [runSum, runAcc]
    rw [Finset.sum_range_succ _ (k + 1), Finset.sum_range_succ _ (k + 1), ← h1, ← h2]
    rfl

/-- THE INVARIANT on the extended reals: after `k + 1` tiles the state is finite, and it is
    (the maximum of all energies seen, `∑ exp (s - M)`, `∑ exp (s - M) * v`). -/
theorem state_succ (s v : ℕ → Fin R → ℝ) (k : ℕ) :
    state s v (k + 1) = ((runMax s k : EReal), (runSum s k : EReal), (runAcc s v k : EReal)) := by
  rw [state_succ_eq_coe3, stateR_eq]; rfl

/-- The normaliser is positive. -/
theorem runSum_pos (s : ℕ → Fin R → ℝ) (k : ℕ) : 0 < runSum s k :=
  Finset.sum_pos (fun _ _ => Finset.sum_pos (fun _ _ => Real.exp_pos _) Finset.univ_nonempty)
    ⟨0, Finset.mem_range.2 (Nat.succ_pos k)⟩

/-- Every energy seen is at most the running maximum … -/
theorem le_runMax (s : ℕ → Fin R → ℝ) {i k : ℕ} (h : i ≤ k) (j : Fin R) : s i j ≤ runMax s k := by
  induction k with
  | zero =>
    obtain rfl : i = 0 := Nat.le_zero.1 h
    exact Finset.le_sup' (s 0) (Finset.mem_univ j)
  | succ k ih =>
    rcases Nat.le_succ_iff.1 h with h | rfl
    · exact (ih h).trans (le_max_left _ _)
    · exact (Finset.le_sup' (s (k + 1)) (Finset.mem_univ j)).trans (le_max_right _ _)

/-- … and the running maximum is one of them. -/
theorem exists_eq_runMax (s : ℕ → Fin R → ℝ) (k : ℕ) : ∃ i ≤ k, ∃ j, s i j = runMax s k := by
  induction k with
  | zero =>
    obtain ⟨j, _, h⟩ := Finset.exists_mem_eq_sup' Finset.univ_nonempty (s 0)
    exact ⟨0, le_rfl, j, h.symm⟩
  | succ k ih =>
    rcases le_total (runMax s k) (tileMax (s (k + 1))) with h | h
    · obtain ⟨j, _, hj⟩ := Finset.exists_mem_eq_sup' Finset.univ_nonempty (s (k + 1))
      exact ⟨k + 1, le_rfl, j, by rw [runMax, max_eq_right h]; exact hj.symm⟩
    · obtain ⟨i, hi, j, hj⟩ := ih
      exact ⟨i, Nat.le_succ_of_le hi, j, by rw [runMax, max_eq_left h]; exact hj⟩

end Invariant

/-! ## The quotient after the last tile is the one-pass softmax-weighted sum -/

section Final
variable [NeZero R] {T : ℕ}

/-- Over the reals: `(∑ exp (s - M) * v) / L = ∑ (exp (s - M) / L) * v`, in coerced form with the
    extended reals' division. -/
theorem div_coe_sum {ι : Type*} (t : Finset ι) (g w : ι → ℝ) {L : ℝ} (hL : L ≠ 0) :
    Ideal.div ((∑ i ∈ t, g i * w i : ℝ) : EReal) (L : EReal)
      = ∑ i ∈ t, Ideal.div (g i : EReal) (L : EReal) * (w i : EReal) := by
  rw [Ideal.div_coe hL, ← EReal.coe_mul, Finset.sum_mul, coe_sum]
  refine Finset.sum_congr rfl fun i _ => ?_
  rw [Ideal.div_coe hL, ← EReal.coe_mul, ← EReal.coe_mul]
  congr 1; ring

/-- THE FINAL IDENTITY (tiles `0 … T`, that is `T + 1` tiles; sums over `range`): `acc / l` of the last
    state is `∑ (exp (s - M) / L) * v` over every column, `M = runMax s T` the maximum and
    `L = runSum s T` the normaliser over every column. -/
theorem div_state_eq_range (s v : ℕ → Fin R → ℝ) (T : ℕ) :
    Ideal.div (state s v (T + 1)).2.2 (state s v (T + 1)).2.1
      = ∑ i ∈ Finset.range (T + 1), ∑ j,
          Ideal.div (Ideal.exp ((s i j : EReal) - (runMax s T : EReal))) (runSum s T : EReal) * (v i j : EReal) := by
  have hL : runSum s T ≠ 0 := (runSum_pos s T).ne'
  rw [state_succ]
  show Ideal.div (runAcc s v T : EReal) (runSum s T : EReal) = _
  rw [runAcc, ← Finset.sum_product' (Finset.range (T + 1)) Finset.univ
      (fun i j => Real.exp (s i j - runMax s T) * v i j),
    div_coe_sum _ (fun p : ℕ × Fin R => Real.exp (s p.1 p.2 - runMax s T)) (fun p => v p.1 p.2) hL,
    Finset.sum_product' (Finset.range (T + 1)) Finset.univ
      (fun i j => Ideal.div ((Real.exp (s i j - runMax s T) : ℝ) : EReal) (runSum s T : EReal) * (v i j : EReal))]
  exact Finset.sum_congr rfl fun i _ => Finset.sum_congr rfl fun j _ => by rw [exp_coe_sub]

/-- The same with the tiles indexed by `Fin (T + 1)` (for `T + 1 = 4` tiles take `T = 3`). -/
theorem div_state_eq (s v : ℕ → Fin R → ℝ) (T : ℕ) :
    Ideal.div (state s v (T + 1)).2.2 (state s v (T + 1)).2.1
      = ∑ i : Fin (T + 1), ∑ j,
          Ideal.div (Ideal.exp ((s i j : EReal) - (runMax s T : EReal))) (runSum s T : EReal) * (v i j : EReal) := by
  rw [div_state_eq_range, Finset.sum_range]

/-- The maximum over every column as a supremum over tiles × columns. -/
theorem runMax_eq_sup' (s : ℕ → Fin R → ℝ) (T : ℕ) :
    runMax s T = (Finset.univ : Finset (Fin (T + 1) × Fin R)).sup' Finset.univ_nonempty (fun p => s p.1 p.2) := by
  apply le_antisymm
  · obtain ⟨i, hi, j, h⟩ := exists_eq_runMax s T
    rw [← h]
    exact Finset.le_sup' (fun p : Fin (T + 1) × Fin R => s p.1 p.2)
      (Finset.mem_univ (⟨i, Nat.lt_succ_of_le hi⟩, j))
  · exact Finset.sup'_le _ _ fun p _ => le_runMax s (Nat.le_of_lt_succ p.1.isLt) p.2

/-- The normaliser over every column as one sum over tiles × columns. -/
theorem runSum_eq_sum_prod (s : ℕ → Fin R → ℝ) (T : ℕ) :
    runSum s T = ∑ p : Fin (T + 1) × Fin R, Real.exp (s p.1 p.2 - runMax s T) := by
  rw [runSum, Finset.sum_range, Fintype.sum_prod_type]

/-- A one-pass maximum — `max -∞ (fold of max from -∞ …)` over ANY finite index type whose columns are
    the tiles' columns — is the coerced `runMax`. -/
theorem max_bot_fold_eq_runMax {ι : Type*} [Fintype ι] (e : ι ≃ Fin (T + 1) × Fin R) (s : ℕ → Fin R → ℝ)
    (f : ι → ℝ) (hf : ∀ i, f i = s (e i).1 (e i).2) :
    max (⊥ : EReal) ((Finset.univ : Finset ι).fold max (⊥ : EReal) (fun i => (f i : EReal)))
      = (runMax s T : EReal) := by
  rw [max_bot_left]
  apply fold_max_bot_coe_of_isGreatest
  · intro i; rw [hf]; exact le_runMax s (Nat.le_of_lt_succ (e i).1.isLt) _
  · obtain ⟨i, hi, j, h⟩ := exists_eq_runMax s T
    refine ⟨e.symm (⟨i, Nat.lt_succ_of_le hi⟩, j), ?_⟩
    rw [hf, Equiv.apply_symm_apply]; exact h

/-- A one-pass normaliser — `0 + ∑ exp (s - M)` over such an index type — is the coerced `runSum`. -/
theorem zero_add_sum_eq_runSum {ι : Type*} [Fintype ι] (e : ι ≃ Fin (T + 1) × Fin R) (s : ℕ → Fin R → ℝ)
    (f : ι → ℝ) (hf : ∀ i, f i = s (e i).1 (e i).2) :
    (0 : EReal) + ∑ i, Ideal.exp ((f i : EReal) - (runMax s T : EReal)) = (runSum s T : EReal) := by
  rw [zero_add_sum_exp_coe, runSum_eq_sum_prod]
  congr 1
  exact Fintype.sum_equiv e _ _ fun i => by rw [hf]

/-- THE FINAL IDENTITY against a one-pass program: the columns indexed by any finite type `ι` in
    bijection with tiles × columns, the maximum a fold of `max` from `-∞` (under one more `max -∞`),
    the normaliser `0 + ∑`. -/
theorem div_state_eq_fintype {ι : Type*} [Fintype ι] (e : ι ≃ Fin (T + 1) × Fin R) (s v : ℕ → Fin R → ℝ)
    (f w : ι → ℝ) (hf : ∀ i, f i = s (e i).1 (e i).2) (hw : ∀ i, w i = v (e i).1 (e i).2) :
    Ideal.div (state s v (T + 1)).2.2 (state s v (T + 1)).2.1
      = ∑ i, Ideal.div
          (Ideal.exp ((f i : EReal)
            - max (⊥ : EReal) ((Finset.univ : Finset ι).fold max (⊥ : EReal) (fun i => (f i : EReal)))))
          ((0 : EReal) + ∑ i', Ideal.exp ((f i' : EReal)
            - max (⊥ : EReal) ((Finset.univ : Finset ι).fold max (⊥ : EReal) (fun i => (f i : EReal)))))
          * (w i : EReal) := by
  rw [max_bot_fold_eq_runMax e s f hf, zero_add_sum_eq_runSum e s f hf, div_state_eq,
    ← Fintype.sum_prod_type (f := fun p : Fin (T + 1) × Fin R =>
      Ideal.div (Ideal.exp ((s p.1 p.2 : EReal) - (runMax s T : EReal))) (runSum s T : EReal) * (v p.1 p.2 : EReal))]
  exact (Fintype.sum_equiv e _ _ fun i => by rw [hf, hw]).symm

end Final

/-! ## Tiles given over `Fin n` -/

section OfFin
variable {n : ℕ}

/-- Tiles indexed by `Fin n`, read as a sequence (zero tiles past the last). -/
def ofFin (s : Fin n → Fin R → ℝ) : ℕ → Fin R → ℝ :=
  fun k => if h : k < n then s ⟨k, h⟩ else fun _ => 0

theorem ofFin_of_lt (s : Fin n → Fin R → ℝ) {k : ℕ} (h : k < n) : ofFin s k = s ⟨k, h⟩ := dif_pos h

@[simp] theorem ofFin_val (s : Fin n → Fin R → ℝ) (i : Fin n) : ofFin s (i : ℕ) = s i := dif_pos i.isLt

/-- Four tiles, unrolled. -/
theorem state_four (s v : ℕ → Fin R → ℝ) :
    state s v 4 = step (s 3) (v 3) (step (s 2) (v 2) (step (s 1) (v 1) (step (s 0) (v 0) (⊥, 0, 0)))) := rfl

/-- THE FINAL IDENTITY for tiles given over `Fin (T + 1)`, against a one-pass program over any finite
    index type in bijection with tiles × columns. -/
theorem div_state_ofFin_eq_fintype [NeZero R] {T : ℕ} {ι : Type*} [Fintype ι] (e : ι ≃ Fin (T + 1) × Fin R)
    (s v : Fin (T + 1) → Fin R → ℝ) (f w : ι → ℝ)
    (hf : ∀ i, f i = s (e i).1 (e i).2) (hw : ∀ i, w i = v (e i).1 (e i).2) :
    Ideal.div (state (ofFin s) (ofFin v) (T + 1)).2.2 (state (ofFin s) (ofFin v) (T + 1)).2.1
      = ∑ i, Ideal.div
          (Ideal.exp ((f i : EReal)
            - max (⊥ : EReal) ((Finset.univ : Finset ι).fold max (⊥ : EReal) (fun i => (f i : EReal)))))
          ((0 : EReal) + ∑ i', Ideal.exp ((f i' : EReal)
            - max (⊥ : EReal) ((Finset.univ : Finset ι).fold max (⊥ : EReal) (fun i => (f i : EReal)))))
          * (w i : EReal) :=
  div_state_eq_fintype e (ofFin s) (ofFin v) f w
    (fun i => by rw [ofFin_val]; exact hf i) (fun i => by rw [ofFin_val]; exact hw i)

end OfFin

end Idealize.ShloMosaic.SoftmaxTiles
-- ==== Proof.MaskedTiles.lean ====
import proofs.«133872_j34866544509086_2_alg».proof.Proof.AttnSpec
import proofs.«133872_j34866544509086_2_alg».proof.Proof.LibSoftmaxTiles

/-!
  A causally masked online softmax over two tiles of 1024 keys is the one-pass masked softmax-weighted
  sum over all 2048 keys.

  An energy is a real number or `-∞` (a masked key). For a real reference point `X` the weight
  `exp (x - X)` of an energy `x` is the real number `ex x X`: `Real.exp (x - X)` for a real `x`, and `0`
  for `x = -∞`. Every sum a tile step or the one-pass row forms is then a coerced real sum of such
  weights (`sumE`, `accE`), moving the reference point from `X` to `X'` multiplies every weight by
  `exp (X - X')` (`ex_rescale`), and a fold of `max` over the row is the `max` of the folds over its two
  halves (`fold_split`). Only two facts about the row are used: no energy is `+∞`, and key `0` is not
  masked, so every maximum met is a real number and the normaliser is positive.
-/

noncomputable section

namespace Cert.Attn

open scoped BigOperators
open Idealize.ShloMosaic
open Idealize.ShloMosaic.SoftmaxTiles (coe_sum exp_coe_sub div_coe_sum)

/-! ## The weight of one energy, as a real number -/

/-- `exp (x - X)` for an energy `x` that is real or `-∞`. -/
def ex (x : EReal) (X : ℝ) : ℝ := if x = ⊥ then 0 else Real.exp (x.toReal - X)

theorem ex_bot (X : ℝ) : ex ⊥ X = 0 := if_pos rfl

theorem ex_coe (r X : ℝ) : ex (r : EReal) X = Real.exp (r - X) := by
  rw [ex, if_neg (EReal.coe_ne_bot r), EReal.toReal_coe]

theorem ex_nonneg (x : EReal) (X : ℝ) : 0 ≤ ex x X := by
  unfold ex
  split_ifs
  · exact le_rfl
  · exact (Real.exp_pos _).le

theorem ex_pos {x : EReal} (hx : x ≠ ⊥) (X : ℝ) : 0 < ex x X := by
  rw [ex, if_neg hx]; exact Real.exp_pos _

/-- The extended reals' `exp (x - X)` is the coerced weight. -/
theorem exp_sub_coe {x : EReal} (hx : x ≠ ⊤) (X : ℝ) : Ideal.exp (x - (X : EReal)) = (ex x X : EReal) := by
  induction x using EReal.rec with
  | bot => rw [EReal.bot_sub, Ideal.exp_bot, ex_bot, EReal.coe_zero]
  | coe r => rw [exp_coe_sub, ex_coe]
  | top => exact absurd rfl hx

/-- Moving the reference point: `exp (X - X') * exp (x - X) = exp (x - X')`, also for `x = -∞`. -/
theorem ex_rescale (x : EReal) (X X' : ℝ) : Real.exp (X - X') * ex x X = ex x X' := by
  unfold ex
  split_ifs
  · exact mul_zero _
  · rw [← Real.exp_add]; congr 1; ring

/-! ## A tile's two sums -/

section Tile
variable {R : ℕ}

/-- `∑ exp (f - X)` over a tile. -/
def sumE (f : Fin R → EReal) (X : ℝ) : ℝ := ∑ j, ex (f j) X

/-- `∑ exp (f - X) * g` over a tile. -/
def accE (f : Fin R → EReal) (g : Fin R → ℝ) (X : ℝ) : ℝ := ∑ j, ex (f j) X * g j

theorem sum_exp_eq (f : Fin R → EReal) (hf : ∀ j, f j ≠ ⊤) (X : ℝ) :
    ∑ j, Ideal.exp (f j - (X : EReal)) = (sumE f X : EReal) := by
  rw [sumE, coe_sum]
  exact Finset.sum_congr rfl fun j _ => exp_sub_coe (hf j) X

theorem sum_exp_mul_eq (f : Fin R → EReal) (hf : ∀ j, f j ≠ ⊤) (g : Fin R → ℝ) (X : ℝ) :
    ∑ j, Ideal.exp (f j - (X : EReal)) * (g j : EReal) = (accE f g X : EReal) := by
  rw [accE, coe_sum]
  exact Finset.sum_congr rfl fun j _ => by rw [exp_sub_coe (hf j) X, EReal.coe_mul]

theorem sumE_rescale (f : Fin R → EReal) (X X' : ℝ) : Real.exp (X - X') * sumE f X = sumE f X' := by
  rw [sumE, Finset.mul_sum]
  exact Finset.sum_congr rfl fun j _ => ex_rescale _ _ _

theorem accE_rescale (f : Fin R → EReal) (g : Fin R → ℝ) (X X' : ℝ) :
    Real.exp (X - X') * accE f g X = accE f g X' := by
  rw [accE, Finset.mul_sum]
  exact Finset.sum_congr rfl fun j _ => by rw [← mul_assoc, ex_rescale]

/-- Every energy of a tile is at most the tile's fold of `max`. -/
theorem le_fold (f : Fin R → EReal) (j : Fin R) :
    f j ≤ (Finset.univ : Finset (Fin R)).fold max (⊥ : EReal) f := by
  rw [Finset.le_fold_max]
  exact Or.inr ⟨j, Finset.mem_univ _, le_rfl⟩

/-- No energy `+∞`: the fold is not `+∞`. -/
theorem fold_lt_top (f : Fin R → EReal) (hf : ∀ j, f j ≠ ⊤) :
    (Finset.univ : Finset (Fin R)).fold max (⊥ : EReal) f < ⊤ := by
  rw [Finset.fold_max_lt]
  exact ⟨bot_lt_top, fun j _ => lt_top_iff_ne_top.2 (hf j)⟩

/-- The first tile: from `(-∞, 0, 0)` the old state is multiplied by `exp (-∞) = 0`. -/
theorem stepE_bot (f : Fin R → EReal) (hf : ∀ j, f j ≠ ⊤) (g : Fin R → ℝ) (m' : ℝ)
    (hm : (Finset.univ : Finset (Fin R)).fold max (⊥ : EReal) f = (m' : EReal)) :
    stepE f (fun j => (g j : EReal)) (⊥, 0, 0)
      = ((m' : EReal), (sumE f m' : EReal), (accE f g m' : EReal)) := by
  unfold stepE
  simp only [hm, max_bot_left, bot_sup_eq, EReal.bot_sub, Ideal.exp_bot, mul_zero, zero_add,
    sum_exp_eq f hf, sum_exp_mul_eq f hf]

/-- A later tile on a real state whose new maximum is the real `m'`. -/
theorem stepE_coe (f : Fin R → EReal) (hf : ∀ j, f j ≠ ⊤) (g : Fin R → ℝ) (m l a m' : ℝ)
    (hm : max (m : EReal) ((Finset.univ : Finset (Fin R)).fold max (⊥ : EReal) f) = (m' : EReal)) :
    stepE f (fun j => (g j : EReal)) ((m : EReal), (l : EReal), (a : EReal))
      = ((m' : EReal), ((Real.exp (m - m') * l + sumE f m' : ℝ) : EReal),
          ((Real.exp (m - m') * a + accE f g m' : ℝ) : EReal)) := by
  unfold stepE
  simp only [hm, exp_coe_sub, zero_add, sum_exp_eq f hf, sum_exp_mul_eq f hf, EReal.coe_add, EReal.coe_mul]

/-- A tile whose every key is masked leaves a real state as it was. -/
theorem stepE_masked (f v : Fin R → EReal) (hf : ∀ j, f j = ⊥) (m l a : ℝ) :
    stepE f v ((m : EReal), (l : EReal), (a : EReal)) = ((m : EReal), (l : EReal), (a : EReal)) := by
  obtain rfl : f = fun _ => ⊥ := funext hf
  have hF : (Finset.univ : Finset (Fin R)).fold max (⊥ : EReal) (fun _ => (⊥ : EReal)) = ⊥ := by
    rw [← le_bot_iff, Finset.fold_max_le]
    exact ⟨le_rfl, fun _ _ => le_rfl⟩
  unfold stepE
  simp only [hF, max_bot_right, sup_bot_eq, exp_coe_sub, sub_self, Real.exp_zero, EReal.coe_one, one_mul,
    EReal.bot_sub, Ideal.exp_bot, zero_mul, Finset.sum_const_zero, add_zero]

end Tile

/-! ## A row of 2048 keys as its two halves -/

theorem eq_lo_or_hi (s : Fin 2048) : (∃ j, s = lo j) ∨ ∃ j, s = hi j := by
  rcases Nat.lt_or_ge s.val 1024 with h | h
  · exact Or.inl ⟨⟨s.val, h⟩, rfl⟩
  · exact Or.inr ⟨⟨s.val - 1024, by omega⟩, Fin.ext (by simp only [hi]; omega)⟩

/-- The fold of `max` over the row is the `max` of the folds over its halves. -/
theorem fold_split (w : Fin 2048 → EReal) :
    (Finset.univ : Finset (Fin 2048)).fold max (⊥ : EReal) w
      = max ((Finset.univ : Finset (Fin 1024)).fold max (⊥ : EReal) (fun j => w (lo j)))
          ((Finset.univ : Finset (Fin 1024)).fold max (⊥ : EReal) (fun j => w (hi j))) := by
  apply le_antisymm
  · rw [Finset.fold_max_le]
    refine ⟨bot_le, fun s _ => ?_⟩
    rcases eq_lo_or_hi s with ⟨j, rfl⟩ | ⟨j, rfl⟩
    · exact (le_fold (fun j => w (lo j)) j).trans (le_max_left _ _)
    · exact (le_fold (fun j => w (hi j)) j).trans (le_max_right _ _)
  · exact max_le ((Finset.fold_max_le _).2 ⟨bot_le, fun j _ => le_fold w (lo j)⟩)
      ((Finset.fold_max_le _).2 ⟨bot_le, fun j _ => le_fold w (hi j)⟩)

/-- A sum over the row is the sum over its halves. -/
theorem sum_split (f : Fin 2048 → ℝ) : ∑ s, f s = ∑ j, f (lo j) + ∑ j, f (hi j) :=
  Fin.sum_univ_add (a := 1024) (b := 1024) f

/-! ## Two tiles against the one-pass row -/

/-- The state after the first tile is a real triple (key `0` is not masked, so the tile's maximum is real). -/
theorem first_tile (w : Fin 2048 → EReal) (g : Fin 2048 → ℝ) (hfin : ∀ s, w s ≠ ⊤) (h0 : w (lo 0) ≠ ⊥) :
    ∃ m1 : ℝ, (Finset.univ : Finset (Fin 1024)).fold max (⊥ : EReal) (fun j => w (lo j)) = (m1 : EReal) ∧
      stepE (fun j => w (lo j)) (fun j => (g (lo j) : EReal)) (⊥, 0, 0)
        = ((m1 : EReal), (sumE (fun j => w (lo j)) m1 : EReal), (accE (fun j => w (lo j)) (fun j => g (lo j)) m1 : EReal)) := by
  have htop := fold_lt_top (fun j => w (lo j)) (fun j => hfin (lo j))
  have hbot : (Finset.univ : Finset (Fin 1024)).fold max (⊥ : EReal) (fun j => w (lo j)) ≠ ⊥ :=
    fun h => h0 (le_bot_iff.1 (h ▸ le_fold (fun j => w (lo j)) 0))
  have hm := (EReal.coe_toReal htop.ne hbot).symm
  exact ⟨_, hm, stepE_bot _ (fun j => hfin (lo j)) _ _ hm⟩

/-- The general form: a row with no energy `+∞` whose key `0` is not masked, real values. -/
theorem two_tiles_gen (w : Fin 2048 → EReal) (g : Fin 2048 → ℝ) (hfin : ∀ s, w s ≠ ⊤) (h0 : w (lo 0) ≠ ⊥) :
    Ideal.div
        (stepE (fun j => w (hi j)) (fun j => (g (hi j) : EReal))
          (stepE (fun j => w (lo j)) (fun j => (g (lo j) : EReal)) (⊥, 0, 0))).2.2
        (stepE (fun j => w (hi j)) (fun j => (g (hi j) : EReal))
          (stepE (fun j => w (lo j)) (fun j => (g (lo j) : EReal)) (⊥, 0, 0))).2.1
      = softmaxRow w (fun s => (g s : EReal)) := by
  obtain ⟨m1, hm1, hst⟩ := first_tile w g hfin h0
  -- the maximum after the second tile is real: it is at least `m1` and not `+∞`
  have htop : max (m1 : EReal) ((Finset.univ : Finset (Fin 1024)).fold max (⊥ : EReal) (fun j => w (hi j))) < ⊤ :=
    max_lt (EReal.coe_lt_top m1) (fold_lt_top _ (fun j => hfin (hi j)))
  have hbot : max (m1 : EReal) ((Finset.univ : Finset (Fin 1024)).fold max (⊥ : EReal) (fun j => w (hi j))) ≠ ⊥ :=
    fun h => EReal.coe_ne_bot m1 (le_bot_iff.1 (h ▸ le_max_left _ _))
  have hM := (EReal.coe_toReal htop.ne hbot).symm
  generalize (max (m1 : EReal) ((Finset.univ : Finset (Fin 1024)).fold max (⊥ : EReal) (fun j => w (hi j)))).toReal
    = M at hM
  -- the two steps, with every weight moved to the reference point `M`
  rw [hst, stepE_coe _ (fun j => hfin (hi j)) _ _ _ _ M hM, sumE_rescale, accE_rescale]
  -- the one-pass row at the same reference point
  have hrow : rowMax w = (M : EReal) := by
    rw [rowMax, max_bot_left, fold_split, hm1, hM]
  have hL : sumE w M ≠ 0 :=
    (Finset.sum_pos' (fun s _ => ex_nonneg _ _) ⟨lo 0, Finset.mem_univ _, ex_pos h0 M⟩).ne'
  have hsum : rowSum w = (sumE w M : EReal) := by
    rw [rowSum, hrow, zero_add, sum_exp_eq w hfin]
  have hrhs : softmaxRow w (fun s => (g s : EReal))
      = Ideal.div ((∑ s, ex (w s) M * g s : ℝ) : EReal) (sumE w M : EReal) := by
    rw [softmaxRow, hsum, hrow, div_coe_sum _ _ _ hL]
    exact Finset.sum_congr rfl fun s _ => by rw [exp_sub_coe (hfin s)]
  have hs : sumE w M = sumE (fun j => w (lo j)) M + sumE (fun j => w (hi j)) M :=
    sum_split (fun s => ex (w s) M)
  have ha : ∑ s, ex (w s) M * g s
      = accE (fun j => w (lo j)) (fun j => g (lo j)) M + accE (fun j => w (hi j)) (fun j => g (hi j)) M :=
    sum_split (fun s => ex (w s) M * g s)
  rw [hrhs, ha, hs]

/-- A causally masked row: real energies up to the query position `t`, `-∞` after it. -/
theorem two_tiles (w v : Fin 2048 → EReal) (t : Fin 2048)
    (hw : ∀ s, s ≤ t → ∃ r : ℝ, w s = (r : EReal)) (hm : ∀ s, t < s → w s = ⊥) (hv : ∀ s, ∃ r : ℝ, v s = (r : EReal)) :
    Ideal.div (stepE (fun j => w (hi j)) (fun j => v (hi j)) (stepE (fun j => w (lo j)) (fun j => v (lo j)) (⊥, 0, 0))).2.2
              (stepE (fun j => w (hi j)) (fun j => v (hi j)) (stepE (fun j => w (lo j)) (fun j => v (lo j)) (⊥, 0, 0))).2.1
      = softmaxRow w v := by
  choose g hg using hv
  obtain rfl : v = fun s => (g s : EReal) := funext hg
  refine two_tiles_gen w g (fun s => ?_) ?_
  · rcases le_or_gt s t with h | h
    · obtain ⟨r, hr⟩ := hw s h
      rw [hr]; exact EReal.coe_ne_top r
    · rw [hm s h]; exact bot_ne_top
  · obtain ⟨r, hr⟩ := hw (lo 0) (Fin.mk_le_of_le_val (Nat.zero_le _))
    rw [hr]; exact EReal.coe_ne_bot r

/-- A query among the first 1024 keys: the second tile is wholly masked, and one tile step suffices. -/
theorem one_tile (w v : Fin 2048 → EReal) (t : Fin 2048) (ht : t.val < 1024)
    (hw : ∀ s, s ≤ t → ∃ r : ℝ, w s = (r : EReal)) (hm : ∀ s, t < s → w s = ⊥) (hv : ∀ s, ∃ r : ℝ, v s = (r : EReal)) :
    Ideal.div (stepE (fun j => w (lo j)) (fun j => v (lo j)) (⊥, 0, 0)).2.2 (stepE (fun j => w (lo j)) (fun j => v (lo j)) (⊥, 0, 0)).2.1
      = softmaxRow w v := by
  have h := two_tiles w v t hw hm hv
  choose g hg using hv
  obtain rfl : v = fun s => (g s : EReal) := funext hg
  have hfin : ∀ s, w s ≠ ⊤ := fun s => by
    rcases le_or_gt s t with h' | h'
    · obtain ⟨r, hr⟩ := hw s h'
      rw [hr]; exact EReal.coe_ne_top r
    · rw [hm s h']; exact bot_ne_top
  have h0 : w (lo 0) ≠ ⊥ := by
    obtain ⟨r, hr⟩ := hw (lo 0) (Fin.mk_le_of_le_val (Nat.zero_le _))
    rw [hr]; exact EReal.coe_ne_bot r
  obtain ⟨m1, -, hst⟩ := first_tile w g hfin h0
  have hhi : ∀ j : Fin 1024, w (hi j) = ⊥ := fun j => hm (hi j) (by
    rw [Fin.lt_def]; simp only [hi]; omega)
  rw [hst] at h ⊢
  rw [stepE_masked _ _ hhi] at h
  exact h

end Cert.Attn

end
-- ==== Proof.AttnRows.lean ====
import proofs.«133872_j34866544509086_2_alg».proof.Proof.AttnSpec
import proofs.«133872_j34866544509086_2_alg».proof.Proof.AttnArr
import proofs.«133872_j34866544509086_2_alg».proof.Proof.MaskedTiles

/-!
  The rows of causal attention are causally masked rows: for real projections `Q, K` and a real scale,
  the energy of query `t` against key `s` is a real number for `s ≤ t` and `-∞` for `s > t`. So the
  two-tile and one-tile laws of `MaskedTiles` hold at every row of `energy`, and `attn` of real inputs
  is the quotient `acc / l` of the tiled recurrence.
-/

noncomputable section

namespace Cert.Attn

open scoped BigOperators
open Idealize.ShloMosaic
open Idealize.ShloMosaic.SoftmaxTiles (coe_sum)

/-! ## Real entries stay real -/

/-- A projection of real arrays is real: a finite sum of products of reals. -/
theorem proj_real (x : Fin 8 → Fin 2048 → Fin 1024 → EReal) (W : Fin 1024 → Fin 64 → EReal)
    (hx : ∀ b t c, ∃ r : ℝ, x b t c = (r : EReal)) (hW : ∀ c h, ∃ r : ℝ, W c h = (r : EReal)) :
    ∀ b t h, ∃ r : ℝ, proj x W b t h = (r : EReal) := by
  choose gx hgx using hx
  choose gW hgW using hW
  intro b t h
  refine ⟨∑ c, gx b t c * gW c h, ?_⟩
  rw [proj, coe_sum]
  exact Finset.sum_congr rfl fun c _ => by rw [hgx, hgW, EReal.coe_mul]

/-- The scale word `0x3D000000` denotes the real number `1/32`. -/
theorem sc_eq : sc = (((1 : ℝ) / 32 : ℝ) : EReal) := by
  unfold sc
  simp [Ideal.ofBits, Ideal.ieee, -EReal.coe_mul]
  norm_num

theorem sc_real : ∃ r : ℝ, sc = (r : EReal) := ⟨_, sc_eq⟩

/-- An unmasked energy is real. -/
theorem energy_real (sc : EReal) (hsc : ∃ r : ℝ, sc = (r : EReal)) (Q K : Fin 8 → Fin 2048 → Fin 64 → EReal)
    (hQ : ∀ b t h, ∃ r : ℝ, Q b t h = (r : EReal)) (hK : ∀ b t h, ∃ r : ℝ, K b t h = (r : EReal))
    (b : Fin 8) (t s : Fin 2048) (hst : s ≤ t) : ∃ r : ℝ, energy sc Q K b t s = (r : EReal) := by
  obtain ⟨c, rfl⟩ := hsc
  choose gQ hgQ using hQ
  choose gK hgK using hK
  refine ⟨(∑ h, gQ b t h * gK b s h) * c, ?_⟩
  rw [energy, if_pos hst, EReal.coe_mul, coe_sum]
  congr 1
  exact Finset.sum_congr rfl fun h _ => by rw [hgQ, hgK, EReal.coe_mul]

/-- A key after the query is masked. -/
theorem energy_masked (sc : EReal) (Q K : Fin 8 → Fin 2048 → Fin 64 → EReal)
    (b : Fin 8) (t s : Fin 2048) (hst : t < s) : energy sc Q K b t s = ⊥ := by
  rw [energy, if_neg (not_le.2 hst)]

/-! ## The tiled recurrence at a row of `energy` -/

/-- Two tiles at a row of `energy`. -/
theorem row_two (sc : EReal) (hsc : ∃ r : ℝ, sc = (r : EReal)) (Q K V : Fin 8 → Fin 2048 → Fin 64 → EReal)
    (hQ : ∀ b t h, ∃ r : ℝ, Q b t h = (r : EReal)) (hK : ∀ b t h, ∃ r : ℝ, K b t h = (r : EReal))
    (hV : ∀ b t h, ∃ r : ℝ, V b t h = (r : EReal)) (b : Fin 8) (t : Fin 2048) (h : Fin 64) :
    Ideal.div (stepE (fun j => energy sc Q K b t (hi j)) (fun j => V b (hi j) h) (stepE (fun j => energy sc Q K b t (lo j)) (fun j => V b (lo j) h) (⊥, 0, 0))).2.2
              (stepE (fun j => energy sc Q K b t (hi j)) (fun j => V b (hi j) h) (stepE (fun j => energy sc Q K b t (lo j)) (fun j => V b (lo j) h) (⊥, 0, 0))).2.1
      = softmaxRow (energy sc Q K b t) (fun s => V b s h) :=
  two_tiles (energy sc Q K b t) (fun s => V b s h) t
    (fun s hs => energy_real sc hsc Q K hQ hK b t s hs) (fun s hs => energy_masked sc Q K b t s hs)
    (fun s => hV b s h)

/-- One tile at a row of `energy` whose query is among the first 1024 keys. -/
theorem row_one (sc : EReal) (hsc : ∃ r : ℝ, sc = (r : EReal)) (Q K V : Fin 8 → Fin 2048 → Fin 64 → EReal)
    (hQ : ∀ b t h, ∃ r : ℝ, Q b t h = (r : EReal)) (hK : ∀ b t h, ∃ r : ℝ, K b t h = (r : EReal))
    (hV : ∀ b t h, ∃ r : ℝ, V b t h = (r : EReal)) (b : Fin 8) (t : Fin 2048) (h : Fin 64) (ht : t.val < 1024) :
    Ideal.div (stepE (fun j => energy sc Q K b t (lo j)) (fun j => V b (lo j) h) (⊥, 0, 0)).2.2
              (stepE (fun j => energy sc Q K b t (lo j)) (fun j => V b (lo j) h) (⊥, 0, 0)).2.1
      = softmaxRow (energy sc Q K b t) (fun s => V b s h) :=
  one_tile (energy sc Q K b t) (fun s => V b s h) t ht
    (fun s hs => energy_real sc hsc Q K hQ hK b t s hs) (fun s hs => energy_masked sc Q K b t s hs)
    (fun s => hV b s h)

/-- The state after the first tile of a row of `energy` is a real triple. -/
theorem lo_state_real (sc : EReal) (hsc : ∃ r : ℝ, sc = (r : EReal)) (Q K V : Fin 8 → Fin 2048 → Fin 64 → EReal)
    (hQ : ∀ b t h, ∃ r : ℝ, Q b t h = (r : EReal)) (hK : ∀ b t h, ∃ r : ℝ, K b t h = (r : EReal))
    (hV : ∀ b t h, ∃ r : ℝ, V b t h = (r : EReal)) (b : Fin 8) (t : Fin 2048) (h : Fin 64) :
    ∃ m l a : ℝ, stepE (fun j => energy sc Q K b t (lo j)) (fun j => V b (lo j) h) (⊥, 0, 0)
      = ((m : EReal), (l : EReal), (a : EReal)) := by
  choose g hg using fun s => hV b s h
  have hfin : ∀ s, energy sc Q K b t s ≠ ⊤ := fun s => by
    rcases le_or_gt s t with h' | h'
    · obtain ⟨r, hr⟩ := energy_real sc hsc Q K hQ hK b t s h'
      rw [hr]; exact EReal.coe_ne_top r
    · rw [energy_masked sc Q K b t s h']; exact bot_ne_top
  have h0 : energy sc Q K b t (lo 0) ≠ ⊥ := by
    obtain ⟨r, hr⟩ := energy_real sc hsc Q K hQ hK b t (lo 0) (Fin.mk_le_of_le_val (Nat.zero_le _))
    rw [hr]; exact EReal.coe_ne_bot r
  obtain ⟨m1, -, hst⟩ := first_tile (energy sc Q K b t) g hfin h0
  have hv : (fun j => V b (lo j) h) = fun j => (g (lo j) : EReal) := funext fun j => hg (lo j)
  rw [hv, hst]
  exact ⟨_, _, _, rfl⟩

/-- The dead tile: for a query among the first 1024 keys every key of the second tile is masked, and
    the second step leaves the state after the first tile as it was, whatever values `v` it is given. -/
theorem hi_dead (sc : EReal) (hsc : ∃ r : ℝ, sc = (r : EReal)) (Q K V : Fin 8 → Fin 2048 → Fin 64 → EReal)
    (hQ : ∀ b t h, ∃ r : ℝ, Q b t h = (r : EReal)) (hK : ∀ b t h, ∃ r : ℝ, K b t h = (r : EReal))
    (hV : ∀ b t h, ∃ r : ℝ, V b t h = (r : EReal)) (b : Fin 8) (t : Fin 2048) (h : Fin 64) (ht : t.val < 1024)
    (v : Fin 1024 → EReal) :
    stepE (fun j => energy sc Q K b t (hi j)) v
        (stepE (fun j => energy sc Q K b t (lo j)) (fun j => V b (lo j) h) (⊥, 0, 0))
      = stepE (fun j => energy sc Q K b t (lo j)) (fun j => V b (lo j) h) (⊥, 0, 0) := by
  obtain ⟨m, l, a, hst⟩ := lo_state_real sc hsc Q K V hQ hK hV b t h
  rw [hst]
  exact stepE_masked _ v (fun j => energy_masked sc Q K b t (hi j) (by
    rw [Fin.lt_def]; simp only [hi]; omega)) m l a

/-! ## Attention of real inputs as the tiled quotient -/

/-- `attn` of real inputs is the two-tile quotient at the three projections. -/
theorem attn_two (sc : EReal) (hsc : ∃ r : ℝ, sc = (r : EReal)) (q k : Fin 8 → Fin 2048 → Fin 1024 → EReal)
    (Wq Wk Wv : Fin 1024 → Fin 64 → EReal)
    (hq : ∀ b t c, ∃ r : ℝ, q b t c = (r : EReal)) (hk : ∀ b t c, ∃ r : ℝ, k b t c = (r : EReal))
    (hWq : ∀ c h, ∃ r : ℝ, Wq c h = (r : EReal)) (hWk : ∀ c h, ∃ r : ℝ, Wk c h = (r : EReal))
    (hWv : ∀ c h, ∃ r : ℝ, Wv c h = (r : EReal)) (b : Fin 8) (t : Fin 2048) (h : Fin 64) :
    attn sc q k Wq Wk Wv b t h
      = Ideal.div (stepE (fun j => energy sc (proj q Wq) (proj k Wk) b t (hi j)) (fun j => proj k Wv b (hi j) h) (stepE (fun j => energy sc (proj q Wq) (proj k Wk) b t (lo j)) (fun j => proj k Wv b (lo j) h) (⊥, 0, 0))).2.2
                  (stepE (fun j => energy sc (proj q Wq) (proj k Wk) b t (hi j)) (fun j => proj k Wv b (hi j) h) (stepE (fun j => energy sc (proj q Wq) (proj k Wk) b t (lo j)) (fun j => proj k Wv b (lo j) h) (⊥, 0, 0))).2.1 :=
  (row_two sc hsc (proj q Wq) (proj k Wk) (proj k Wv) (proj_real q Wq hq hWq) (proj_real k Wk hk hWk)
    (proj_real k Wv hk hWv) b t h).symm

/-- … and, for a query among the first 1024 keys, the one-tile quotient. -/
theorem attn_one (sc : EReal) (hsc : ∃ r : ℝ, sc = (r : EReal)) (q k : Fin 8 → Fin 2048 → Fin 1024 → EReal)
    (Wq Wk Wv : Fin 1024 → Fin 64 → EReal)
    (hq : ∀ b t c, ∃ r : ℝ, q b t c = (r : EReal)) (hk : ∀ b t c, ∃ r : ℝ, k b t c = (r : EReal))
    (hWq : ∀ c h, ∃ r : ℝ, Wq c h = (r : EReal)) (hWk : ∀ c h, ∃ r : ℝ, Wk c h = (r : EReal))
    (hWv : ∀ c h, ∃ r : ℝ, Wv c h = (r : EReal)) (b : Fin 8) (t : Fin 2048) (h : Fin 64) (ht : t.val < 1024) :
    attn sc q k Wq Wk Wv b t h
      = Ideal.div (stepE (fun j => energy sc (proj q Wq) (proj k Wk) b t (lo j)) (fun j => proj k Wv b (lo j) h) (⊥, 0, 0)).2.2
                  (stepE (fun j => energy sc (proj q Wq) (proj k Wk) b t (lo j)) (fun j => proj k Wv b (lo j) h) (⊥, 0, 0)).2.1 :=
  (row_one sc hsc (proj q Wq) (proj k Wk) (proj k Wv) (proj_real q Wq hq hWq) (proj_real k Wk hk hWk)
    (proj_real k Wv hk hWv) b t h ht).symm

end Cert.Attn

end
-- ==== Proof.AttnBridgeI.lean ====
import proofs.«133872_j34866544509086_2_alg».proof.Proof.ProjValue
import proofs.«133872_j34866544509086_2_alg».proof.Proof.AttnDatI
import proofs.«133872_j34866544509086_2_alg».proof.Proof.AttnRows

/-!
  From the two regions' values to the attention function.

  The projection region leaves `q · Wq`, `k · Wk`, `k · Wv` in its three output arrays; the attention region,
  entered with those arrays, leaves in its output array the softmax-weighted sum of the third over the masked,
  scaled energies of the first two. Composing the two is the attention function of the launch arrays; and the
  projections of real arrays are real, which is what the attention region's value asks of its inputs.
-/

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal.Gen
open scoped BigOperators

/-! ## Attention of three projected arrays -/

/-- Attention on arrays that already hold the three projections `Q, K, W`: at `(b, t, h)` the softmax-weighted
    sum of column `h` of `W` over the masked, scaled energies of query `t` of `Q` against the keys of `K`. -/
def attnOfQKV (Q K W : S8x2048x64.Idx → EReal) : S8x2048x64.Idx → EReal :=
  fun i => Cert.Attn.softmaxRow
    (Cert.Attn.energy Cert.Attn.sc (fun b t h => Q (ix3 b t h)) (fun b t h => K (ix3 b t h)) (i 0) (i 1))
    (fun s => W (ix3 (i 0) s (i 2)))

/-- A projected array read as a function of its coordinates is the specification's projection. -/
theorem projArr_cur (x : S8x2048x1024.Idx → EReal) (W : S1024x64.Idx → EReal) :
    (fun b t h => projArr x W (ix3 b t h)) = Cert.Attn.proj (Cert.Attn.cur3 x) (Cert.Attn.cur2 W) := rfl

/-- Attention of the three projections of the launch arrays is the attention function of the launch arrays. -/
theorem attnOfQKV_proj (q k : S8x2048x1024.Idx → EReal) (wq wk wv : S1024x64.Idx → EReal) :
    attnOfQKV (projArr q wq) (projArr k wk) (projArr k wv) = Cert.Attn.attnG q k wq wk wv := by
  funext i
  show Cert.Attn.softmaxRow
      (Cert.Attn.energy Cert.Attn.sc (fun b t h => projArr q wq (ix3 b t h)) (fun b t h => projArr k wk (ix3 b t h)) (i 0) (i 1))
      (fun s => projArr k wv (ix3 (i 0) s (i 2)))
    = Cert.Attn.attn Cert.Attn.sc (Cert.Attn.cur3 q) (Cert.Attn.cur3 k) (Cert.Attn.cur2 wq) (Cert.Attn.cur2 wk) (Cert.Attn.cur2 wv) (i 0) (i 1) (i 2)
  rw [projArr_cur, projArr_cur]
  rfl

/-! ## Projections of real arrays are real -/

/-- A projection of real arrays is real at every index. -/
theorem projArr_real (x : S8x2048x1024.Idx → EReal) (W : S1024x64.Idx → EReal)
    (hx : ∀ i, ∃ r : ℝ, x i = (r : EReal)) (hW : ∀ i, ∃ r : ℝ, W i = (r : EReal)) :
    ∀ i, ∃ r : ℝ, projArr x W i = (r : EReal) := fun i =>
  Cert.Attn.proj_real (Cert.Attn.cur3 x) (Cert.Attn.cur2 W) (fun b t c => hx (ix3 b t c)) (fun c h => hW (ix2 c h)) (i 0) (i 1) (i 2)

/-! ## The two regions composed -/

variable (V : (c : Dev nD) → (b : Ref sig .tc) → Buf (Elt Ideal) ((c : Thread nD τ).loc b))

/-- When the attention region is entered with its three input arrays at the projections of real launch arrays,
    each of the three is real at every index. -/
theorem Q_real (c : Dev nD) (q : S8x2048x1024.Idx → EReal) (wq : S1024x64.Idx → EReal)
    (hq : ∀ i, ∃ r : ℝ, q i = (r : EReal)) (hwq : ∀ i, ∃ r : ℝ, wq i = (r : EReal))
    (eQ : (V c main_v0_0 : S8x2048x64.Idx → EReal) = projArr q wq) :
    ∀ i, ∃ r : ℝ, (V c main_v0_0 : S8x2048x64.Idx → EReal) i = (r : EReal) := by
  rw [eQ]; exact projArr_real q wq hq hwq
theorem K_real (c : Dev nD) (k : S8x2048x1024.Idx → EReal) (wk : S1024x64.Idx → EReal)
    (hk : ∀ i, ∃ r : ℝ, k i = (r : EReal)) (hwk : ∀ i, ∃ r : ℝ, wk i = (r : EReal))
    (eK : (V c main_v0_1 : S8x2048x64.Idx → EReal) = projArr k wk) :
    ∀ i, ∃ r : ℝ, (V c main_v0_1 : S8x2048x64.Idx → EReal) i = (r : EReal) := by
  rw [eK]; exact projArr_real k wk hk hwk
theorem V_real (c : Dev nD) (k : S8x2048x1024.Idx → EReal) (wv : S1024x64.Idx → EReal)
    (hk : ∀ i, ∃ r : ℝ, k i = (r : EReal)) (hwv : ∀ i, ∃ r : ℝ, wv i = (r : EReal))
    (eV : (V c main_v0_2 : S8x2048x64.Idx → EReal) = projArr k wv) :
    ∀ i, ∃ r : ℝ, (V c main_v0_2 : S8x2048x64.Idx → EReal) i = (r : EReal) := by
  rw [eV]; exact projArr_real k wv hk hwv

/-- The attention region's output array, entered with the three projections of the launch arrays, ends holding
    the attention function of the launch arrays. `hout`: what the region leaves, as attention of its three
    input arrays. -/
theorem attn_of_parts (c : Dev nD) (q k : S8x2048x1024.Idx → EReal) (wq wk wv : S1024x64.Idx → EReal)
    (eQ : (V c main_v0_0 : S8x2048x64.Idx → EReal) = projArr q wq)
    (eK : (V c main_v0_1 : S8x2048x64.Idx → EReal) = projArr k wk)
    (eV : (V c main_v0_2 : S8x2048x64.Idx → EReal) = projArr k wv)
    (hout : ((dat1 (F := Ideal) V c).arrAt 3 cfg1.N : S8x2048x64.Idx → EReal)
      = attnOfQKV (V c main_v0_0) (V c main_v0_1) (V c main_v0_2)) :
    ((dat1 (F := Ideal) V c).arrAt 3 cfg1.N : S8x2048x64.Idx → EReal) = Cert.Attn.attnG q k wq wk wv := by
  rw [hout, eQ, eK, eV]
  exact attnOfQKV_proj q k wq wk wv

/-- The spelling of `attnOfQKV` of the region's three input arrays with the arrays written out. -/
theorem attnOfQKV_V (c : Dev nD) :
    attnOfQKV (V c main_v0_0) (V c main_v0_1) (V c main_v0_2)
      = fun i => Cert.Attn.softmaxRow (Cert.Attn.energy Cert.Attn.sc (fun b t h => V c main_v0_0 (ix3 b t h)) (fun b t h => V c main_v0_1 (ix3 b t h)) (i 0) (i 1)) (fun s => V c main_v0_2 (ix3 (i 0) s (i 2))) := rfl

/-- The same, with the region's value taken in the form it is proved in: from the realness of the three input
    arrays, which the projections of real launch arrays have. -/
theorem attn_of_parts_real (c : Dev nD) (q k : S8x2048x1024.Idx → EReal) (wq wk wv : S1024x64.Idx → EReal)
    (hq : ∀ i, ∃ r : ℝ, q i = (r : EReal)) (hk : ∀ i, ∃ r : ℝ, k i = (r : EReal))
    (hwq : ∀ i, ∃ r : ℝ, wq i = (r : EReal)) (hwk : ∀ i, ∃ r : ℝ, wk i = (r : EReal)) (hwv : ∀ i, ∃ r : ℝ, wv i = (r : EReal))
    (eQ : (V c main_v0_0 : S8x2048x64.Idx → EReal) = projArr q wq)
    (eK : (V c main_v0_1 : S8x2048x64.Idx → EReal) = projArr k wk)
    (eV : (V c main_v0_2 : S8x2048x64.Idx → EReal) = projArr k wv)
    (hout : (∀ i, ∃ r : ℝ, (V c main_v0_0 : S8x2048x64.Idx → EReal) i = (r : EReal))
      → (∀ i, ∃ r : ℝ, (V c main_v0_1 : S8x2048x64.Idx → EReal) i = (r : EReal))
      → (∀ i, ∃ r : ℝ, (V c main_v0_2 : S8x2048x64.Idx → EReal) i = (r : EReal))
      → ((dat1 (F := Ideal) V c).arrAt 3 cfg1.N : S8x2048x64.Idx → EReal)
          = attnOfQKV (V c main_v0_0) (V c main_v0_1) (V c main_v0_2)) :
    ((dat1 (F := Ideal) V c).arrAt 3 cfg1.N : S8x2048x64.Idx → EReal) = Cert.Attn.attnG q k wq wk wv :=
  attn_of_parts V c q k wq wk wv eQ eK eV
    (hout (Q_real V c q wq hq hwq eQ) (K_real V c k wk hk hwk eK) (V_real V c k wv hk hwv eV))

end Cert.KernelIdeal.Hand

end
-- ==== Proof.PayAt1.lean ====
import proofs.«133872_j34866544509086_2_alg».proof.Proof.Gen.KernelIdeal.Skeleton
import proofs.«133872_j34866544509086_2_alg».proof.Proof.AttnSpec
import proofs.«133872_j34866544509086_2_alg».proof.Proof.AttnArr
import Idealize.ShloMosaic.Lib.ValueIdx
import Idealize.ShloMosaic.Lib.Pipeline.Value
import Idealize.ShloMosaic.Lib.ValueLayout
import Idealize.ShloMosaic.PureOps.Ideal.Laws

/-!
  The attention kernel's stored values read at an index, at the extended reals: each payload of the
  kernel body is a pure term of the blocks loaded before it, and here each is read at one index as plain
  sums, folds of `max`, `Ideal.exp` and `Ideal.div` of those blocks' entries.

  * the reset values are `-∞`, `0`, `0`;
  * the energy tile at `(r, c)` is `(∑ h, q r h * k c h) * sc` where key position ≤ query position, else `-∞`;
  * one tile step is `Cert.Attn.stepE` of the tile's row of energies and column of values;
  * the written block is `acc / l`.
-/

noncomputable section

namespace Cert.Attn.Pay

open scoped BigOperators
open Idealize.ShloMosaic Idealize.ShloMosaic.ValueIdx Cert.KernelIdeal Cert.KernelIdeal.Gen

/-! ## Two layout operations read at an index: a vector as a column, a column broadcast along rows -/

section Layout
variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A `tpu.matmul` into a zero accumulator, read at an index -/

theorem mm_qk_lhs0 (i : S512x1024.Idx) (q : dot_S512x64_S64x1024_S512x1024_1_0_0_1_n_n.contr.Idx) : (dot_S512x64_S64x1024_S512x1024_1_0_0_1_n_n.lhsIdx i q 0).val = (i 0).val := by
  unfold DotDims.lhsIdx
  rw [dif_neg (show ¬(0 : Fin S512x64.rank) ∈ dot_S512x64_S64x1024_S512x1024_1_0_0_1_n_n.lhsBatch by decide), dif_pos (show (0 : Fin S512x64.rank) ∈ dot_S512x64_S64x1024_S512x1024_1_0_0_1_n_n.lhsNonContracting by decide)]
  rfl
theorem mm_qk_rhs1 (i : S512x1024.Idx) (q : dot_S512x64_S64x1024_S512x1024_1_0_0_1_n_n.contr.Idx) : (dot_S512x64_S64x1024_S512x1024_1_0_0_1_n_n.rhsIdx i q 1).val = (i 1).val := by
  unfold DotDims.rhsIdx
  rw [dif_neg (show ¬(1 : Fin 2) ∈ dot_S512x64_S64x1024_S512x1024_1_0_0_1_n_n.rhsBatch by decide), dif_pos (show (1 : Fin 2) ∈ dot_S512x64_S64x1024_S512x1024_1_0_0_1_n_n.rhsNonContracting by decide)]
  rfl

/-- The product into a zero accumulator, read at `(r, c)`: the sum over the contracted coordinate. -/
theorem mm_qk (lhs : FVec Ideal S512x64 .bf16) (rhs : FVec Ideal S64x1024 .bf16) (r : Fin 512) (c : Fin 1024) :
    matmul dot_S512x64_S64x1024_S512x1024_1_0_0_1_n_n none lhs rhs (constant (F := Ideal) S512x1024 .f32 0x00000000#32) (ix2 r c)
      = ∑ k : Fin 64, lhs (ix2 r k) * rhs (ix2 k c) := by
  simp only [matmul]
  rw [Ideal.matmul_constant_zero_apply, ← Equiv.sum_comp (contrEquiv1 dot_S512x64_S64x1024_S512x1024_1_0_0_1_n_n 64 rfl rfl).symm]
  refine Finset.sum_congr rfl fun k _ => ?_
  have hk := contrEquiv1_symm_val dot_S512x64_S64x1024_S512x1024_1_0_0_1_n_n 64 rfl rfl k
  have el : dot_S512x64_S64x1024_S512x1024_1_0_0_1_n_n.lhsIdx (ix2 r c) ((contrEquiv1 dot_S512x64_S64x1024_S512x1024_1_0_0_1_n_n 64 rfl rfl).symm k) = ix2 r k := funext fun a => Fin.ext (by
    match a with
    | ⟨0, _⟩ => exact mm_qk_lhs0 _ _
    | ⟨1, _⟩ => exact (dot_S512x64_S64x1024_S512x1024_1_0_0_1_n_n.lhsIdx_val_of_single rfl _ _).trans hk)
  have er : dot_S512x64_S64x1024_S512x1024_1_0_0_1_n_n.rhsIdx (ix2 r c) ((contrEquiv1 dot_S512x64_S64x1024_S512x1024_1_0_0_1_n_n 64 rfl rfl).symm k) = ix2 k c := funext fun a => Fin.ext (by
    match a with
    | ⟨0, _⟩ => exact (dot_S512x64_S64x1024_S512x1024_1_0_0_1_n_n.rhsIdx_val_of_single rfl _ _).trans hk
    | ⟨1, _⟩ => exact mm_qk_rhs1 _ _)
  rw [el, er]

theorem mm_pv_lhs0 (i : S512x64.Idx) (q : dot_S512x1024_S1024x64_S512x64_1_0_0_1_n_n.contr.Idx) : (dot_S512x1024_S1024x64_S512x64_1_0_0_1_n_n.lhsIdx i q 0).val = (i 0).val := by
  unfold DotDims.lhsIdx
  rw [dif_neg (show ¬(0 : Fin S512x1024.rank) ∈ dot_S512x1024_S1024x64_S512x64_1_0_0_1_n_n.lhsBatch by decide), dif_pos (show (0 : Fin S512x1024.rank) ∈ dot_S512x1024_S1024x64_S512x64_1_0_0_1_n_n.lhsNonContracting by decide)]
  rfl
theorem mm_pv_rhs1 (i : S512x64.Idx) (q : dot_S512x1024_S1024x64_S512x64_1_0_0_1_n_n.contr.Idx) : (dot_S512x1024_S1024x64_S512x64_1_0_0_1_n_n.rhsIdx i q 1).val = (i 1).val := by
  unfold DotDims.rhsIdx
  rw [dif_neg (show ¬(1 : Fin 2) ∈ dot_S512x1024_S1024x64_S512x64_1_0_0_1_n_n.rhsBatch by decide), dif_pos (show (1 : Fin 2) ∈ dot_S512x1024_S1024x64_S512x64_1_0_0_1_n_n.rhsNonContracting by decide)]
  rfl

/-- The product into a zero accumulator, read at `(r, c)`: the sum over the contracted coordinate. -/
theorem mm_pv (lhs : FVec Ideal S512x1024 .bf16) (rhs : FVec Ideal S1024x64 .bf16) (r : Fin 512) (c : Fin 64) :
    matmul dot_S512x1024_S1024x64_S512x64_1_0_0_1_n_n none lhs rhs (constant (F := Ideal) S512x64 .f32 0x00000000#32) (ix2 r c)
      = ∑ k : Fin 1024, lhs (ix2 r k) * rhs (ix2 k c) := by
  simp only [matmul]
  rw [Ideal.matmul_constant_zero_apply, ← Equiv.sum_comp (contrEquiv1 dot_S512x1024_S1024x64_S512x64_1_0_0_1_n_n 1024 rfl rfl).symm]
  refine Finset.sum_congr rfl fun k _ => ?_
  have hk := contrEquiv1_symm_val dot_S512x1024_S1024x64_S512x64_1_0_0_1_n_n 1024 rfl rfl k
  have el : dot_S512x1024_S1024x64_S512x64_1_0_0_1_n_n.lhsIdx (ix2 r c) ((contrEquiv1 dot_S512x1024_S1024x64_S512x64_1_0_0_1_n_n 1024 rfl rfl).symm k) = ix2 r k := funext fun a => Fin.ext (by
    match a with
    | ⟨0, _⟩ => exact mm_pv_lhs0 _ _
    | ⟨1, _⟩ => exact (dot_S512x1024_S1024x64_S512x64_1_0_0_1_n_n.lhsIdx_val_of_single rfl _ _).trans hk)
  have er : dot_S512x1024_S1024x64_S512x64_1_0_0_1_n_n.rhsIdx (ix2 r c) ((contrEquiv1 dot_S512x1024_S1024x64_S512x64_1_0_0_1_n_n 1024 rfl rfl).symm k) = ix2 k c := funext fun a => Fin.ext (by
    match a with
    | ⟨0, _⟩ => exact (dot_S512x1024_S1024x64_S512x64_1_0_0_1_n_n.rhsIdx_val_of_single rfl _ _).trans hk
    | ⟨1, _⟩ => exact mm_pv_rhs1 _ _)
  rw [el, er]

/-! ## The causal mask's bit -/

/-- A natural below `2^31`, as a 32-bit word read signed, is itself. -/
theorem toInt_ofNat_small (n : ℕ) (h : n < 2 ^ 31) : (BitVec.ofNat 32 n).toInt = (n : ℤ) := by
  rw [BitVec.toInt_eq_toNat_cond, BitVec.toNat_ofNat]
  have : n % 2 ^ 32 = n := Nat.mod_eq_of_lt (by omega)
  rw [this, if_pos (by omega)]

/-- The position word `block * size + coordinate` is the word of that natural. -/
theorem pos_word (i sz n : ℕ) :
    IntOp.addi (Scalar.muli (BitVec.ofNat 32 i) (BitVec.ofNat 32 sz)) (BitVec.ofNat 32 n) = BitVec.ofNat 32 (i * sz + n) := by
  show BitVec.ofNat 32 i * BitVec.ofNat 32 sz + BitVec.ofNat 32 n = _
  rw [← BitVec.ofNat_mul, ← BitVec.ofNat_add]

/-- The signed comparison "query position ≥ key position" of the two position words is the comparison of the naturals. -/
theorem mask_bit (i1 j : ℕ) (hi : i1 < 4) (hj : j < 2) (r : Fin 512) (c : Fin 1024) :
    IntOp.cmpi .sge (IntOp.addi (Scalar.muli (BitVec.ofNat 32 i1) 512#32) (BitVec.ofNat 32 r.val))
        (IntOp.addi (Scalar.muli (BitVec.ofNat 32 j) 1024#32) (BitVec.ofNat 32 c.val))
      = if j * 1024 + c.val ≤ i1 * 512 + r.val then 1#1 else 0#1 := by
  have hr := r.isLt
  have hc := c.isLt
  rw [pos_word, pos_word]
  split
  · rename_i hle
    rw [IntOp.cmpi_sge, toInt_ofNat_small _ (by omega), toInt_ofNat_small _ (by omega)]
    omega
  · rename_i hle
    refine eq_zero_of_ne_one fun h1 => hle ?_
    rw [IntOp.cmpi_sge, toInt_ofNat_small _ (by omega), toInt_ofNat_small _ (by omega)] at h1
    omega

/-- The integer vector operations read at an index (definitional). -/
theorem cmpi_apply {s : Shape} {w : ℕ} (p : CmpIPredicate) (x y : IVec s w) (i : s.Idx) :
    cmpi p x y i = IntOp.cmpi p (x i) (y i) := rfl
theorem addi_apply {s : Shape} {w : ℕ} (x y : IVec s w) (i : s.Idx) : addi x y i = IntOp.addi (x i) (y i) := rfl
/-- `math.exp` of a vector read at an index. -/
theorem exp_apply {s : Shape} {φ : FTy} (x : FVec Ideal s φ) (i : s.Idx) : exp x i = Ideal.exp (x i) := rfl

/-- The named constant `neg_big` is `-∞` at the extended reals. -/
theorem neg_big : Named.named (F := Ideal) Cert.KernelIdeal.κ "neg_big" (φ := .f32) 0xCE6E6B28#32 = (⊥ : EReal) :=
  IdealRules.named_const.ideal_named_scalar _ _ _ _ rfl

/-! ## The energy tile -/

/-- The masked, scaled energy tile at `(r, c)`. -/
theorem pay8_at (i1 j : ℕ) (hi : i1 < 4) (hj : j < 2) (x0 : Vec Ideal S1x512x64 .bf16) (x1 : Vec Ideal S1x1024x64 .bf16)
    (r : Fin 512) (c : Fin 1024) :
    k1_pay8 (F := Ideal) (BitVec.ofNat 32 i1) (BitVec.ofNat 32 j) x0 x1 (ix2 r c)
      = if j * 1024 + c.val ≤ i1 * 512 + r.val then (∑ h : Fin 64, x0 (ix3 0 r h) * x1 (ix3 0 c h)) * Cert.Attn.sc else ⊥ := by
  unfold k1_pay8
  rw [select_apply, cmpi_apply, addi_apply, addi_apply, broadcast_apply, broadcast_apply, iota_single_apply, iota_single_apply]
  show Scalar.select (IntOp.cmpi .sge (IntOp.addi (Scalar.muli (BitVec.ofNat 32 i1) 512#32) (BitVec.ofNat 32 r.val))
        (IntOp.addi (Scalar.muli (BitVec.ofNat 32 j) 1024#32) (BitVec.ofNat 32 c.val))) _ _ = _
  rw [mask_bit i1 j hi hj r c]
  split
  · rw [select_one, mulf_apply, broadcast_apply, mm_qk]
    refine congrArg₂ (· * ·) (Finset.sum_congr rfl fun h _ => ?_) rfl
    rw [shapeCast_1ab_ab_apply, transpose_ix2_apply, shapeCast_1ab_ab_apply]
  · rw [select_zero, broadcast_apply]
    exact neg_big

/-! ## The reset values and the written block -/

/-- The word `0xFF800000` read at the extended reals is `-∞`. -/
theorem negInf_f32 : Ideal.ofBits .f32 0xFF800000#32 = ⊥ := by simp [Ideal.ofBits, Ideal.ieee]

/-- The reset state: running maximum `-∞`, normaliser `0`, accumulator `0`. -/
theorem init_at (r : Fin 512) (h : Fin 64) :
    k1_pay1 (F := Ideal) (ix2 r 0) = ⊥ ∧ k1_pay2 (F := Ideal) (ix2 r 0) = 0 ∧ k1_pay3 (F := Ideal) (ix2 r h) = 0 := by
  refine ⟨?_, ?_, ?_⟩
  · unfold k1_pay1
    simp only [shapeCast_self, broadcast_apply]
    exact negInf_f32
  · unfold k1_pay2
    simp only [shapeCast_self, broadcast_apply]
    exact Ideal.ofBits_zero_f32
  · unfold k1_pay3
    simp only [shapeCast_self, broadcast_apply]
    exact Ideal.ofBits_zero_f32

/-- The written block at `(0, r, h)`: the accumulator over the normaliser. -/
theorem out_at (acc : Vec Ideal S512x64 .f32) (l : Vec Ideal S512x1 .f32) (r : Fin 512) (h : Fin 64) :
    k1_pay6 (F := Ideal) acc l (ix3 0 r h) = Ideal.div (acc (ix2 r h)) (l (ix2 r 0)) := by
  unfold k1_pay6
  rw [shapeCast_ab_1ab_apply, divf_apply, broadcastTo_a1_ab_apply]

/-! ## The lane reductions of a `[512, 1024]` tile, read at a row -/

/-- The index a lane reduction inserts the lane coordinate at is `(r, c)`. -/
theorem lift_row (r : Fin 512) (c : Fin 1024) : reduces_S512x1024_S512.lift (ix1 r) c = ix2 r c := by
  funext a
  match a with
  | ⟨0, _⟩ => exact Fin.ext rfl
  | ⟨1, _⟩ => exact Fin.ext rfl

/-- The lane maximum at row `r`: the fold of `max` from `-∞` over the row. -/
theorem rowmax_at (src : FVec Ideal S512x1024 .f32) (r : Fin 512) :
    multiReduction .maximumf [1] S512 src 0xFF800000#32 reduces_S512x1024_S512 (.inl rfl) rfl (ix1 r)
      = (Finset.univ : Finset (Fin 1024)).fold max (⊥ : EReal) (fun c => src (ix2 r c)) := by
  refine (Ideal.multiReduction_maximumf_single src 0xFF800000#32 reduces_S512x1024_S512 (.inl rfl) rfl (ix1 r)).trans ?_
  show (Finset.univ : Finset (Fin 1024)).fold max (Ideal.ofBits .f32 0xFF800000#32)
      (fun c => src (reduces_S512x1024_S512.lift (ix1 r) c)) = _
  rw [negInf_f32]
  exact congrArg (fun f => (Finset.univ : Finset (Fin 1024)).fold max (⊥ : EReal) f) (funext fun (c : Fin 1024) => congrArg src (lift_row r c))

/-- The lane sum at row `r`: the sum over the row. -/
theorem rowsum_at (src : FVec Ideal S512x1024 .f32) (r : Fin 512) :
    multiReduction .add [1] S512 src 0x00000000#32 reduces_S512x1024_S512 (.inl rfl) rfl (ix1 r)
      = ∑ c : Fin 1024, src (ix2 r c) := by
  refine (Ideal.multiReduction_add_single src 0x00000000#32 reduces_S512x1024_S512 (.inl rfl) rfl (ix1 r)).trans ?_
  show ∑ c : Fin 1024, src (reduces_S512x1024_S512.lift (ix1 r) c) = _
  exact Finset.sum_congr rfl fun (c : Fin 1024) _ => congrArg src (lift_row r c)

/-! ## One tile step -/

section Step
variable (a1 a2 : BitVec 32) (x0 : Vec Ideal S1x512x64 .bf16) (x1 x2 : Vec Ideal S1x1024x64 .bf16)
  (m l : Vec Ideal S512x1 .f32) (acc : Vec Ideal S512x64 .f32)

/-- The new running maximum of row `r`: the old one against the tile row's maximum. -/
theorem pay9_at (r : Fin 512) :
    k1_pay9 (F := Ideal) a1 a2 x0 x1 m (ix2 r 0)
      = max (m (ix2 r 0)) ((Finset.univ : Finset (Fin 1024)).fold max (⊥ : EReal)
          (fun c : Fin 1024 => k1_pay8 (F := Ideal) a1 a2 x0 x1 (ix2 r c))) := by
  unfold k1_pay9
  rw [maximumf_apply, shapeCast_a_a1_apply, rowmax_at]

/-- The rescaling factor of row `r`. -/
theorem pay10_at (r : Fin 512) :
    k1_pay10 (F := Ideal) a1 a2 x0 x1 m (ix2 r 0)
      = Ideal.exp (m (ix2 r 0) - k1_pay9 (F := Ideal) a1 a2 x0 x1 m (ix2 r 0)) := by
  unfold k1_pay10
  rw [exp_apply, subf_apply]

/-- The tile's weights at `(r, c)`. -/
theorem pay11_at (r : Fin 512) (c : Fin 1024) :
    k1_pay11 (F := Ideal) a1 a2 x0 x1 m (ix2 r c)
      = Ideal.exp (k1_pay8 (F := Ideal) a1 a2 x0 x1 (ix2 r c) - k1_pay9 (F := Ideal) a1 a2 x0 x1 m (ix2 r 0)) := by
  unfold k1_pay11
  rw [exp_apply, subf_apply, broadcastTo_a1_ab_apply]

theorem m_at (r : Fin 512) :
    k1_pay5 (k1_pay9 (F := Ideal) a1 a2 x0 x1 m) (ix2 r 0)
      = max (m (ix2 r 0)) ((Finset.univ : Finset (Fin 1024)).fold max (⊥ : EReal)
          (fun c : Fin 1024 => k1_pay8 (F := Ideal) a1 a2 x0 x1 (ix2 r c))) := by
  unfold k1_pay5
  rw [shapeCast_self, pay9_at]

theorem l_at (r : Fin 512) :
    k1_pay12 (F := Ideal) a1 a2 x0 x1 m l (ix2 r 0)
      = Ideal.exp (m (ix2 r 0) - max (m (ix2 r 0)) ((Finset.univ : Finset (Fin 1024)).fold max (⊥ : EReal)
            (fun c : Fin 1024 => k1_pay8 (F := Ideal) a1 a2 x0 x1 (ix2 r c)))) * l (ix2 r 0)
        + ((0 : EReal) + ∑ c : Fin 1024, Ideal.exp (k1_pay8 (F := Ideal) a1 a2 x0 x1 (ix2 r c)
            - max (m (ix2 r 0)) ((Finset.univ : Finset (Fin 1024)).fold max (⊥ : EReal)
              (fun c : Fin 1024 => k1_pay8 (F := Ideal) a1 a2 x0 x1 (ix2 r c))))) := by
  unfold k1_pay12
  rw [shapeCast_self, addf_apply, mulf_apply, shapeCast_a_a1_apply, rowsum_at, pay10_at, pay9_at, zero_add]
  refine congrArg (_ + ·) (Finset.sum_congr rfl fun c _ => ?_)
  rw [pay11_at, pay9_at]

theorem acc_at (r : Fin 512) (h : Fin 64) :
    k1_pay4 (k1_pay7 x2) (k1_pay10 (F := Ideal) a1 a2 x0 x1 m) (k1_pay11 (F := Ideal) a1 a2 x0 x1 m) acc (ix2 r h)
      = Ideal.exp (m (ix2 r 0) - max (m (ix2 r 0)) ((Finset.univ : Finset (Fin 1024)).fold max (⊥ : EReal)
            (fun c : Fin 1024 => k1_pay8 (F := Ideal) a1 a2 x0 x1 (ix2 r c)))) * acc (ix2 r h)
        + ∑ c : Fin 1024, Ideal.exp (k1_pay8 (F := Ideal) a1 a2 x0 x1 (ix2 r c)
            - max (m (ix2 r 0)) ((Finset.univ : Finset (Fin 1024)).fold max (⊥ : EReal)
              (fun c : Fin 1024 => k1_pay8 (F := Ideal) a1 a2 x0 x1 (ix2 r c)))) * x2 (ix3 0 c h) := by
  unfold k1_pay4
  rw [shapeCast_self, addf_apply, mulf_apply, broadcastTo_a1_ab_apply, mm_pv, pay10_at, pay9_at]
  refine congrArg (_ + ·) (Finset.sum_congr rfl fun c _ => ?_)
  rw [truncf_apply, pay11_at, pay9_at]
  unfold k1_pay7
  rw [shapeCast_1ab_ab_apply]

/-- One tile step, read at row `r` and output column `h`: the update `Cert.Attn.stepE` of the running state by the
    tile's row of energies and column of values. -/
theorem step_at (r : Fin 512) (h : Fin 64) :
    (k1_pay5 (k1_pay9 (F := Ideal) a1 a2 x0 x1 m) (ix2 r 0), k1_pay12 (F := Ideal) a1 a2 x0 x1 m l (ix2 r 0),
      k1_pay4 (k1_pay7 x2) (k1_pay10 (F := Ideal) a1 a2 x0 x1 m) (k1_pay11 (F := Ideal) a1 a2 x0 x1 m) acc (ix2 r h))
      = Cert.Attn.stepE (fun c : Fin 1024 => k1_pay8 (F := Ideal) a1 a2 x0 x1 (ix2 r c)) (fun c : Fin 1024 => x2 (ix3 0 c h))
          (m (ix2 r 0), l (ix2 r 0), acc (ix2 r h)) := by
  rw [m_at, l_at, acc_at]
  rfl

end Step

end Cert.Attn.Pay

end
-- ==== Proof.AttnKernelRow.lean ====
import proofs.«133872_j34866544509086_2_alg».proof.Proof.PayAt1
import proofs.«133872_j34866544509086_2_alg».proof.Proof.AttnRows
import proofs.«133872_j34866544509086_2_alg».proof.Proof.AttnDefsI

/-!
  The kernel's written block, read at one row, is the one-pass masked softmax-weighted sum of that row.

  The query block `i1` (512 rows) holds the query positions `i1 * 512 + r`; the first key block holds the keys
  `lo c`, the second the keys `hi c`. The energy tile the kernel forms at `(r, c)` is then the row of
  `Cert.Attn.energy` at that query position, read at `lo c` or `hi c`; one tile step of the kernel is
  `Cert.Attn.stepE` at that row; and the written quotient `acc / l` is the row's `softmaxRow` by the
  one-tile law (query among the first 1024 keys: `i1 < 2`) or the two-tile law.
-/

noncomputable section

namespace Cert.Attn.Pay

open scoped BigOperators
open Idealize.ShloMosaic Idealize.ShloMosaic.ValueIdx Cert.KernelIdeal Cert.KernelIdeal.Gen Cert.KernelIdeal.Hand

/-- The query position of row `r` of query block `i1`. -/
abbrev qpos (i1 : ℕ) (hi4 : i1 < 4) (r : Fin 512) : Fin 2048 := ⟨i1 * 512 + r.val, by have := r.isLt; omega⟩

/-- The first key block's energy tile at row `r` is the row of `energy` read at the first 1024 keys. -/
theorem tile_lo (i1 : ℕ) (hi4 : i1 < 4) (Q K : Fin 8 → Fin 2048 → Fin 64 → EReal) (b : Fin 8)
    (x0 : Vec Ideal S1x512x64 .bf16) (xk : Vec Ideal S1x1024x64 .bf16)
    (hx0 : ∀ r h, x0 (ix3 0 r h) = Q b (qpos i1 hi4 r) h) (hk : ∀ c h, xk (ix3 0 c h) = K b (lo c) h) (r : Fin 512) :
    (fun c : Fin 1024 => k1_pay8 (F := Ideal) (BitVec.ofNat 32 i1) (BitVec.ofNat 32 0) x0 xk (ix2 r c))
      = fun c => energy Cert.Attn.sc Q K b (qpos i1 hi4 r) (lo c) := by
  funext c
  rw [pay8_at i1 0 hi4 (by omega) x0 xk r c, energy]
  refine if_congr ?_ ?_ rfl
  · show 0 * 1024 + c.val ≤ i1 * 512 + r.val ↔ c.val ≤ i1 * 512 + r.val
    omega
  · congr 1
    exact Finset.sum_congr rfl fun h _ => by rw [hx0, hk]

/-- The second key block's energy tile at row `r` is the row of `energy` read at the last 1024 keys. -/
theorem tile_hi (i1 : ℕ) (hi4 : i1 < 4) (Q K : Fin 8 → Fin 2048 → Fin 64 → EReal) (b : Fin 8)
    (x0 : Vec Ideal S1x512x64 .bf16) (xk : Vec Ideal S1x1024x64 .bf16)
    (hx0 : ∀ r h, x0 (ix3 0 r h) = Q b (qpos i1 hi4 r) h) (hk : ∀ c h, xk (ix3 0 c h) = K b (hi c) h) (r : Fin 512) :
    (fun c : Fin 1024 => k1_pay8 (F := Ideal) (BitVec.ofNat 32 i1) (BitVec.ofNat 32 1) x0 xk (ix2 r c))
      = fun c => energy Cert.Attn.sc Q K b (qpos i1 hi4 r) (hi c) := by
  funext c
  rw [pay8_at i1 1 hi4 (by omega) x0 xk r c, energy]
  refine if_congr ?_ ?_ rfl
  · show 1 * 1024 + c.val ≤ i1 * 512 + r.val ↔ 1024 + c.val ≤ i1 * 512 + r.val
    omega
  · congr 1
    exact Finset.sum_congr rfl fun h _ => by rw [hx0, hk]

/-- The state after the first key block, read at row `r` and column `h`: one `stepE` from `(-∞, 0, 0)`. -/
theorem state_lo (i1 : ℕ) (hi4 : i1 < 4) (Q K V : Fin 8 → Fin 2048 → Fin 64 → EReal) (b : Fin 8)
    (x0 : Vec Ideal S1x512x64 .bf16) (xk_lo xv_lo : Vec Ideal S1x1024x64 .bf16)
    (hx0 : ∀ r h, x0 (ix3 0 r h) = Q b (qpos i1 hi4 r) h)
    (hklo : ∀ c h, xk_lo (ix3 0 c h) = K b (lo c) h) (hvlo : ∀ c h, xv_lo (ix3 0 c h) = V b (lo c) h)
    (r : Fin 512) (h : Fin 64) :
    (stepM (BitVec.ofNat 32 i1) (BitVec.ofNat 32 0) x0 xk_lo (k1_pay1 (F := Ideal)) (ix2 r 0),
      stepL (BitVec.ofNat 32 i1) (BitVec.ofNat 32 0) x0 xk_lo (k1_pay1 (F := Ideal)) (k1_pay2 (F := Ideal)) (ix2 r 0),
      stepA (BitVec.ofNat 32 i1) (BitVec.ofNat 32 0) x0 xk_lo xv_lo (k1_pay1 (F := Ideal)) (k1_pay3 (F := Ideal)) (ix2 r h))
      = stepE (fun c => energy Cert.Attn.sc Q K b (qpos i1 hi4 r) (lo c)) (fun c => V b (lo c) h) (⊥, 0, 0) := by
  have hs := step_at (BitVec.ofNat 32 i1) (BitVec.ofNat 32 0) x0 xk_lo xv_lo (k1_pay1 (F := Ideal)) (k1_pay2 (F := Ideal)) (k1_pay3 (F := Ideal)) r h
  obtain ⟨e1, e2, e3⟩ := init_at r h
  rw [e1, e2, e3, tile_lo i1 hi4 Q K b x0 xk_lo hx0 hklo r,
    (funext fun c => hvlo c h : (fun c : Fin 1024 => xv_lo (ix3 0 c h)) = fun c => V b (lo c) h)] at hs
  exact hs

/-- The state after the second key block, read at row `r` and column `h`: two `stepE` from `(-∞, 0, 0)`. -/
theorem state_hi (i1 : ℕ) (hi4 : i1 < 4) (Q K V : Fin 8 → Fin 2048 → Fin 64 → EReal) (b : Fin 8)
    (x0 : Vec Ideal S1x512x64 .bf16) (xk_lo xv_lo xk_hi xv_hi : Vec Ideal S1x1024x64 .bf16)
    (hx0 : ∀ r h, x0 (ix3 0 r h) = Q b (qpos i1 hi4 r) h)
    (hklo : ∀ c h, xk_lo (ix3 0 c h) = K b (lo c) h) (hvlo : ∀ c h, xv_lo (ix3 0 c h) = V b (lo c) h)
    (hkhi : ∀ c h, xk_hi (ix3 0 c h) = K b (hi c) h) (hvhi : ∀ c h, xv_hi (ix3 0 c h) = V b (hi c) h)
    (r : Fin 512) (h : Fin 64) :
    (stepM (BitVec.ofNat 32 i1) (BitVec.ofNat 32 1) x0 xk_hi (stepM (BitVec.ofNat 32 i1) (BitVec.ofNat 32 0) x0 xk_lo (k1_pay1 (F := Ideal))) (ix2 r 0),
      stepL (BitVec.ofNat 32 i1) (BitVec.ofNat 32 1) x0 xk_hi (stepM (BitVec.ofNat 32 i1) (BitVec.ofNat 32 0) x0 xk_lo (k1_pay1 (F := Ideal)))
        (stepL (BitVec.ofNat 32 i1) (BitVec.ofNat 32 0) x0 xk_lo (k1_pay1 (F := Ideal)) (k1_pay2 (F := Ideal))) (ix2 r 0),
      stepA (BitVec.ofNat 32 i1) (BitVec.ofNat 32 1) x0 xk_hi xv_hi (stepM (BitVec.ofNat 32 i1) (BitVec.ofNat 32 0) x0 xk_lo (k1_pay1 (F := Ideal)))
        (stepA (BitVec.ofNat 32 i1) (BitVec.ofNat 32 0) x0 xk_lo xv_lo (k1_pay1 (F := Ideal)) (k1_pay3 (F := Ideal))) (ix2 r h))
      = stepE (fun c => energy Cert.Attn.sc Q K b (qpos i1 hi4 r) (hi c)) (fun c => V b (hi c) h)
          (stepE (fun c => energy Cert.Attn.sc Q K b (qpos i1 hi4 r) (lo c)) (fun c => V b (lo c) h) (⊥, 0, 0)) := by
  have hs := step_at (BitVec.ofNat 32 i1) (BitVec.ofNat 32 1) x0 xk_hi xv_hi
    (stepM (BitVec.ofNat 32 i1) (BitVec.ofNat 32 0) x0 xk_lo (k1_pay1 (F := Ideal)))
    (stepL (BitVec.ofNat 32 i1) (BitVec.ofNat 32 0) x0 xk_lo (k1_pay1 (F := Ideal)) (k1_pay2 (F := Ideal)))
    (stepA (BitVec.ofNat 32 i1) (BitVec.ofNat 32 0) x0 xk_lo xv_lo (k1_pay1 (F := Ideal)) (k1_pay3 (F := Ideal))) r h
  rw [state_lo i1 hi4 Q K V b x0 xk_lo xv_lo hx0 hklo hvlo r h, tile_hi i1 hi4 Q K b x0 xk_hi hx0 hkhi r,
    (funext fun c => hvhi c h : (fun c : Fin 1024 => xv_hi (ix3 0 c h)) = fun c => V b (hi c) h)] at hs
  exact hs

/-- A query block among the first 1024 keys (`i1 < 2`): what is written after the first key block alone is
    the row's one-pass sum. -/
theorem out_dead (i1 : ℕ) (hi1 : i1 < 2) (Q K V : Fin 8 → Fin 2048 → Fin 64 → EReal)
    (hQ : ∀ b t h, ∃ r : ℝ, Q b t h = (r : EReal)) (hK : ∀ b t h, ∃ r : ℝ, K b t h = (r : EReal))
    (hV : ∀ b t h, ∃ r : ℝ, V b t h = (r : EReal)) (b : Fin 8)
    (x0 : Vec Ideal S1x512x64 .bf16) (xk_lo xv_lo : Vec Ideal S1x1024x64 .bf16)
    (hx0 : ∀ r h, x0 (ix3 0 r h) = Q b (qpos i1 (by omega) r) h)
    (hklo : ∀ c h, xk_lo (ix3 0 c h) = K b (lo c) h) (hvlo : ∀ c h, xv_lo (ix3 0 c h) = V b (lo c) h)
    (r : Fin 512) (h : Fin 64) :
    k1_pay6 (F := Ideal) (stepA (BitVec.ofNat 32 i1) (BitVec.ofNat 32 0) x0 xk_lo xv_lo (k1_pay1 (F := Ideal)) (k1_pay3 (F := Ideal)))
        (stepL (BitVec.ofNat 32 i1) (BitVec.ofNat 32 0) x0 xk_lo (k1_pay1 (F := Ideal)) (k1_pay2 (F := Ideal))) (ix3 0 r h)
      = softmaxRow (energy Cert.Attn.sc Q K b (qpos i1 (by omega) r)) (fun s => V b s h) := by
  have hs := state_lo i1 (by omega) Q K V b x0 xk_lo xv_lo hx0 hklo hvlo r h
  have ht : (qpos i1 (by omega) r).val < 1024 := by
    have := r.isLt
    show i1 * 512 + r.val < 1024
    omega
  rw [out_at, ← row_one Cert.Attn.sc sc_real Q K V hQ hK hV b (qpos i1 (by omega) r) h ht, ← hs]

/-- A later query block (`2 ≤ i1`): what is written after both key blocks is the row's one-pass sum. -/
theorem out_live (i1 : ℕ) (hi1 : 2 ≤ i1) (hi4 : i1 < 4) (Q K V : Fin 8 → Fin 2048 → Fin 64 → EReal)
    (hQ : ∀ b t h, ∃ r : ℝ, Q b t h = (r : EReal)) (hK : ∀ b t h, ∃ r : ℝ, K b t h = (r : EReal))
    (hV : ∀ b t h, ∃ r : ℝ, V b t h = (r : EReal)) (b : Fin 8)
    (x0 : Vec Ideal S1x512x64 .bf16) (xk_lo xv_lo xk_hi xv_hi : Vec Ideal S1x1024x64 .bf16)
    (hx0 : ∀ r h, x0 (ix3 0 r h) = Q b (qpos i1 hi4 r) h)
    (hklo : ∀ c h, xk_lo (ix3 0 c h) = K b (lo c) h) (hvlo : ∀ c h, xv_lo (ix3 0 c h) = V b (lo c) h)
    (hkhi : ∀ c h, xk_hi (ix3 0 c h) = K b (hi c) h) (hvhi : ∀ c h, xv_hi (ix3 0 c h) = V b (hi c) h)
    (r : Fin 512) (h : Fin 64) :
    k1_pay6 (F := Ideal)
        (stepA (BitVec.ofNat 32 i1) (BitVec.ofNat 32 1) x0 xk_hi xv_hi (stepM (BitVec.ofNat 32 i1) (BitVec.ofNat 32 0) x0 xk_lo (k1_pay1 (F := Ideal)))
          (stepA (BitVec.ofNat 32 i1) (BitVec.ofNat 32 0) x0 xk_lo xv_lo (k1_pay1 (F := Ideal)) (k1_pay3 (F := Ideal))))
        (stepL (BitVec.ofNat 32 i1) (BitVec.ofNat 32 1) x0 xk_hi (stepM (BitVec.ofNat 32 i1) (BitVec.ofNat 32 0) x0 xk_lo (k1_pay1 (F := Ideal)))
          (stepL (BitVec.ofNat 32 i1) (BitVec.ofNat 32 0) x0 xk_lo (k1_pay1 (F := Ideal)) (k1_pay2 (F := Ideal)))) (ix3 0 r h)
      = softmaxRow (energy Cert.Attn.sc Q K b (qpos i1 hi4 r)) (fun s => V b s h) := by
  have hs := state_hi i1 hi4 Q K V b x0 xk_lo xv_lo xk_hi xv_hi hx0 hklo hvlo hkhi hvhi r h
  rw [out_at, ← row_two Cert.Attn.sc sc_real Q K V hQ hK hV b (qpos i1 hi4 r) h, ← hs]

end Cert.Attn.Pay

end
-- ==== Proof.AttnOutRow.lean ====
import proofs.«133872_j34866544509086_2_alg».proof.Proof.AttnDatI
import proofs.«133872_j34866544509086_2_alg».proof.Proof.AttnKernelRow

/-!
  What a write-out point of the attention region leaves in the output block, read at one row: the row's
  one-pass masked softmax-weighted sum.

  A write-out point `t` is odd; the point before it, `prevPt t`, has the same batch and query block and the first
  key block. The state after `t` is one tile step from the reset state at `prevPt t` and, where the second key
  block is causally live, one more at `t`. With the blocks the two points read given as rows of real arrays
  `Q, K, Vv` and the two grid coordinates given as words, the written quotient is `out_dead` / `out_live` at
  those blocks. The per-point laws are stated over arbitrary blocks (`out_dead_at`, `out_live_at`) and then
  read at the region's blocks.
-/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Attn (energy softmaxRow lo hi)
open Cert.Attn.Pay (qpos out_dead out_live)

/-! ## Over variables -/

/-- A query block is determined by its reads at `(0, r, h)`. -/
theorem qblk_ext (x y : Vec Ideal S1x512x64 .bf16) (f : Fin 512 → Fin 64 → EReal)
    (hx : ∀ r h, x (ix3 0 r h) = f r h) (hy : ∀ r h, y (ix3 0 r h) = f r h) : x = y := by
  funext j
  obtain ⟨a, r, h, rfl⟩ : ∃ (a : Fin 1) (r : Fin 512) (h : Fin 64), j = ix3 a r h := ⟨_, _, _, eq_ix3 j⟩
  obtain rfl := Fin.eq_zero a
  rw [hx, hy]

/-- The query block index of a point is below 4. -/
theorem qb_lt (n : ℕ) : (n / 2) % 4 < 4 := Nat.mod_lt _ (by decide)

/-- `out_dead` with the two grid coordinates as words known by equations. -/
theorem out_dead_at (i1 : ℕ) (hi1 : i1 < 2) (Q K Vv : Fin 8 → Fin 2048 → Fin 64 → EReal)
    (hQ : ∀ b t h, ∃ r : ℝ, Q b t h = (r : EReal)) (hK : ∀ b t h, ∃ r : ℝ, K b t h = (r : EReal))
    (hV : ∀ b t h, ∃ r : ℝ, Vv b t h = (r : EReal)) (b : Fin 8)
    (aI aJ : BitVec 32) (hI : aI = BitVec.ofNat 32 i1) (hJ : aJ = BitVec.ofNat 32 0)
    (x0 : Vec Ideal S1x512x64 .bf16) (xk_lo xv_lo : Vec Ideal S1x1024x64 .bf16)
    (hx0 : ∀ r h, x0 (ix3 0 r h) = Q b (qpos i1 (by omega) r) h)
    (hklo : ∀ k h, xk_lo (ix3 0 k h) = K b (lo k) h) (hvlo : ∀ k h, xv_lo (ix3 0 k h) = Vv b (lo k) h)
    (r : Fin 512) (h : Fin 64) :
    k1_pay6 (F := Ideal) (stepA aI aJ x0 xk_lo xv_lo (k1_pay1 (F := Ideal)) (k1_pay3 (F := Ideal)))
        (stepL aI aJ x0 xk_lo (k1_pay1 (F := Ideal)) (k1_pay2 (F := Ideal))) (ix3 0 r h)
      = softmaxRow (energy Cert.Attn.sc Q K b (qpos i1 (by omega) r)) (fun s => Vv b s h) := by
  subst hI hJ
  exact out_dead i1 hi1 Q K Vv hQ hK hV b x0 xk_lo xv_lo hx0 hklo hvlo r h

/-- `out_live` with the four grid coordinates as words known by equations, and the query block read twice. -/
theorem out_live_at (i1 : ℕ) (hi1 : 2 ≤ i1) (hi4 : i1 < 4) (Q K Vv : Fin 8 → Fin 2048 → Fin 64 → EReal)
    (hQ : ∀ b t h, ∃ r : ℝ, Q b t h = (r : EReal)) (hK : ∀ b t h, ∃ r : ℝ, K b t h = (r : EReal))
    (hV : ∀ b t h, ∃ r : ℝ, Vv b t h = (r : EReal)) (b : Fin 8)
    (aIp aJp aIt aJt : BitVec 32) (hIp : aIp = BitVec.ofNat 32 i1) (hJp : aJp = BitVec.ofNat 32 0)
    (hIt : aIt = BitVec.ofNat 32 i1) (hJt : aJt = BitVec.ofNat 32 1)
    (x0p x0t : Vec Ideal S1x512x64 .bf16) (xk_lo xv_lo xk_hi xv_hi : Vec Ideal S1x1024x64 .bf16)
    (hx0p : ∀ r h, x0p (ix3 0 r h) = Q b (qpos i1 hi4 r) h) (hx0t : ∀ r h, x0t (ix3 0 r h) = Q b (qpos i1 hi4 r) h)
    (hklo : ∀ k h, xk_lo (ix3 0 k h) = K b (lo k) h) (hvlo : ∀ k h, xv_lo (ix3 0 k h) = Vv b (lo k) h)
    (hkhi : ∀ k h, xk_hi (ix3 0 k h) = K b (hi k) h) (hvhi : ∀ k h, xv_hi (ix3 0 k h) = Vv b (hi k) h)
    (r : Fin 512) (h : Fin 64) :
    k1_pay6 (F := Ideal)
        (stepA aIt aJt x0t xk_hi xv_hi (stepM aIp aJp x0p xk_lo (k1_pay1 (F := Ideal)))
          (stepA aIp aJp x0p xk_lo xv_lo (k1_pay1 (F := Ideal)) (k1_pay3 (F := Ideal))))
        (stepL aIt aJt x0t xk_hi (stepM aIp aJp x0p xk_lo (k1_pay1 (F := Ideal)))
          (stepL aIp aJp x0p xk_lo (k1_pay1 (F := Ideal)) (k1_pay2 (F := Ideal)))) (ix3 0 r h)
      = softmaxRow (energy Cert.Attn.sc Q K b (qpos i1 hi4 r)) (fun s => Vv b s h) := by
  have hx : x0t = x0p := qblk_ext x0t x0p (fun r h => Q b (qpos i1 hi4 r) h) hx0t hx0p
  subst hx hIp hJp hIt hJt
  exact out_live i1 hi1 hi4 Q K Vv hQ hK hV b _ xk_lo xv_lo xk_hi xv_hi hx0p hklo hvlo hkhi hvhi r h

/-! ## At the region's blocks -/

section Region
variable (V : (c : Dev nD) → (b : Ref sig .tc) → Buf (Elt Ideal) ((c : Thread nD τ).loc b))

/-- The point before `t`. -/
abbrev prevPt (t : Fin cfg1.N) : Fin cfg1.N := ⟨t.val - 1, Nat.lt_of_le_of_lt (Nat.sub_le _ _) t.isLt⟩

/-- A write-out point whose second key block is causally dead (query block `< 2`). -/
theorem outAt_dead (c : Dev nD) (t : Fin cfg1.N) (ht : t.val % 2 = 1) (h1 : ¬2 ≤ (t.val / 2) % 4)
    (Q K Vv : Fin 8 → Fin 2048 → Fin 64 → EReal)
    (hQ : ∀ b t h, ∃ r : ℝ, Q b t h = (r : EReal)) (hK : ∀ b t h, ∃ r : ℝ, K b t h = (r : EReal))
    (hV : ∀ b t h, ∃ r : ℝ, Vv b t h = (r : EReal)) (b : Fin 8)
    (hIp : cI (grid1.coords (prevPt t)) = BitVec.ofNat 32 ((t.val / 2) % 4))
    (hJp : cJ (grid1.coords (prevPt t)) = BitVec.ofNat 32 0)
    (hx0p : ∀ r h, (iblk1 V c 0 (prevPt t) : Vec Ideal S1x512x64 .bf16) (ix3 0 r h) = Q b (qpos ((t.val / 2) % 4) (qb_lt t.val) r) h)
    (hklo : ∀ k h, (iblk1 V c 1 (prevPt t) : Vec Ideal S1x1024x64 .bf16) (ix3 0 k h) = K b (lo k) h)
    (hvlo : ∀ k h, (iblk1 V c 2 (prevPt t) : Vec Ideal S1x1024x64 .bf16) (ix3 0 k h) = Vv b (lo k) h)
    (r : Fin 512) (h : Fin 64) :
    outAt (F := Ideal) V c t (ix3 0 r h)
      = softmaxRow (energy Cert.Attn.sc Q K b (qpos ((t.val / 2) % 4) (qb_lt t.val) r)) (fun s => Vv b s h) := by
  have h0 : ¬t.val % 2 = 0 := by omega
  unfold outAt
  rw [stateAt_dead V c t h0 h1, stateAt_prev V c t h0]
  exact out_dead_at ((t.val / 2) % 4) (by omega) Q K Vv hQ hK hV b
    (cI (grid1.coords (prevPt t))) (cJ (grid1.coords (prevPt t))) hIp hJp
    (iblk1 V c 0 (prevPt t)) (iblk1 V c 1 (prevPt t)) (iblk1 V c 2 (prevPt t)) hx0p hklo hvlo r h

/-- A write-out point whose second key block is causally live (query block `≥ 2`). -/
theorem outAt_live (c : Dev nD) (t : Fin cfg1.N) (ht : t.val % 2 = 1) (h1 : 2 ≤ (t.val / 2) % 4)
    (Q K Vv : Fin 8 → Fin 2048 → Fin 64 → EReal)
    (hQ : ∀ b t h, ∃ r : ℝ, Q b t h = (r : EReal)) (hK : ∀ b t h, ∃ r : ℝ, K b t h = (r : EReal))
    (hV : ∀ b t h, ∃ r : ℝ, Vv b t h = (r : EReal)) (b : Fin 8)
    (hIt : cI (grid1.coords t) = BitVec.ofNat 32 ((t.val / 2) % 4)) (hJt : cJ (grid1.coords t) = BitVec.ofNat 32 1)
    (hIp : cI (grid1.coords (prevPt t)) = BitVec.ofNat 32 ((t.val / 2) % 4))
    (hJp : cJ (grid1.coords (prevPt t)) = BitVec.ofNat 32 0)
    (hx0p : ∀ r h, (iblk1 V c 0 (prevPt t) : Vec Ideal S1x512x64 .bf16) (ix3 0 r h) = Q b (qpos ((t.val / 2) % 4) (qb_lt t.val) r) h)
    (hx0t : ∀ r h, (iblk1 V c 0 t : Vec Ideal S1x512x64 .bf16) (ix3 0 r h) = Q b (qpos ((t.val / 2) % 4) (qb_lt t.val) r) h)
    (hklo : ∀ k h, (iblk1 V c 1 (prevPt t) : Vec Ideal S1x1024x64 .bf16) (ix3 0 k h) = K b (lo k) h)
    (hvlo : ∀ k h, (iblk1 V c 2 (prevPt t) : Vec Ideal S1x1024x64 .bf16) (ix3 0 k h) = Vv b (lo k) h)
    (hkhi : ∀ k h, (iblk1 V c 1 t : Vec Ideal S1x1024x64 .bf16) (ix3 0 k h) = K b (hi k) h)
    (hvhi : ∀ k h, (iblk1 V c 2 t : Vec Ideal S1x1024x64 .bf16) (ix3 0 k h) = Vv b (hi k) h)
    (r : Fin 512) (h : Fin 64) :
    outAt (F := Ideal) V c t (ix3 0 r h)
      = softmaxRow (energy Cert.Attn.sc Q K b (qpos ((t.val / 2) % 4) (qb_lt t.val) r)) (fun s => Vv b s h) := by
  have h0 : ¬t.val % 2 = 0 := by omega
  unfold outAt
  rw [stateAt_live V c t h0 h1, stateAt_prev V c t h0]
  exact out_live_at ((t.val / 2) % 4) h1 (qb_lt t.val) Q K Vv hQ hK hV b
    (cI (grid1.coords (prevPt t))) (cJ (grid1.coords (prevPt t))) (cI (grid1.coords t)) (cJ (grid1.coords t))
    hIp hJp hIt hJt
    (iblk1 V c 0 (prevPt t)) (iblk1 V c 0 t) (iblk1 V c 1 (prevPt t)) (iblk1 V c 2 (prevPt t))
    (iblk1 V c 1 t) (iblk1 V c 2 t) hx0p hx0t hklo hvlo hkhi hvhi r h

end Region

end Cert.KernelIdeal.Hand

end
-- ==== Proof.AttnValueI.lean ====
import proofs.«133872_j34866544509086_2_alg».proof.Proof.AttnDatI
import proofs.«133872_j34866544509086_2_alg».proof.Proof.AttnArr
import proofs.«133872_j34866544509086_2_alg».proof.Proof.AttnOutRow
import Idealize.ShloMosaic.Lib.Pipeline.Value
import Idealize.ShloMosaic.Lib.ValueIdx

/-!
  The value of the attention region on the extended reals.

  The region's grid is 8 x 4 x 2: batch `b`, query block `i` of 512 rows, key block `j` of 1024 rows, and
  its points are numbered `t = (b * 4 + i) * 2 + j`. The output window's block at point `t` is rows
  `i * 512 … i * 512 + 511` of batch `b`, and it is written back at the odd points only. What an odd point
  writes is the quotient `acc / l` of the running state after it, and that state is one tile step from the
  reset state over the first 1024 keys, followed — where the second key block is causally live, `2 ≤ i` — by
  one more over the last 1024 keys. Row by row this is the one-pass softmax-weighted sum of the row's masked
  energies against the values; the odd points' blocks tile the output array, so the array ends holding that
  function of the three arrays the region reads.
-/

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal.Gen
open scoped BigOperators

variable (V : (c : Dev nD) → (b : Ref sig .tc) → Buf (Elt Ideal) ((c : Thread nD τ).loc b))

/-! ## The grid's coordinates and index maps -/

/-- The grid point `t` is batch `t / 8`, query block `t / 2 % 4`, key block `t % 2`. -/
theorem coords_facts1 : ∀ t : Fin cfg1.N,
    ((grid1.coords t) 0).val = t.val / 8 ∧ ((grid1.coords t) 1).val = t.val / 2 % 4 ∧ ((grid1.coords t) 2).val = t.val % 2 :=
  (by decide +kernel : ∀ t : Fin grid1.N, _)

/-- The printed index maps, decided over the 64 grid points: the query block and the output block are block
    `t / 2 % 4` of batch `t / 8`; the key and value blocks are block 0 at an even point and block 1 at an odd
    point whose query block is one of the last two. -/
theorem idx_facts1 : ∀ t : Fin cfg1.N,
    (win1_0.index t (0 : Fin 3) = t.val / 8 ∧ win1_0.index t (1 : Fin 3) = t.val / 2 % 4 ∧ win1_0.index t (2 : Fin 3) = 0)
    ∧ (win1_1.index t (0 : Fin 3) = t.val / 8 ∧ (t.val % 2 = 0 → win1_1.index t (1 : Fin 3) = 0)
        ∧ (t.val % 2 = 1 → 2 ≤ t.val / 2 % 4 → win1_1.index t (1 : Fin 3) = 1) ∧ win1_1.index t (2 : Fin 3) = 0)
    ∧ (win1_2.index t (0 : Fin 3) = t.val / 8 ∧ (t.val % 2 = 0 → win1_2.index t (1 : Fin 3) = 0)
        ∧ (t.val % 2 = 1 → 2 ≤ t.val / 2 % 4 → win1_2.index t (1 : Fin 3) = 1) ∧ win1_2.index t (2 : Fin 3) = 0)
    ∧ (win1_3.index t (0 : Fin 3) = t.val / 8 ∧ win1_3.index t (1 : Fin 3) = t.val / 2 % 4 ∧ win1_3.index t (2 : Fin 3) = 0) :=
  (by decide +kernel : ∀ t : Fin grid1.N, _)

/-- The two grid coordinates the body reads, as words of the point's number. -/
theorem cI_eq (t : Fin cfg1.N) : cI (grid1.coords t) = BitVec.ofNat 32 (t.val / 2 % 4) := by
  show BitVec.ofNat 32 ((grid1.coords t) 1).val = _
  rw [(coords_facts1 t).2.1]
theorem cJ_eq (t : Fin cfg1.N) : cJ (grid1.coords t) = BitVec.ofNat 32 (t.val % 2) := by
  show BitVec.ofNat 32 ((grid1.coords t) 2).val = _
  rw [(coords_facts1 t).2.2]

/-! ## The input blocks as parts of their arrays -/

/-- The batch of point `t`, and the query position of row `r` of its query block. -/
abbrev batchOf (t : Fin cfg1.N) : Fin 8 :=
  ⟨t.val / 8, by have h : t.val < 64 := lt_of_lt_of_eq t.isLt (show cfg1.N = 64 from N_1); omega⟩
abbrev qrowOf (t : Fin cfg1.N) (r : Fin 512) : Fin 2048 :=
  ⟨t.val / 2 % 4 * 512 + r.val, by have := r.isLt; omega⟩

/-- The query block at point `t`, at an index `y` of the block, is the query array at batch `t / 8`, row
    `(t / 2 % 4) * 512 + y 1`, column `y 2`. -/
theorem iblkQ_apply (c : Dev nD) (t : Fin cfg1.N) (y : S1x512x64.Idx) (i : S8x2048x64.Idx)
    (h0 : (i 0).val = t.val / 8) (h1 : (i 1).val = t.val / 2 % 4 * 512 + (y 1).val) (h2 : (i 2).val = (y 2).val) :
    iblk1 V c 0 t y = (V c main_v0_0 : S8x2048x64.Idx → EReal) i := by
  obtain ⟨⟨a0, a1, a2⟩, -⟩ := idx_facts1 t
  have hy0 : (y 0).val < 1 := (y 0).isLt
  unfold iblk1
  rw [View.read_apply]
  show V c main_v0_0 (((cfg1.win 0).blk t).view.emb y) = V c main_v0_0 i
  congr 1
  funext a
  apply Fin.ext
  match a with
  | ⟨0, _⟩ => show win1_0.index t (0 : Fin 3) * 1 + 1 * (y 0).val = (i 0).val; omega
  | ⟨1, _⟩ => show win1_0.index t (1 : Fin 3) * 512 + 1 * (y 1).val = (i 1).val; omega
  | ⟨2, _⟩ => show win1_0.index t (2 : Fin 3) * 64 + 1 * (y 2).val = (i 2).val; omega

/-- The key block at point `t`, whose block index along the keys is `kb`, at an index `y` of the block, is the key
    array at batch `t / 8`, row `kb * 1024 + y 1`, column `y 2`. -/
theorem iblkK_apply (c : Dev nD) (t : Fin cfg1.N) (kb : ℕ) (hkb : win1_1.index t (1 : Fin 3) = kb) (y : S1x1024x64.Idx)
    (i : S8x2048x64.Idx) (h0 : (i 0).val = t.val / 8) (h1 : (i 1).val = kb * 1024 + (y 1).val) (h2 : (i 2).val = (y 2).val) :
    iblk1 V c 1 t y = (V c main_v0_1 : S8x2048x64.Idx → EReal) i := by
  obtain ⟨-, ⟨a0, -, -, a2⟩, -⟩ := idx_facts1 t
  have hy0 : (y 0).val < 1 := (y 0).isLt
  unfold iblk1
  rw [View.read_apply]
  show V c main_v0_1 (((cfg1.win 1).blk t).view.emb y) = V c main_v0_1 i
  congr 1
  funext a
  apply Fin.ext
  match a with
  | ⟨0, _⟩ => show win1_1.index t (0 : Fin 3) * 1 + 1 * (y 0).val = (i 0).val; omega
  | ⟨1, _⟩ => show win1_1.index t (1 : Fin 3) * 1024 + 1 * (y 1).val = (i 1).val; omega
  | ⟨2, _⟩ => show win1_1.index t (2 : Fin 3) * 64 + 1 * (y 2).val = (i 2).val; omega

/-- The value block, likewise. -/
theorem iblkV_apply (c : Dev nD) (t : Fin cfg1.N) (kb : ℕ) (hkb : win1_2.index t (1 : Fin 3) = kb) (y : S1x1024x64.Idx)
    (i : S8x2048x64.Idx) (h0 : (i 0).val = t.val / 8) (h1 : (i 1).val = kb * 1024 + (y 1).val) (h2 : (i 2).val = (y 2).val) :
    iblk1 V c 2 t y = (V c main_v0_2 : S8x2048x64.Idx → EReal) i := by
  obtain ⟨-, -, ⟨a0, -, -, a2⟩, -⟩ := idx_facts1 t
  have hy0 : (y 0).val < 1 := (y 0).isLt
  unfold iblk1
  rw [View.read_apply]
  show V c main_v0_2 (((cfg1.win 2).blk t).view.emb y) = V c main_v0_2 i
  congr 1
  funext a
  apply Fin.ext
  match a with
  | ⟨0, _⟩ => show win1_2.index t (0 : Fin 3) * 1 + 1 * (y 0).val = (i 0).val; omega
  | ⟨1, _⟩ => show win1_2.index t (1 : Fin 3) * 1024 + 1 * (y 1).val = (i 1).val; omega
  | ⟨2, _⟩ => show win1_2.index t (2 : Fin 3) * 64 + 1 * (y 2).val = (i 2).val; omega

/-! ## The output array's function, and what each odd point writes back -/

/-- Attention on the three arrays the region reads, index by index: at `(b, t, h)` the one-pass softmax-weighted
    sum of row `t`'s masked energies against column `h` of the values. -/
def attnArr (Qa Ka Va : S8x2048x64.Idx → EReal) : S8x2048x64.Idx → EReal :=
  fun i => Cert.Attn.softmaxRow
    (Cert.Attn.energy Cert.Attn.sc (fun b t h => Qa (ix3 b t h)) (fun b t h => Ka (ix3 b t h)) (i 0) (i 1))
    (fun s => Va (ix3 (i 0) s (i 2)))

theorem attnArr_apply (Qa Ka Va : S8x2048x64.Idx → EReal) (b : Fin 8) (t : Fin 2048) (h : Fin 64) :
    attnArr Qa Ka Va (ix3 b t h) = Cert.Attn.softmaxRow
      (Cert.Attn.energy Cert.Attn.sc (fun b t h => Qa (ix3 b t h)) (fun b t h => Ka (ix3 b t h)) b t)
      (fun s => Va (ix3 b s h)) := rfl

/-- What an odd point leaves in the output block, row by row: the attention of the row's query position. -/
def RowSpec (c : Dev nD) : Prop :=
  ∀ (t : Fin cfg1.N), t.val % 2 = 1 → ∀ (r : Fin 512) (h : Fin 64),
    outAt (F := Ideal) V c t (ix3 0 r h)
      = Cert.Attn.softmaxRow
          (Cert.Attn.energy Cert.Attn.sc (fun b t h => (V c main_v0_0 : S8x2048x64.Idx → EReal) (ix3 b t h))
            (fun b t h => (V c main_v0_1 : S8x2048x64.Idx → EReal) (ix3 b t h)) (batchOf t) (qrowOf t r))
          (fun s => (V c main_v0_2 : S8x2048x64.Idx → EReal) (ix3 (batchOf t) s h))

/-- An index of an output block has first coordinate zero. -/
theorem blkIdx1_eq (j : S1x512x64.Idx) : j = ix3 (0 : Fin 1) (j 1) (j 2) := by
  have h0 : (j 0).val < 1 := (j 0).isLt
  funext a
  match a with
  | ⟨0, _⟩ => exact Fin.ext (by show (j 0).val = 0; omega)
  | ⟨1, _⟩ => rfl
  | ⟨2, _⟩ => rfl

/-- A point that writes back writes its block of the attention of the three arrays. -/
theorem flushed_eq_of (c : Dev nD) (hrow : RowSpec V c) (t : Fin cfg1.N) (hf : (cfg1.win 3).flush t = true) :
    (dat1 V c).flushed 3 t
      = ((cfg1.win 3).blk t).view.read (Elt Ideal) (attnArr (V c main_v0_0) (V c main_v0_1) (V c main_v0_2)) := by
  have ht : t.val % 2 = 1 := (flush1_3 t).mp hf
  show (cfg1.win 3).cut (grid1.coords t) ((dat1 V c).after 3 t) = _
  rw [after1_3]
  obtain ⟨-, -, -, ⟨q0, q1, q2⟩⟩ := idx_facts1 t
  funext j
  obtain ⟨r, h, rfl⟩ : ∃ (r : Fin 512) (h : Fin 64), j = ix3 (0 : Fin 1) r h := ⟨j 1, j 2, blkIdx1_eq j⟩
  show outAt V c t (ix3 (0 : Fin 1) r h)
    = attnArr (V c main_v0_0) (V c main_v0_1) (V c main_v0_2) (((cfg1.win 3).blk t).view.emb (ix3 (0 : Fin 1) r h))
  have he : ((cfg1.win 3).blk t).view.emb (ix3 (0 : Fin 1) r h) = ix3 (batchOf t) (qrowOf t r) h := by
    funext a
    apply Fin.ext
    match a with
    | ⟨0, _⟩ => show win1_3.index t (0 : Fin 3) * 1 + 1 * 0 = t.val / 8; omega
    | ⟨1, _⟩ => show win1_3.index t (1 : Fin 3) * 512 + 1 * r.val = t.val / 2 % 4 * 512 + r.val; omega
    | ⟨2, _⟩ => show win1_3.index t (2 : Fin 3) * 64 + 1 * h.val = h.val; omega
  rw [he]
  exact hrow t ht r h

/-! ## The odd points' blocks tile the output array -/

/-- An index of the output array is in point `t`'s block iff each coordinate is in the block's range. -/
theorem mem_blkOut1 (t : Fin cfg1.N) (i : S8x2048x64.Idx) :
    i ∈ ((cfg1.win 3).blk t).view.set ↔ ∀ a : Fin 3, win1_3.index t a * S1x512x64.size a ≤ (i a).val ∧ (i a).val < win1_3.index t a * S1x512x64.size a + S1x512x64.size a := by
  show i ∈ ((View.whole main_v1).slice (win1_3.rect t)).set ↔ _
  rw [View.set_slice_whole, Rect.mem_set_unit]
  exact Iff.rfl

/-- The point that writes row `(b, r)`: `(b * 4 + r / 512) * 2 + 1`. -/
def pointOf1 (i : S8x2048x64.Idx) : Fin cfg1.N :=
  ⟨((i 0).val * 4 + (i 1).val / 512) * 2 + 1, by
    have h0 : (i 0).val < 8 := (i 0).isLt
    have h1 : (i 1).val < 2048 := (i 1).isLt
    rw [show cfg1.N = 64 from N_1]; omega⟩

theorem pointOf1_val (i : S8x2048x64.Idx) : (pointOf1 i).val = ((i 0).val * 4 + (i 1).val / 512) * 2 + 1 := rfl

/-- Every index of the output array is in the block of a point that writes back. -/
theorem coverOut1 (i : S8x2048x64.Idx) : ∃ t : Fin cfg1.N, (cfg1.win 3).flush t = true ∧ i ∈ ((cfg1.win 3).blk t).view.set := by
  have h0 : (i 0).val < 8 := (i 0).isLt
  have h1 : (i 1).val < 2048 := (i 1).isLt
  have h2 : (i 2).val < 64 := (i 2).isLt
  have ht := pointOf1_val i
  refine ⟨pointOf1 i, (flush1_3 _).mpr (by omega), ?_⟩
  rw [mem_blkOut1]
  obtain ⟨-, -, -, ⟨q0, q1, q2⟩⟩ := idx_facts1 (pointOf1 i)
  intro a
  match a with
  | ⟨0, _⟩ => show win1_3.index (pointOf1 i) (0 : Fin 3) * 1 ≤ (i 0).val ∧ (i 0).val < win1_3.index (pointOf1 i) (0 : Fin 3) * 1 + 1; omega
  | ⟨1, _⟩ => show win1_3.index (pointOf1 i) (1 : Fin 3) * 512 ≤ (i 1).val ∧ (i 1).val < win1_3.index (pointOf1 i) (1 : Fin 3) * 512 + 512; omega
  | ⟨2, _⟩ => show win1_3.index (pointOf1 i) (2 : Fin 3) * 64 ≤ (i 2).val ∧ (i 2).val < win1_3.index (pointOf1 i) (2 : Fin 3) * 64 + 64; omega

/-! ## The output array when the region ends -/

/-- The output array ends holding the attention of the three arrays the region reads. -/
theorem out_final_of (c : Dev nD) (hrow : RowSpec V c) :
    (dat1 V c).arrAt 3 cfg1.N = attnArr (V c main_v0_0) (V c main_v0_1) (V c main_v0_2) :=
  (dat1 V c).arrAt_eq_of_cover 3 (attnArr (V c main_v0_0) (V c main_v0_1) (V c main_v0_2))
    (fun t hf => flushed_eq_of V c hrow t hf) coverOut1

/-! ## An odd point's rows -/

/-- What an odd point leaves in the output block: its state is one tile step over the first 1024 keys from the
    reset state (read off the point before, which has the same batch and query block) and, where the query block
    is one of the last two, one more over the last 1024 keys; row by row the written quotient is the attention of
    the row's query position. The three arrays are real at every index. -/
theorem out_row (c : Dev nD)
    (hQ : ∀ i, ∃ r : ℝ, (V c main_v0_0 : S8x2048x64.Idx → EReal) i = (r : EReal))
    (hK : ∀ i, ∃ r : ℝ, (V c main_v0_1 : S8x2048x64.Idx → EReal) i = (r : EReal))
    (hV : ∀ i, ∃ r : ℝ, (V c main_v0_2 : S8x2048x64.Idx → EReal) i = (r : EReal)) : RowSpec V c := by
  intro t ht r h
  have hN : t.val < 64 := lt_of_lt_of_eq t.isLt (show cfg1.N = 64 from N_1)
  have hIt : cI (grid1.coords t) = BitVec.ofNat 32 ((t.val / 2) % 4) := cI_eq t
  have hJt : cJ (grid1.coords t) = BitVec.ofNat 32 1 := by rw [cJ_eq, ht]
  have hIp : cI (grid1.coords (prevPt t)) = BitVec.ofNat 32 ((t.val / 2) % 4) := by
    rw [cI_eq]
    exact congrArg (BitVec.ofNat 32) (by show (t.val - 1) / 2 % 4 = t.val / 2 % 4; omega)
  have hJp : cJ (grid1.coords (prevPt t)) = BitVec.ofNat 32 0 := by
    rw [cJ_eq]
    exact congrArg (BitVec.ofNat 32) (by show (t.val - 1) % 2 = 0; omega)
  have hpe : (prevPt t).val % 2 = 0 := by show (t.val - 1) % 2 = 0; omega
  have hx0p : ∀ (r : Fin 512) (h : Fin 64), (iblk1 V c 0 (prevPt t) : Vec Ideal S1x512x64 .bf16) (ix3 0 r h)
      = (V c main_v0_0 : S8x2048x64.Idx → EReal) (ix3 (batchOf t) (Cert.Attn.Pay.qpos ((t.val / 2) % 4) (qb_lt t.val) r) h) :=
    fun r h => iblkQ_apply V c (prevPt t) (ix3 0 r h) _
      (by show t.val / 8 = (t.val - 1) / 8; omega)
      (by show t.val / 2 % 4 * 512 + r.val = (t.val - 1) / 2 % 4 * 512 + r.val; omega) rfl
  have hx0t : ∀ (r : Fin 512) (h : Fin 64), (iblk1 V c 0 t : Vec Ideal S1x512x64 .bf16) (ix3 0 r h)
      = (V c main_v0_0 : S8x2048x64.Idx → EReal) (ix3 (batchOf t) (Cert.Attn.Pay.qpos ((t.val / 2) % 4) (qb_lt t.val) r) h) :=
    fun r h => iblkQ_apply V c t (ix3 0 r h) _ rfl rfl rfl
  have hklo : ∀ (k : Fin 1024) (h : Fin 64), (iblk1 V c 1 (prevPt t) : Vec Ideal S1x1024x64 .bf16) (ix3 0 k h)
      = (V c main_v0_1 : S8x2048x64.Idx → EReal) (ix3 (batchOf t) (Cert.Attn.lo k) h) :=
    fun k h => iblkK_apply V c (prevPt t) 0 ((idx_facts1 (prevPt t)).2.1.2.1 hpe) (ix3 0 k h) _
      (by show t.val / 8 = (t.val - 1) / 8; omega) (by show k.val = 0 * 1024 + k.val; omega) rfl
  have hvlo : ∀ (k : Fin 1024) (h : Fin 64), (iblk1 V c 2 (prevPt t) : Vec Ideal S1x1024x64 .bf16) (ix3 0 k h)
      = (V c main_v0_2 : S8x2048x64.Idx → EReal) (ix3 (batchOf t) (Cert.Attn.lo k) h) :=
    fun k h => iblkV_apply V c (prevPt t) 0 ((idx_facts1 (prevPt t)).2.2.1.2.1 hpe) (ix3 0 k h) _
      (by show t.val / 8 = (t.val - 1) / 8; omega) (by show k.val = 0 * 1024 + k.val; omega) rfl
  by_cases h1 : 2 ≤ (t.val / 2) % 4
  · have hkhi : ∀ (k : Fin 1024) (h : Fin 64), (iblk1 V c 1 t : Vec Ideal S1x1024x64 .bf16) (ix3 0 k h)
        = (V c main_v0_1 : S8x2048x64.Idx → EReal) (ix3 (batchOf t) (Cert.Attn.hi k) h) :=
      fun k h => iblkK_apply V c t 1 ((idx_facts1 t).2.1.2.2.1 ht h1) (ix3 0 k h) _
        rfl (by show 1024 + k.val = 1 * 1024 + k.val; omega) rfl
    have hvhi : ∀ (k : Fin 1024) (h : Fin 64), (iblk1 V c 2 t : Vec Ideal S1x1024x64 .bf16) (ix3 0 k h)
        = (V c main_v0_2 : S8x2048x64.Idx → EReal) (ix3 (batchOf t) (Cert.Attn.hi k) h) :=
      fun k h => iblkV_apply V c t 1 ((idx_facts1 t).2.2.1.2.2.1 ht h1) (ix3 0 k h) _
        rfl (by show 1024 + k.val = 1 * 1024 + k.val; omega) rfl
    exact outAt_live V c t ht h1
      (fun b t h => (V c main_v0_0 : S8x2048x64.Idx → EReal) (ix3 b t h))
      (fun b t h => (V c main_v0_1 : S8x2048x64.Idx → EReal) (ix3 b t h))
      (fun b t h => (V c main_v0_2 : S8x2048x64.Idx → EReal) (ix3 b t h))
      (fun b t h => hQ (ix3 b t h)) (fun b t h => hK (ix3 b t h)) (fun b t h => hV (ix3 b t h))
      (batchOf t) hIt hJt hIp hJp hx0p hx0t hklo hvlo hkhi hvhi r h
  · exact outAt_dead V c t ht h1
      (fun b t h => (V c main_v0_0 : S8x2048x64.Idx → EReal) (ix3 b t h))
      (fun b t h => (V c main_v0_1 : S8x2048x64.Idx → EReal) (ix3 b t h))
      (fun b t h => (V c main_v0_2 : S8x2048x64.Idx → EReal) (ix3 b t h))
      (fun b t h => hQ (ix3 b t h)) (fun b t h => hK (ix3 b t h)) (fun b t h => hV (ix3 b t h))
      (batchOf t) hIp hJp hx0p hklo hvlo r h

/-- The attention region's output array ends holding the attention of the three arrays it reads, when those are
    real at every index. -/
theorem out_final (c : Dev nD)
    (hQ : ∀ i, ∃ r : ℝ, (V c main_v0_0 : S8x2048x64.Idx → EReal) i = (r : EReal))
    (hK : ∀ i, ∃ r : ℝ, (V c main_v0_1 : S8x2048x64.Idx → EReal) i = (r : EReal))
    (hV : ∀ i, ∃ r : ℝ, (V c main_v0_2 : S8x2048x64.Idx → EReal) i = (r : EReal)) :
    ((dat1 (F := Ideal) V c).arrAt 3 cfg1.N : S8x2048x64.Idx → EReal)
      = attnArr (V c main_v0_0) (V c main_v0_1) (V c main_v0_2) :=
  out_final_of V c (out_row V c hQ hK hV)

end Cert.KernelIdeal.Hand

end
-- ==== Proof.Claims.lean ====
import proofs.«133872_j34866544509086_2_alg».proof.Defs
import proofs.«133872_j34866544509086_2_alg».proof.Proof.Gen.Kernel
import proofs.«133872_j34866544509086_2_alg».proof.Proof.Gen.KernelIdeal
import proofs.«133872_j34866544509086_2_alg».proof.Proof.Gen.ReferenceIdeal
import proofs.«133872_j34866544509086_2_alg».proof.Proof.Gen.Pre_finite_inputs
import proofs.«133872_j34866544509086_2_alg».proof.Proof.Gen.ReferenceIdeal.Run
import proofs.«133872_j34866544509086_2_alg».proof.Proof.RefIsSpec
import proofs.«133872_j34866544509086_2_alg».proof.Proof.FiniteInputs
import proofs.«133872_j34866544509086_2_alg».proof.Proof.AssembleI
import proofs.«133872_j34866544509086_2_alg».proof.Proof.AssembleB
import proofs.«133872_j34866544509086_2_alg».proof.Proof.AttnBridgeI
import proofs.«133872_j34866544509086_2_alg».proof.Proof.AttnValueI
import Idealize.ShloMosaic.PureOps.IdealRules

/-!
  The five claims.

  Both kernel programs run as two regions, the projections and the attention region; the run ends with every
  argument array as launched and, for the idealized program, with the result array at what the attention region's
  write-outs leave. At the extended reals that array is causal attention of the launch arrays: the projection
  region leaves Q = q·Wq, K = k·Wk, V = k·Wv (real numbers, the inputs being real), and each written-out block is,
  row by row, the one-pass masked softmax-weighted sum of V — the online recurrence over one or two key tiles
  collapsed. The reference's run ends at the same function of the same arrays, read one host operation at a time.
  The mask's finite stand-in is -∞ by the constants' table.
-/

noncomputable section

namespace Cert.Proof.Claims

open Idealize.ShloMosaic Idealize.ShloMosaic.TcCoe Idealize.SL.Sem

/-! ## The frames -/

theorem frame_k : Cert.frame_Kernel := fun m ρ _ =>
  (θ_run Cert.Kernel.defs _ _).mono (fun _ h c => (h c).2) (Cert.Kernel.Hand.run_all (F := Bits) m ρ)

theorem frame_ki : Cert.frame_KernelIdeal := fun m ρ _ =>
  (θ_run Cert.KernelIdeal.defs _ _).mono (fun _ h c => (h c).2) (Cert.KernelIdeal.Hand.run_all (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

/-! ## The idealization's one rewrite -/

/-- The mask's fill, the finite word of -1e9, is read as -∞ at the extended reals by the constants' table. -/
theorem preserves : Cert.preserves_Kernel_KernelIdeal :=
  IdealRules.named_const.statement Cert.KernelIdeal.κ "neg_big" .f32 0xCE6E6B28#32 ⊥ rfl

/-! ## The two idealized programs end with the same result -/

/-- The result both runs end with: causal attention of the launch arrays. -/
def out (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v1) :=
  Cert.Attn.attnG (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))

/-- What the attention region's write-outs leave in the result array, from the launch arrays. -/
theorem kernel_value (m : (ℓ : Loc Cert.KernelIdeal.nD Cert.KernelIdeal.τ Cert.KernelIdeal.sig) → Buf (Elt Ideal) ℓ) (ρ : Dev Cert.KernelIdeal.nD → PrngReg)
    (hm : Cert.Pre_KernelIdeal m) (c : Dev Cert.KernelIdeal.nD) :
    (Cert.KernelIdeal.Hand.dat1 (F := Ideal) (Cert.KernelIdeal.Hand.V2 m ρ) c).arrAt 3 Cert.KernelIdeal.cfg1.N = out m c := by
  have hr := Cert.Attn.Fin.real_of_pre _ _ _ _ _ (hm c)
  exact Cert.KernelIdeal.Hand.attn_of_parts_real (Cert.KernelIdeal.Hand.V2 m ρ) c (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
    hr.1 hr.2.1 hr.2.2.1 hr.2.2.2.1 hr.2.2.2.2
    ((Cert.KernelIdeal.Hand.V2_main_v0_0 m ρ c).trans (Cert.KernelIdeal.Hand.Q_final (Cert.KernelIdeal.Hand.V0 m) c))
    ((Cert.KernelIdeal.Hand.V2_main_v0_1 m ρ c).trans (Cert.KernelIdeal.Hand.K_final (Cert.KernelIdeal.Hand.V0 m) c))
    ((Cert.KernelIdeal.Hand.V2_main_v0_2 m ρ c).trans (Cert.KernelIdeal.Hand.V_final (Cert.KernelIdeal.Hand.V0 m) c))
    (fun h0 h1 h2 => (Cert.KernelIdeal.Hand.out_final (Cert.KernelIdeal.Hand.V2 m ρ) c h0 h1 h2).trans rfl)

theorem algebraic : Cert.algebraic_KernelIdeal_ReferenceIdeal := by
  intro m ρ m' ρ' hpre hagree
  refine ⟨out m, ?_, ?_⟩
  · exact (θ_run Cert.KernelIdeal.defs _ _).mono (fun _ h c => ⟨(h c).1.trans (kernel_value m ρ hpre c), (h c).2⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v20_eq, Cert.Attn.Ref.ref_eq, (hagree c).1, (hagree c).2.1, (hagree c).2.2.1,
      (hagree c).2.2.2.1, (hagree c).2.2.2.2]
    rfl

end Cert.Proof.Claims

end
-- ==== Proof.lean ====
/- The proof of `Cert.Claim`: a Pallas kernel for causal single-head attention with bias-free projections — a projection
   region (Q = q·Wq, K = k·Wk, V = k·Wv, block by block) and an attention region that runs an online softmax over key
   tiles with a running maximum, normaliser and weighted sum kept between grid points — against the plain program
   (projections, scaled masked scores, softmax over all keys, weighted sum of V).
   The three frames: each kernel program is two regions, and each region's body is run at every grid point (the
   attention body in its three control cases: reset and update; update and write-out; write-out alone), the state
   carried by the region's invariant; the reference is a straight line of host operations.
   `preserves`: the mask's finite fill is -∞ at the extended reals, by the constants' table.
   `algebraic`: at the extended reals both programs end at one function of the launch arrays, index by index
   ∑ over keys s ≤ t of (exp (w s - M) / Z) · V s, with w the scaled energies, M their maximum and Z the normaliser: the
   kernel's tile-by-tile recurrence collapses to it by the rescaling identity exp (M - M') · exp (w - M) = exp (w - M'),
   a masked key contributing exp (-∞) = 0, every quantity being a real number because the inputs are.
   The claims are proved in Proof/Claims.lean over the modules it imports; here they are assembled behind the
   witnesses of the programs' stated facts. -/
import proofs.«133872_j34866544509086_2_alg».proof.Defs
import proofs.«133872_j34866544509086_2_alg».proof.Proof.Claims
import proofs.«133872_j34866544509086_2_alg».proof.Proof.Gen.Kernel
import proofs.«133872_j34866544509086_2_alg».proof.Proof.Gen.KernelIdeal
import proofs.«133872_j34866544509086_2_alg».proof.Proof.Gen.ReferenceIdeal
import proofs.«133872_j34866544509086_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
